-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x512x256 : Shape := ⟨3, ![2, 512, 256]⟩
abbrev S_ : Shape := ⟨0, ![]⟩

class Facts : Prop where
  bcast_S_S2x512x256 : S_.BroadcastsInDim S2x512x256 (![] : Fin 0 → Fin S2x512x256.rank)
  reducesTo_S2x512x256_S_d0_1_2 : S2x512x256.ReducesTo [0, 1, 2] S_
  h_S_ : 0 < S_.numel

variable [Facts]

def fn {F : FTy → Type} [FloatOps F] (main_arg0 : FVec F S2x512x256 .f32) : IVec S_ 1 :=
  let main_v0 : FVec F S2x512x256 .f32 := Host.absf main_arg0
  let main_cst : FVec F S_ .f32 := constant S_ .f32 0x7F800000#32
  let main_v1 : FVec F S2x512x256 .f32 := broadcastInDim S2x512x256 ![] bcast_S_S2x512x256 main_cst
  let main_v2 : IVec S2x512x256 1 := cmpf .olt main_v0 main_v1
  let main_c : IVec S_ 1 := constantI S_ 1 1#1
  let main_v3 : IVec S_ 1 := (fun x v => Host.reduce IntOp.andi x v reducesTo_S2x512x256_S_d0_1_2 h_S_) main_v2 main_c
  main_v3
-- ==== Kernel.lean ====
abbrev S2x512x256 : Shape := ⟨3, ![2, 512, 256]⟩
abbrev S2x256x512 : Shape := ⟨3, ![2, 256, 512]⟩
abbrev S2x512x512 : Shape := ⟨3, ![2, 512, 512]⟩
abbrev S1x128x256 : Shape := ⟨3, ![1, 128, 256]⟩
abbrev S1x256x128 : Shape := ⟨3, ![1, 256, 128]⟩
abbrev S1x128x512 : Shape := ⟨3, ![1, 128, 512]⟩
abbrev S128x1 : Shape := ⟨2, ![128, 1]⟩
abbrev S128x256 : Shape := ⟨2, ![128, 256]⟩
abbrev S256x128 : Shape := ⟨2, ![256, 128]⟩
abbrev S128x128 : Shape := ⟨2, ![128, 128]⟩
abbrev S128x64 : Shape := ⟨2, ![128, 64]⟩
abbrev S64x128 : Shape := ⟨2, ![64, 128]⟩
abbrev S128x64x1 : Shape := ⟨3, ![128, 64, 1]⟩
abbrev S1x64x128 : Shape := ⟨3, ![1, 64, 128]⟩
abbrev S128x64x128 : Shape := ⟨3, ![128, 64, 128]⟩
abbrev S128 : Shape := ⟨1, ![128]⟩

abbrev nBuf : Space → Nat
  | .hbm => 3
  | .vmem => 11
  | .smem => 0
  | _ => 0

abbrev bufTy : (tb : Table) → Fin (tcTables nBuf tb) → BufTy
  | .hbm, ⟨0, _⟩ => ⟨S2x512x256, .f32⟩
  | .hbm, ⟨1, _⟩ => ⟨S2x256x512, .f32⟩
  | .hbm, ⟨2, _⟩ => ⟨S2x512x512, .f32⟩
  | .local _ .vmem, ⟨0, _⟩ => ⟨S1x128x256, .f32⟩
  | .local _ .vmem, ⟨1, _⟩ => ⟨S1x128x256, .f32⟩
  | .local _ .vmem, ⟨2, _⟩ => ⟨S1x128x256, .f32⟩
  | .local _ .vmem, ⟨3, _⟩ => ⟨S1x128x256, .f32⟩
  | .local _ .vmem, ⟨4, _⟩ => ⟨S1x256x128, .f32⟩
  | .local _ .vmem, ⟨5, _⟩ => ⟨S1x256x128, .f32⟩
  | .local _ .vmem, ⟨6, _⟩ => ⟨S1x128x512, .f32⟩
  | .local _ .vmem, ⟨7, _⟩ => ⟨S1x128x512, .f32⟩
  | .local _ .vmem, ⟨8, _⟩ => ⟨S128x1, .f32⟩
  | .local _ .vmem, ⟨9, _⟩ => ⟨S128x1, .f32⟩
  | .local _ .vmem, ⟨10, _⟩ => ⟨S128x256, .f32⟩
  | _, _ => ⟨S2x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 4], ![false, false, false]⟩

def k0_cond2 (i : grid0.Coords) : BitVec 1 :=
  let arg2 : BitVec 32 := BitVec.ofNat 32 (i 2).val
  let c3_i32 : BitVec 32 := 3#32
  let v82 : BitVec 1 := Scalar.cmpi .eq arg2 c3_i32
  let v83 : BitVec 32 := Scalar.extui v82
  let c0_i32_29 : BitVec 32 := 0#32
  let v84 : BitVec 1 := Scalar.cmpi .ne v83 c0_i32_29
  v84

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  transposes_S2x512x256_S2x256x512_0_2_1 : S2x512x256.Transposes [0, 2, 1] S2x256x512
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x128x256_S1x128x256_0_0_0 : ∀ a, (![0, 0, 0] : Fin 3 → Nat) a + S1x128x256.size a ≤ S1x128x256.size a
  h_S1x128x256 : 0 < S1x128x256.numel
  shapeCasts_S1x128x256_S128x256 : S1x128x256.ShapeCasts S128x256
  inb_S1x256x128_S1x256x128_0_0_0 : ∀ a, (![0, 0, 0] : Fin 3 → Nat) a + S1x256x128.size a ≤ S1x256x128.size a
  h_S1x256x128 : 0 < S1x256x128.numel
  shapeCasts_S1x256x128_S256x128 : S1x256x128.ShapeCasts S256x128
  slices_S128x256_o0_0_S128x64 : S128x256.Slices ![0, 0] S128x64
  slices_S256x128_o0_0_S64x128 : S256x128.Slices ![0, 0] S64x128
  shapeCasts_S128x64_S128x64x1 : S128x64.ShapeCasts S128x64x1
  shapeCasts_S64x128_S1x64x128 : S64x128.ShapeCasts S1x64x128
  broadcasts_S128x64x1_S128x64x128 : S128x64x1.Broadcasts S128x64x128
  broadcasts_S1x64x128_S128x64x128 : S1x64x128.Broadcasts S128x64x128
  reduces_S128x64x128_S128x128 : S128x64x128.Reduces [1] S128x128
  slices_S128x256_o0_64_S128x64 : S128x256.Slices ![0, 64] S128x64
  slices_S256x128_o64_0_S64x128 : S256x128.Slices ![64, 0] S64x128
  slices_S128x256_o0_128_S128x64 : S128x256.Slices ![0, 128] S128x64
  slices_S256x128_o128_0_S64x128 : S256x128.Slices ![128, 0] S64x128
  slices_S128x256_o0_192_S128x64 : S128x256.Slices ![0, 192] S128x64
  slices_S256x128_o192_0_S64x128 : S256x128.Slices ![192, 0] S64x128
  reduces_S128x128_S128 : S128x128.Reduces [1] S128
  shapeCasts_S128_S128x1 : S128.ShapeCasts S128x1
  broadcasts_S128x1_S128x128 : S128x1.Broadcasts S128x128
  broadcasts_S128x1_S128x256 : S128x1.Broadcasts S128x256
  bitsLt_bf16_f32 : FTy.bits .bf16 < FTy.bits .f32
  inb_S1x128x512_S1x128x256_0_0_0 : ∀ a, (![0, 0, 0] : Fin 3 → Nat) a + S1x128x256.size a ≤ S1x128x512.size a
  shapeCasts_S128x256_S1x128x256 : S128x256.ShapeCasts S1x128x256
  inb_S1x128x512_S1x128x256_0_0_256 : ∀ a, (![0, 0, 256] : Fin 3 → Nat) a + S1x128x256.size a ≤ S1x128x512.size a
  dot_S128x128_S128x256_S128x256_1_0_0_1_n_n_wf : DotDims.WF S128x128 S128x256 S128x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x256.size a ≤ S2x512x256.size a
  hwx0_0 : ∀ i : grid0.Coords, EltTy.bits .f32 = 32 ∨ (Rect.block (s := S2x512x256) S1x128x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x256.size a ≤ S2x512x256.size a
  hwx0_1 : ∀ i : grid0.Coords, EltTy.bits .f32 = 32 ∨ (Rect.block (s := S2x512x256) S1x128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x128.size a ≤ S2x256x512.size a
  hwx0_2 : ∀ i : grid0.Coords, EltTy.bits .f32 = 32 ∨ (Rect.block (s := S2x256x512) S1x256x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x512.size a ≤ S2x512x512.size a
  hwx0_3 : ∀ i : grid0.Coords, EltTy.bits .f32 = 32 ∨ (Rect.block (s := S2x512x512) S1x128x512.size (cc0_transform_3 i) (hinb0_3 i)).WholeWords (EltTy.packing .f32)

variable [Facts₀]

def dot_S128x128_S128x256_S128x256_1_0_0_1_n_n : DotDims S128x128 S128x256 S128x256 where
  lhsContracting := [1]
  rhsContracting := [0]
  lhsNonContracting := [0]
  rhsNonContracting := [1]
  lhsBatch := []
  rhsBatch := []
  wf := dot_S128x128_S128x256_S128x256_1_0_0_1_n_n_wf

abbrev win0_0 : Pipeline.Window sig grid0 :=
  Pipeline.Window.ofSpec (Memref.whole main_arg0) S1x128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x128x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x128x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S2x512x256 : Shape := ⟨3, ![2, 512, 256]⟩
abbrev S2x512x1x256 : Shape := ⟨4, ![2, 512, 1, 256]⟩
abbrev S2x1x512x256 : Shape := ⟨4, ![2, 1, 512, 256]⟩
abbrev S2x512x512x256 : Shape := ⟨4, ![2, 512, 512, 256]⟩
abbrev S_ : Shape := ⟨0, ![]⟩
abbrev S2x512x512 : Shape := ⟨3, ![2, 512, 512]⟩
abbrev S2x512 : Shape := ⟨2, ![2, 512]⟩
abbrev S2x512x1 : Shape := ⟨3, ![2, 512, 1]⟩

abbrev nBuf : Space → Nat
  | .hbm => 26
  | .vmem => 0
  | .smem => 0
  | _ => 0

abbrev bufTy : (tb : Table) → Fin (tcTables nBuf tb) → BufTy
  | .hbm, ⟨0, _⟩ => ⟨S2x512x256, .f32⟩
  | .hbm, ⟨1, _⟩ => ⟨S2x512x1x256, .f32⟩
  | .hbm, ⟨2, _⟩ => ⟨S2x1x512x256, .f32⟩
  | .hbm, ⟨3, _⟩ => ⟨S2x512x512x256, .f32⟩
  | .hbm, ⟨4, _⟩ => ⟨S2x512x512x256, .f32⟩
  | .hbm, ⟨5, _⟩ => ⟨S2x512x512x256, .f32⟩
  | .hbm, ⟨6, _⟩ => ⟨S2x512x512x256, .f32⟩
  | .hbm, ⟨7, _⟩ => ⟨S_, .f32⟩
  | .hbm, ⟨8, _⟩ => ⟨S2x512x512, .f32⟩
  | .hbm, ⟨9, _⟩ => ⟨S2x512x512, .f32⟩
  | .hbm, ⟨10, _⟩ => ⟨S_, .f32⟩
  | .hbm, ⟨11, _⟩ => ⟨S2x512, .f32⟩
  | .hbm, ⟨12, _⟩ => ⟨S_, .f32⟩
  | .hbm, ⟨13, _⟩ => ⟨S2x512, .f32⟩
  | .hbm, ⟨14, _⟩ => ⟨S2x512, .f32⟩
  | .hbm, ⟨15, _⟩ => ⟨S2x512x1, .f32⟩
  | .hbm, ⟨16, _⟩ => ⟨S2x512x512, .f32⟩
  | .hbm, ⟨17, _⟩ => ⟨S2x512x512, .f32⟩
  | .hbm, ⟨18, _⟩ => ⟨S2x512x512, .f32⟩
  | .hbm, ⟨19, _⟩ => ⟨S_, .f32⟩
  | .hbm, ⟨20, _⟩ => ⟨S2x512, .f32⟩
  | .hbm, ⟨21, _⟩ => ⟨S2x512x1, .f32⟩
  | .hbm, ⟨22, _⟩ => ⟨S2x512x512, .f32⟩
  | .hbm, ⟨23, _⟩ => ⟨S2x512x512, .f32⟩
  | .hbm, ⟨24, _⟩ => ⟨S2x512x256, .f32⟩
  | .hbm, ⟨25, _⟩ => ⟨S2x512x512, .f32⟩
  | _, _ => ⟨S2x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_cst : Ref sig .tc := ⟨.hbm, 7, rfl⟩
abbrev main_v6 : Ref sig .tc := ⟨.hbm, 8, rfl⟩
abbrev main_v7 : Ref sig .tc := ⟨.hbm, 9, rfl⟩
abbrev main_cst_0 : Ref sig .tc := ⟨.hbm, 10, rfl⟩
abbrev main_v8 : Ref sig .tc := ⟨.hbm, 11, rfl⟩
abbrev main_cst_1 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_2 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩

abbrev nD : Nat := 1
abbrev τ : Topo := Topo.v7x

variable {F : FTy → Type} [FloatOps F]

class Facts₀ : Prop where
  bcast_S2x512x256_S2x512x1x256_0_1_3 : S2x512x256.BroadcastsInDim S2x512x1x256 (![0, 1, 3] : Fin 3 → Fin S2x512x1x256.rank)
  bcast_S2x512x256_S2x1x512x256_0_2_3 : S2x512x256.BroadcastsInDim S2x1x512x256 (![0, 2, 3] : Fin 3 → Fin S2x1x512x256.rank)
  bcast_S2x512x1x256_S2x512x512x256_0_1_2_3 : S2x512x1x256.BroadcastsInDim S2x512x512x256 (![0, 1, 2, 3] : Fin 4 → Fin S2x512x512x256.rank)
  bcast_S2x1x512x256_S2x512x512x256_0_1_2_3 : S2x1x512x256.BroadcastsInDim S2x512x512x256 (![0, 1, 2, 3] : Fin 4 → Fin S2x512x512x256.rank)
  reducesTo_S2x512x512x256_S2x512x512_d3 : S2x512x512x256.ReducesTo [3] S2x512x512
  h_S_ : 0 < S_.numel
  reducesTo_S2x512x512_S2x512_d2 : S2x512x512.ReducesTo [2] S2x512
  bcast_S_S2x512 : S_.BroadcastsInDim S2x512 (![] : Fin 0 → Fin S2x512.rank)
  bcast_S2x512_S2x512x1_0_1 : S2x512.BroadcastsInDim S2x512x1 (![0, 1] : Fin 2 → Fin S2x512x1.rank)
  bcast_S2x512x1_S2x512x512_0_1_2 : S2x512x1.BroadcastsInDim S2x512x512 (![0, 1, 2] : Fin 3 → Fin S2x512x512.rank)
  concatenates_S2x512x256_S2x512x256_S2x512x512_d2 : Shape.Concatenates [S2x512x256, S2x512x256] S2x512x512 2
  dot_S2x512x512_S2x512x256_S2x512x256_2_1_1_2_0_0_wf : DotDims.WF S2x512x512 S2x512x256 S2x512x256 [2] [1] [1] [2] [0] [0]

variable [Facts₀]

def dot_S2x512x512_S2x512x256_S2x512x256_2_1_1_2_0_0 : DotDims S2x512x512 S2x512x256 S2x512x256 where
  lhsContracting := [2]
  rhsContracting := [1]
  lhsNonContracting := [1]
  rhsNonContracting := [2]
  lhsBatch := [0]
  rhsBatch := [0]
  wf := dot_S2x512x512_S2x512x256_S2x512x256_2_1_1_2_0_0_wf

class Facts : Prop extends Facts₀ where

variable [Facts]
-- ==== Proof.K.Setup.lean ====
/-
  The attention kernel's launch, shared by its three control cases.

  The grid is 2 batches × 4 query tiles × 4 key tiles, visited with the key tile innermost, so point `t` is at key
  tile `t % 4`.  The body resets its three scratch buffers (running maximum, denominator, numerator) at key tile 0,
  updates them at every key tile, and stores the result block only at key tile 3: elsewhere the result window is idle
  and is not written back.  The host transposes the input once before the region; the query window and the key/value
  window both read the input array, the transposed-key window reads the transpose.
-/
import proofs.«103369_j4544075399227_2_alg».proof.Proof.Gen.Kernel.Launch
import proofs.«103369_j4544075399227_2_alg».proof.Proof.Gen.Kernel.Skeleton
import proofs.«103369_j4544075399227_2_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The core's buffers when the region is entered: the launch contents after the host's transpose. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is the transpose, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The transpose writes its own result only: the region finds the input array as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, Finset.mem_singleton]
    exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (the query window
    is fetched only when the query tile changes; its index does not move in between). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions, over the grid -/

/-- "This is the first key tile": the reset of the scratch buffers. -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- "This is the last key tile": the result block is stored. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from the last key tile the result window is idle and is not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- At the last key tile it is live. -/
theorem liveAt0_3 : ∀ t : Fin cfg0.N, cond0_1 (grid0.coords t) → cfg0.idle 3 (grid0.coords t) = false := by decide +kernel

/-! ## The memrefs the body is called with -/

abbrev ms0_0 (t : Fin cfg0.N) : Memref sig .tc .vmem S1x128x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x128x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128x512 .f32 := win0_3.stage (cfg0.slots t 3)
abbrev hs0_3 (t : Fin cfg0.N) : (ms0_3 t).IsWhole := hstage0_3 ((cfg0.slots t 3).cast nbuf0_3)
/-- The running maximum, the running denominator and the running numerator. -/
abbrev scM0_0 : Memref sig .tc .vmem S128x1 .f32 := Memref.whole cc0_scratch0
abbrev scM0_1 : Memref sig .tc .vmem S128x1 .f32 := Memref.whole cc0_scratch1
abbrev scM0_2 : Memref sig .tc .vmem S128x256 .f32 := Memref.whole cc0_scratch2
abbrev VS0_0 : View sig .tc .vmem S128x1 .f32 := scM0_0.view
abbrev VS0_1 : View sig .tc .vmem S128x1 .f32 := scM0_1.view
abbrev VS0_2 : View sig .tc .vmem S128x256 .f32 := scM0_2.view
/-- One staging buffer of the result window, through which its contents are stated. -/
abbrev VO0_3 : View sig .tc .vmem S1x128x512 .f32 := (Memref.whole cc0_stg3_0 : Memref sig .tc .vmem S1x128x512 .f32).view

/-- The scoped buffers that are no staging buffer are the three scratch buffers, each owned at some contents. -/
theorem scoped0_eq (c : Dev nD) :
    (Pipeline.scopedRest (Ix := Unit) (Name := ℕ) (U := UR sig nD τ) (Lvl := ℕ) (Val := Elt F) spec0 c : sProp 𝕄)
      = iprop((∃ d, owns (c : Thread nD τ) scM0_0 fullShare d) ∗ (∃ d, owns (c : Thread nD τ) scM0_1 fullShare d) ∗ (∃ d, owns (c : Thread nD τ) scM0_2 fullShare d)) := by
  rw [scopedRest0_eq]; simp only [scM0_0, scM0_1, scM0_2, owns_whole]; try rfl

end Cert.Kernel.Fr

end
-- ==== Proof.K.RunA.lean ====
/-
  The attention body at the FIRST key tile of a query tile: the three scratch buffers are reset (maximum to -inf,
  denominator and numerator to zero) and then updated from the tile; nothing is stored into the result block.
  The stores each scratch buffer ends with are found by running the body.
-/
import proofs.«103369_j4544075399227_2_alg».proof.Proof.K.Setup

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's run at a first key tile, on whole memrefs: the inputs at their contents, the result buffer handed back as
    it was, the scratch buffers at anything before and at the run's stores after. -/
noncomputable def kernelRun0_A (c : Dev nD) (i : grid0.Coords) (arg3 : Memref sig .tc .vmem S1x128x256 .f32) (harg3 : arg3.IsWhole) (arg4 : Memref sig .tc .vmem S1x128x256 .f32) (harg4 : arg4.IsWhole) (arg5 : Memref sig .tc .vmem S1x256x128 .f32) (harg5 : arg5.IsWhole) (arg6 : Memref sig .tc .vmem S1x128x512 .f32) (harg6 : arg6.IsWhole) (arg7 : Memref sig .tc .vmem S128x1 .f32) (harg7 : arg7.IsWhole) (arg8 : Memref sig .tc .vmem S128x1 .f32) (harg8 : arg8.IsWhole) (arg9 : Memref sig .tc .vmem S128x256 .f32) (harg9 : arg9.IsWhole) (hc0 : cond0_0 i) (hc1 : ¬cond0_1 i)
    (x0 : Vec F S1x128x256 .f32) (x1 : Vec F S1x128x256 .f32) (x2 : Vec F S1x256x128 .f32) :
    Σ' (LS0 : List (View.Piece (Elt F) S128x1 .f32)) (LS1 : List (View.Piece (Elt F) S128x1 .f32)), { LS2 : List (View.Piece (Elt F) S128x256 .f32) //
      ∀ (xi3 : Vec F S1x128x512 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0__attn_kernel i arg3 harg3 arg4 harg4 arg5 harg5 arg6 harg6 arg7 harg7 arg8 harg8 arg9 harg9) K } := by
  refine ⟨?_, ?_, ?_, fun xi3 E K => ?run⟩
  case run =>
    simp only [cc0__attn_kernel_eq_skeleton]; unfold cc0__attn_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.Kernel.Fr

end
-- ==== Proof.K.RunB.lean ====
/-
  The attention body at a MIDDLE key tile (neither the first nor the last of a query tile): the three scratch buffers,
  found at what the previous key tile left, are updated from the tile; nothing is stored into the result block.
-/
import proofs.«103369_j4544075399227_2_alg».proof.Proof.K.RunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's run at a middle key tile, on whole memrefs: the inputs at their contents, the result buffer handed back as
    it was, the scratch buffers at the contents found and then at the run's stores. -/
noncomputable def kernelRun0_B (c : Dev nD) (i : grid0.Coords) (arg3 : Memref sig .tc .vmem S1x128x256 .f32) (harg3 : arg3.IsWhole) (arg4 : Memref sig .tc .vmem S1x128x256 .f32) (harg4 : arg4.IsWhole) (arg5 : Memref sig .tc .vmem S1x256x128 .f32) (harg5 : arg5.IsWhole) (arg6 : Memref sig .tc .vmem S1x128x512 .f32) (harg6 : arg6.IsWhole) (arg7 : Memref sig .tc .vmem S128x1 .f32) (harg7 : arg7.IsWhole) (arg8 : Memref sig .tc .vmem S128x1 .f32) (harg8 : arg8.IsWhole) (arg9 : Memref sig .tc .vmem S128x256 .f32) (harg9 : arg9.IsWhole) (hc0 : ¬cond0_0 i) (hc1 : ¬cond0_1 i)
    (x0 : Vec F S1x128x256 .f32) (x1 : Vec F S1x128x256 .f32) (x2 : Vec F S1x256x128 .f32) (xs0 : Vec F S128x1 .f32) (xs1 : Vec F S128x1 .f32) (xs2 : Vec F S128x256 .f32) :
    Σ' (LS0 : List (View.Piece (Elt F) S128x1 .f32)) (LS1 : List (View.Piece (Elt F) S128x1 .f32)), { LS2 : List (View.Piece (Elt F) S128x256 .f32) //
      ∀ (xi3 : Vec F S1x128x512 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare xi3
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0__attn_kernel i arg3 harg3 arg4 harg4 arg5 harg5 arg6 harg6 arg7 harg7 arg8 harg8 arg9 harg9) K } := by
  refine ⟨?_, ?_, ?_, fun xi3 E K => ?run⟩
  case run =>
    simp only [cc0__attn_kernel_eq_skeleton]; unfold cc0__attn_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.Kernel.Fr

end
-- ==== Proof.K.RunC.lean ====
/-
  The attention body at the LAST key tile of a query tile: the scratch buffers are updated from the tile, and the
  result block is stored in two halves — the query rows, then the numerator divided by the denominator.
-/
import proofs.«103369_j4544075399227_2_alg».proof.Proof.K.RunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's run at a last key tile, on whole memrefs: the inputs at their contents, the result buffer at anything
    before and at the run's two stores after, the scratch buffers at the contents found and then at the run's stores. -/
noncomputable def kernelRun0_C (c : Dev nD) (i : grid0.Coords) (arg3 : Memref sig .tc .vmem S1x128x256 .f32) (harg3 : arg3.IsWhole) (arg4 : Memref sig .tc .vmem S1x128x256 .f32) (harg4 : arg4.IsWhole) (arg5 : Memref sig .tc .vmem S1x256x128 .f32) (harg5 : arg5.IsWhole) (arg6 : Memref sig .tc .vmem S1x128x512 .f32) (harg6 : arg6.IsWhole) (arg7 : Memref sig .tc .vmem S128x1 .f32) (harg7 : arg7.IsWhole) (arg8 : Memref sig .tc .vmem S128x1 .f32) (harg8 : arg8.IsWhole) (arg9 : Memref sig .tc .vmem S128x256 .f32) (harg9 : arg9.IsWhole) (hc0 : ¬cond0_0 i) (hc1 : cond0_1 i)
    (x0 : Vec F S1x128x256 .f32) (x1 : Vec F S1x128x256 .f32) (x2 : Vec F S1x256x128 .f32) (xs0 : Vec F S128x1 .f32) (xs1 : Vec F S128x1 .f32) (xs2 : Vec F S128x256 .f32) :
    Σ' (L3 : List (View.Piece (Elt F) S1x128x512 .f32)) (LS0 : List (View.Piece (Elt F) S128x1 .f32)) (LS1 : List (View.Piece (Elt F) S128x1 .f32)), { LS2 : List (View.Piece (Elt F) S128x256 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0__attn_kernel i arg3 harg3 arg4 harg4 arg5 harg5 arg6 harg6 arg7 harg7 arg8 harg8 arg9 harg9) K } := by
  refine ⟨?_, ?_, ?_, ?_, fun E K => ?run⟩
  case run =>
    simp only [cc0__attn_kernel_eq_skeleton]; unfold cc0__attn_kernel_skel
    simp only [k0_part1_eq_skeleton, k0_part2_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    iexists _; iexact HS2

end Cert.Kernel.Fr

end
-- ==== Proof.K.Held.lean ====
/-
  What the attention kernel's buffers hold point by point, and the body at every point.

  After the body at grid point `t` the three scratch buffers hold what the point's case leaves in them — at a first
  key tile a function of the point's blocks alone, elsewhere also of what the previous point left —, and at a last
  key tile the result window's staging buffer holds the two halves the body stores.  This is a recursion on the
  point (`heldAfter`); the region's invariant between two points is the three scratch buffers at its scratch
  components; the body's run in each case discharges the per-point obligation.
-/
import proofs.«103369_j4544075399227_2_alg».proof.Proof.K.RunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the result window's buffer and the three scratch buffers hold after a point. -/
abbrev Held (F : FTy → Type) : Type := Vec F S1x128x512 .f32 × Vec F S128x1 .f32 × Vec F S128x1 .f32 × Vec F S128x256 .f32

/-- After a first key tile: the scratch buffers at the run's stores; the result buffer is not stored into (a
    placeholder nothing consults: the window is idle there and is not written back). -/
def afterFirst (c : Dev nD) (t : Fin cfg0.N) (h0 : t.val % 4 = 0) (h1 : ¬t.val % 4 = 3) : Held F :=
  (VO0_3.read (Elt F) VO0_3.junk,
   VS0_0.read (Elt F) (VS0_0.writes (Elt F) VS0_0.junk (kernelRun0_A c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t)).1),
   VS0_1.read (Elt F) (VS0_1.writes (Elt F) VS0_1.junk (kernelRun0_A c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t)).2.1),
   VS0_2.read (Elt F) (VS0_2.writes (Elt F) VS0_2.junk (kernelRun0_A c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t)).2.2.1))

/-- After a middle key tile, over what the previous point left in the scratch buffers. -/
def afterMiddle (c : Dev nD) (t : Fin cfg0.N) (h0 : ¬t.val % 4 = 0) (h1 : ¬t.val % 4 = 3) (p : Held F) : Held F :=
  (VO0_3.read (Elt F) VO0_3.junk,
   VS0_0.read (Elt F) (VS0_0.writes (Elt F) VS0_0.junk (kernelRun0_B c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) p.2.1 p.2.2.1 p.2.2.2).1),
   VS0_1.read (Elt F) (VS0_1.writes (Elt F) VS0_1.junk (kernelRun0_B c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) p.2.1 p.2.2.1 p.2.2.2).2.1),
   VS0_2.read (Elt F) (VS0_2.writes (Elt F) VS0_2.junk (kernelRun0_B c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) p.2.1 p.2.2.1 p.2.2.2).2.2.1))

/-- After a last key tile, over what the previous point left in the scratch buffers: the result buffer at the run's
    two stores. -/
def afterLast (c : Dev nD) (t : Fin cfg0.N) (h0 : ¬t.val % 4 = 0) (h1 : t.val % 4 = 3) (p : Held F) : Held F :=
  (VO0_3.read (Elt F) (VO0_3.writes (Elt F) VO0_3.junk (kernelRun0_C c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) p.2.1 p.2.2.1 p.2.2.2).1),
   VS0_0.read (Elt F) (VS0_0.writes (Elt F) VS0_0.junk (kernelRun0_C c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) p.2.1 p.2.2.1 p.2.2.2).2.1),
   VS0_1.read (Elt F) (VS0_1.writes (Elt F) VS0_1.junk (kernelRun0_C c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) p.2.1 p.2.2.1 p.2.2.2).2.2.1),
   VS0_2.read (Elt F) (VS0_2.writes (Elt F) VS0_2.junk (kernelRun0_C c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) p.2.1 p.2.2.1 p.2.2.2).2.2.2.1))

/-- The stores of each case cover the buffer they go into. -/
theorem coverFirst0 (c : Dev nD) (t : Fin cfg0.N) (h0 : t.val % 4 = 0) (h1 : ¬t.val % 4 = 3) (y : S128x1.Idx) :
    ∃ pc ∈ (kernelRun0_A c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t)).1, y ∈ pc.1.set := View.cover_of_tiledL _ S128x1.size (by sl_kernel_rfl) y
theorem coverFirst1 (c : Dev nD) (t : Fin cfg0.N) (h0 : t.val % 4 = 0) (h1 : ¬t.val % 4 = 3) (y : S128x1.Idx) :
    ∃ pc ∈ (kernelRun0_A c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t)).2.1, y ∈ pc.1.set := View.cover_of_tiledL _ S128x1.size (by sl_kernel_rfl) y
theorem coverFirst2 (c : Dev nD) (t : Fin cfg0.N) (h0 : t.val % 4 = 0) (h1 : ¬t.val % 4 = 3) (y : S128x256.Idx) :
    ∃ pc ∈ (kernelRun0_A c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t)).2.2.1, y ∈ pc.1.set := View.cover_of_tiledL _ S128x256.size (by sl_kernel_rfl) y
theorem coverMiddle0 (c : Dev nD) (t : Fin cfg0.N) (h0 : ¬t.val % 4 = 0) (h1 : ¬t.val % 4 = 3) (p : Held F) (y : S128x1.Idx) :
    ∃ pc ∈ (kernelRun0_B c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) p.2.1 p.2.2.1 p.2.2.2).1, y ∈ pc.1.set := View.cover_of_tiledL _ S128x1.size (by sl_kernel_rfl) y
theorem coverMiddle1 (c : Dev nD) (t : Fin cfg0.N) (h0 : ¬t.val % 4 = 0) (h1 : ¬t.val % 4 = 3) (p : Held F) (y : S128x1.Idx) :
    ∃ pc ∈ (kernelRun0_B c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) p.2.1 p.2.2.1 p.2.2.2).2.1, y ∈ pc.1.set := View.cover_of_tiledL _ S128x1.size (by sl_kernel_rfl) y
theorem coverMiddle2 (c : Dev nD) (t : Fin cfg0.N) (h0 : ¬t.val % 4 = 0) (h1 : ¬t.val % 4 = 3) (p : Held F) (y : S128x256.Idx) :
    ∃ pc ∈ (kernelRun0_B c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) p.2.1 p.2.2.1 p.2.2.2).2.2.1, y ∈ pc.1.set := View.cover_of_tiledL _ S128x256.size (by sl_kernel_rfl) y
theorem coverLastOut (c : Dev nD) (t : Fin cfg0.N) (h0 : ¬t.val % 4 = 0) (h1 : t.val % 4 = 3) (p : Held F) (y : S1x128x512.Idx) :
    ∃ pc ∈ (kernelRun0_C c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) p.2.1 p.2.2.1 p.2.2.2).1, y ∈ pc.1.set := View.cover_of_tiledL (s := S1x128x512) _ ![1, 128, 256] (by sl_kernel_rfl) y
theorem coverLast0 (c : Dev nD) (t : Fin cfg0.N) (h0 : ¬t.val % 4 = 0) (h1 : t.val % 4 = 3) (p : Held F) (y : S128x1.Idx) :
    ∃ pc ∈ (kernelRun0_C c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) p.2.1 p.2.2.1 p.2.2.2).2.1, y ∈ pc.1.set := View.cover_of_tiledL _ S128x1.size (by sl_kernel_rfl) y
theorem coverLast1 (c : Dev nD) (t : Fin cfg0.N) (h0 : ¬t.val % 4 = 0) (h1 : t.val % 4 = 3) (p : Held F) (y : S128x1.Idx) :
    ∃ pc ∈ (kernelRun0_C c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) p.2.1 p.2.2.1 p.2.2.2).2.2.1, y ∈ pc.1.set := View.cover_of_tiledL _ S128x1.size (by sl_kernel_rfl) y
theorem coverLast2 (c : Dev nD) (t : Fin cfg0.N) (h0 : ¬t.val % 4 = 0) (h1 : t.val % 4 = 3) (p : Held F) (y : S128x256.Idx) :
    ∃ pc ∈ (kernelRun0_C c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) p.2.1 p.2.2.1 p.2.2.2).2.2.2.1, y ∈ pc.1.set := View.cover_of_tiledL _ S128x256.size (by sl_kernel_rfl) y

/-! ## Point by point -/

/-- What the buffers hold after the body at position `n`: the case the key tile `n % 4` selects, a middle or last
    key tile over what position `n - 1` left. -/
def heldAfter (c : Dev nD) : (n : ℕ) → n < cfg0.N → Held F
  | 0, hn => afterFirst m c ⟨0, hn⟩ (Nat.zero_mod _) (by show ¬(0 % 4 = 3); decide)
  | n + 1, hn =>
    if h0 : (n + 1) % 4 = 0 then
      if h1 : (n + 1) % 4 = 3 then False.elim (by omega)
      else afterFirst m c ⟨n + 1, hn⟩ h0 h1
    else
      if h1 : (n + 1) % 4 = 3 then afterLast m c ⟨n + 1, hn⟩ h0 h1 (heldAfter c n (Nat.lt_of_succ_lt hn))
      else afterMiddle m c ⟨n + 1, hn⟩ h0 h1 (heldAfter c n (Nat.lt_of_succ_lt hn))

theorem heldAfter_first (c : Dev nD) (t : Fin cfg0.N) (h0 : t.val % 4 = 0) (h1 : ¬t.val % 4 = 3) :
    heldAfter m c t.val t.isLt = afterFirst m c t h0 h1 := by
  obtain ⟨n, hn⟩ := t
  cases n with
  | zero => exact rfl
  | succ n => exact (dif_pos h0).trans ((dif_neg h1).trans rfl)

theorem heldAfter_middle (c : Dev nD) (t : Fin cfg0.N) (h0 : ¬t.val % 4 = 0) (h1 : ¬t.val % 4 = 3) :
    heldAfter m c t.val t.isLt = afterMiddle m c t h0 h1 (heldAfter m c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

theorem heldAfter_last (c : Dev nD) (t : Fin cfg0.N) (h0 : ¬t.val % 4 = 0) (h1 : t.val % 4 = 3) :
    heldAfter m c t.val t.isLt = afterLast m c t h0 h1 (heldAfter m c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-- The region's invariant before position `n`: before the first point the scratch buffers at anything; afterwards
    at what the point before left in them. -/
def carried (c : Dev nD) : (n : ℕ) → n ≤ cfg0.N → sProp 𝕄
  | 0, _ => Pipeline.scopedRest spec0 c
  | n + 1, hn => iprop(owns (c : Thread nD τ) scM0_0 fullShare (heldAfter m c n hn).2.1
      ∗ owns (c : Thread nD τ) scM0_1 fullShare (heldAfter m c n hn).2.2.1
      ∗ owns (c : Thread nD τ) scM0_2 fullShare (heldAfter m c n hn).2.2.2)

theorem carried_zero (c : Dev nD) (n : ℕ) (h : n ≤ cfg0.N) (hz : n = 0) : carried m c n h = Pipeline.scopedRest spec0 c := by
  subst hz; rfl

theorem carried_succ (c : Dev nD) (n : ℕ) (hn : n < cfg0.N) :
    carried m c (n + 1) hn = iprop(owns (c : Thread nD τ) scM0_0 fullShare (heldAfter m c n hn).2.1
      ∗ owns (c : Thread nD τ) scM0_1 fullShare (heldAfter m c n hn).2.2.1
      ∗ owns (c : Thread nD τ) scM0_2 fullShare (heldAfter m c n hn).2.2.2) := rfl

theorem carried_pos (c : Dev nD) (n : ℕ) (h : n ≤ cfg0.N) (hz : n ≠ 0) :
    carried m c n h = iprop(owns (c : Thread nD τ) scM0_0 fullShare (heldAfter m c (n - 1) (by omega)).2.1
      ∗ owns (c : Thread nD τ) scM0_1 fullShare (heldAfter m c (n - 1) (by omega)).2.2.1
      ∗ owns (c : Thread nD τ) scM0_2 fullShare (heldAfter m c (n - 1) (by omega)).2.2.2) := by
  cases n with
  | zero => exact absurd rfl hz
  | succ n => rfl

/-! ## The proof data -/

/-- The arrays as the region finds them; after the body each input's buffer at its block and the result's at
    `heldAfter`; the invariant `carried`; nothing owed.  The query window and the key/value window read ONE array:
    each holds half of it; the transposed keys and the result are held outright. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (heldAfter m c t.val t.isLt).1
  Φ t := carried m c t.val (Nat.le_of_lt_succ t.isLt)
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dats m 0 c).A w = V m c (Pipeline.arrRef spec0 w) := by
  dsimp only [dats]

theorem carried_castSucc (c : Dev nD) (t : Fin cfg0.N) :
    (dats m 0 c).Φ t.castSucc = carried m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (heldAfter m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

end Cert.Kernel.Fr

end
-- ==== Proof.K.Body.lean ====
/-
  The attention body at every grid point: from the scratch buffers at what the previous point left (at anything before
  the first point, and at anything at a first key tile, which resets them) and each window's buffer at what the
  pipeline put there, the body runs to the scratch buffers at this point's contents, the inputs as they were, and the
  result buffer untouched away from the last key tile and at the two halves stored at it.
-/
import proofs.«103369_j4544075399227_2_alg».proof.Proof.K.Held

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 8000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = carried m c (t.val + 1) t.isLt from rfl, carried_succ]
  have hN : t.val < 32 := lt_of_lt_of_eq t.isLt (show cfg0.N = 32 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  by_cases h0 : t.val % 4 = 0
  · have h1 : ¬t.val % 4 = 3 := by omega
    rw [Dat.leavesExact_idle (dats m 0 c) 3 t (idleAt0_3 t (fun h => h1 ((hcond0_1 t).mp h))) (noFlush0_3 t (fun h => h1 ((hcond0_1 t).mp h)))]
    rw [heldAfter_first m c t h0 h1]
    unfold afterFirst; dsimp only
    by_cases hz : t.val = 0
    · rw [carried_castSucc m c t, carried_zero m c _ _ hz, scoped0_eq]
      iintro ⟨⟨HS0, HS1, HS2⟩, Ho, ⟨%d0, H0⟩, ⟨%d1, H1⟩, ⟨%d2, H2⟩, ⟨%d3, H3⟩⟩
      iapply ((kernelRun0_A c (grid0.coords t) _ _ _ _ _ _ _ _ _ _ _ _ _ _ ((hcond0_0 t).mpr h0) (fun h => h1 ((hcond0_1 t).mp h)) (iblk m c 0 t) (iblk m c 1 t) (iblk m c 2 t)).2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [HS0 HS1 HS2]
      · isplitl [HS0]
        · unfold owns; iexists _; isplitr
          swap; · iexact HS0
          ipureintro; exact View.read_writes_of_cover _ _ _ _ _ (coverFirst0 m c t h0 h1)
        isplitl [HS1]
        · unfold owns; iexists _; isplitr
          swap; · iexact HS1
          ipureintro; exact View.read_writes_of_cover _ _ _ _ _ (coverFirst1 m c t h0 h1)
        unfold owns; iexists _; isplitr
        swap; · iexact HS2
        ipureintro; exact View.read_writes_of_cover _ _ _ _ _ (coverFirst2 m c t h0 h1)
      isplitl [Ho]; · iexact Ho
      isplitl [H0]; · iexact H0
      isplitl [H1]; · iexact H1
      isplitl [H2]; · iexact H2
      iexists _; iexact H3
    · rw [carried_castSucc m c t, carried_pos m c _ _ hz]
      iintro ⟨⟨HS0, HS1, HS2⟩, Ho, ⟨%d0, H0⟩, ⟨%d1, H1⟩, ⟨%d2, H2⟩, ⟨%d3, H3⟩⟩
      iapply ((kernelRun0_A c (grid0.coords t) _ _ _ _ _ _ _ _ _ _ _ _ _ _ ((hcond0_0 t).mpr h0) (fun h => h1 ((hcond0_1 t).mp h)) (iblk m c 0 t) (iblk m c 1 t) (iblk m c 2 t)).2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, ⟨%es0, HS0⟩, ⟨%es1, HS1⟩, ⟨%es2, HS2⟩⟩
      isplitl [HS0 HS1 HS2]
      · isplitl [HS0]
        · unfold owns; iexists _; isplitr
          swap; · iexact HS0
          ipureintro; exact View.read_writes_of_cover _ _ _ _ _ (coverFirst0 m c t h0 h1)
        isplitl [HS1]
        · unfold owns; iexists _; isplitr
          swap; · iexact HS1
          ipureintro; exact View.read_writes_of_cover _ _ _ _ _ (coverFirst1 m c t h0 h1)
        unfold owns; iexists _; isplitr
        swap; · iexact HS2
        ipureintro; exact View.read_writes_of_cover _ _ _ _ _ (coverFirst2 m c t h0 h1)
      isplitl [Ho]; · iexact Ho
      isplitl [H0]; · iexact H0
      isplitl [H1]; · iexact H1
      isplitl [H2]; · iexact H2
      iexists _; iexact H3
  · have hz : t.val ≠ 0 := fun h => h0 (by rw [h])
    by_cases h1 : t.val % 4 = 3
    · rw [show (dats m 0 c).leavesExact 3 t = owns (c : Thread nD τ) (ms0_3 t) fullShare ((dats m 0 c).after 3 t) from by
        unfold Dat.leavesExact; rw [liveAt0_3 t ((hcond0_1 t).mpr h1)], after0_3]
      rw [heldAfter_last m c t h0 h1]
      unfold afterLast; dsimp only
      rw [carried_castSucc m c t, carried_pos m c _ _ hz]
      iintro ⟨⟨HS0, HS1, HS2⟩, Ho, ⟨%d0, H0⟩, ⟨%d1, H1⟩, ⟨%d2, H2⟩, ⟨%d3, H3⟩⟩
      iapply ((kernelRun0_C c (grid0.coords t) _ _ _ _ _ _ _ _ _ _ _ _ _ _ (fun h => h0 ((hcond0_0 t).mp h)) ((hcond0_1 t).mpr h1) (iblk m c 0 t) (iblk m c 1 t) (iblk m c 2 t) _ _ _).2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e3, H3⟩, ⟨%es0, HS0⟩, ⟨%es1, HS1⟩, ⟨%es2, HS2⟩⟩
      isplitl [HS0 HS1 HS2]
      · isplitl [HS0]
        · unfold owns; iexists _; isplitr
          swap; · iexact HS0
          ipureintro; exact View.read_writes_of_cover _ _ _ _ _ (coverLast0 m c t h0 h1 _)
        isplitl [HS1]
        · unfold owns; iexists _; isplitr
          swap; · iexact HS1
          ipureintro; exact View.read_writes_of_cover _ _ _ _ _ (coverLast1 m c t h0 h1 _)
        unfold owns; iexists _; isplitr
        swap; · iexact HS2
        ipureintro; exact View.read_writes_of_cover _ _ _ _ _ (coverLast2 m c t h0 h1 _)
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverLastOut m c t h0 h1 _)
    · rw [Dat.leavesExact_idle (dats m 0 c) 3 t (idleAt0_3 t (fun h => h1 ((hcond0_1 t).mp h))) (noFlush0_3 t (fun h => h1 ((hcond0_1 t).mp h)))]
      rw [heldAfter_middle m c t h0 h1]
      unfold afterMiddle; dsimp only
      rw [carried_castSucc m c t, carried_pos m c _ _ hz]
      iintro ⟨⟨HS0, HS1, HS2⟩, Ho, ⟨%d0, H0⟩, ⟨%d1, H1⟩, ⟨%d2, H2⟩, ⟨%d3, H3⟩⟩
      iapply ((kernelRun0_B c (grid0.coords t) _ _ _ _ _ _ _ _ _ _ _ _ _ _ (fun h => h0 ((hcond0_0 t).mp h)) (fun h => h1 ((hcond0_1 t).mp h)) (iblk m c 0 t) (iblk m c 1 t) (iblk m c 2 t) _ _ _).2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [HS0 HS1 HS2]
      · isplitl [HS0]
        · unfold owns; iexists _; isplitr
          swap; · iexact HS0
          ipureintro; exact View.read_writes_of_cover _ _ _ _ _ (coverMiddle0 m c t h0 h1 _)
        isplitl [HS1]
        · unfold owns; iexists _; isplitr
          swap; · iexact HS1
          ipureintro; exact View.read_writes_of_cover _ _ _ _ _ (coverMiddle1 m c t h0 h1 _)
        unfold owns; iexists _; isplitr
        swap; · iexact HS2
        ipureintro; exact View.read_writes_of_cover _ _ _ _ _ (coverMiddle2 m c t h0 h1 _)
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Fr

end
-- ==== Proof.K.Launch.lean ====
/-
  The attention program's run: the host's transpose, then the region, launched from any memory.

  The query window and the key/value window read the SAME array, so the launch hands the region that array once and
  the proof data split it in two halves, one per window; the transposed keys and the result are whole.  No unscoped
  buffer bypasses the region (every array of @main is a window's), and the region's invariant is the three scratch
  buffers alone.  The conclusion reads every window's array after the last write-back; the input array, which no
  write-back touches, is as launched: the frame.
-/
import proofs.«103369_j4544075399227_2_alg».proof.Proof.K.Body

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers behind the windows' arrays: the input, its transpose, the result. -/
theorem arrBufs0_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_v0) ↦{fullShare} W main_v0)
          ∗ (((c : Thread nD τ).loc main_v1) ↦{fullShare} W main_v1)) := by
  unfold Pipeline.arrBufs
  exact bigSep_eq_bigSepL_of_eq [main_arg0, main_v0, main_v1] (by decide) (by decide) _

/-- The input array, whole, is the query window's half and the key/value window's half. -/
theorem hsplit (c : Dev nD) :
    (Pipeline.arrBufs spec0 c (V m c) : sProp 𝕄) ⊢ (dats m 0 c).arrays ((dats m 0 c).arrAt · 0) := by
  have e : (dats m 0 c).arrays ((dats m 0 c).arrAt · 0)
      = bigSep Finset.univ fun w : Fin 4 => ((((c : Thread nD τ).loc (Pipeline.arrRef spec0 w)) ↦{(dats m 0 c).share w} (dats m 0 c).arrAt w 0 : sProp 𝕄)) := by
    unfold Dat.arrays
    exact bigSep_congr fun w _ => by rw [(arr_whole0 w).set_eq_univ]
  rw [arrBufs0_eq, e, bigSep_W0]
  iintro ⟨H0, H1, H2⟩
  ihave Hs := (pointsTo_share (PosShare.mem_left_op_right fullShare)).1 $$ H0
  icases Hs with ⟨HL, HR⟩
  isplitl [HL]; · iexact HL
  isplitl [HR]; · iexact HR
  isplitl [H1]; · iexact H1
  iexact H2

/-- Every array of @main is a window's: nothing bypasses the region. -/
theorem hrest (c : Dev nD) :
    (Pipeline.unscopedRest (Ix := Unit) (Name := ℕ) (U := UR sig nD τ) (Lvl := ℕ) spec0 c (V m c) : sProp 𝕄) ⊢ iprop((BI.emp : sProp 𝕄) ∗ (BI.emp : sProp 𝕄)) := by
  rw [unscopedRest0_eq]
  iintro H
  isplitl [H]
  · iexact H
  · iempintro

theorem hin (c : Dev nD) : iprop((BI.emp : sProp 𝕄) ∗ Pipeline.scopedRest spec0 c) ⊢ (dats m 0 c).Φ 0 := by
  rw [show (dats m 0 c).Φ 0 = Pipeline.scopedRest spec0 c from rfl]
  iintro ⟨-, H⟩; iexact H

theorem hout (c : Dev nD) : (dats m 0 c).Φ (Fin.last cfg0.N) ⊢ iprop((BI.emp : sProp 𝕄) ∗ Pipeline.scopedRest spec0 c) := by
  rw [show (dats m 0 c).Φ (Fin.last cfg0.N) = carried m c (Fin.last cfg0.N).val (Nat.le_of_lt_succ (Fin.last cfg0.N).isLt) from rfl,
    carried_pos m c _ _ (by rw [Fin.val_last]; have : cfg0.N = 32 := N_0; omega), scoped0_eq]
  iintro ⟨H0, H1, H2⟩
  isplitr; · iempintro
  isplitl [H0]; · iexists _; iexact H0
  isplitl [H1]; · iexists _; iexact H1
  iexists _; iexact H2

set_option backward.isDefEq.respectTransparency.types false in
/-- From any memory with zero counters every weakly fair execution of @main terminates, and every final state has
    each window's array at what the write-backs leave of the proof data. -/
theorem run_main : θ_run defs (onTc (τ := τ) (main (F := F))) ⟨m, fun _ => 0, ρ⟩
    (fun r => ∀ c : Dev nD, ∀ w, r.2.mem ((spec0 w).arr.view.loc (c : Thread nD τ)) = (dats m 0 c).arrAt w cfg0.N) :=
  Pipeline.θ_run_region_noSem_shared cfgs (dats m) () cellOf_inj (0 : Fin 1) winFacts₀0 emb₁ defs₀ Variants.none m ρ main
    (fun c => (body_obligation m c).loose) block_pos0 arr_whole0 stage_whole0 (fun _ _ => rfl)
    (Rounds.initOf (Pipeline.cells cfgs cellOf_inj) (Pipeline.launchToks cfgs cellOf_inj)) .rfl
    (V m) (hmain m Variants.none) (hsplit m)
    (fun _ => iprop(emp)) (fun _ => iprop(emp)) (fun _ => iprop(emp))
    (hrest m)
    (hin m) (hout m)
    (fun _ _ => True)
    (fun c s' => by iintro ⟨-, -, HSI⟩; imodintro; isplitr; · ipureintro; trivial
                    iexact HSI)
    (fun s h c => (h c).1)

/-- THE FRAME: the input array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c) 0).trans (((dats m 0 c).arrAt_in 0 rfl _).trans ((A_eq m c 0).trans (V_main_arg0 m c)))) (run_main m ρ)

end Cert.Kernel.Fr

end
-- ==== Proof.KI.Setup.lean ====
/-
  The attention kernel's launch, shared by its three control cases.

  The grid is 2 batches × 4 query tiles × 4 key tiles, visited with the key tile innermost, so point `t` is at key
  tile `t % 4`.  The body resets its three scratch buffers (running maximum, denominator, numerator) at key tile 0,
  updates them at every key tile, and stores the result block only at key tile 3: elsewhere the result window is idle
  and is not written back.  The host transposes the input once before the region; the query window and the key/value
  window both read the input array, the transposed-key window reads the transpose.
-/
import proofs.«103369_j4544075399227_2_alg».proof.Proof.Gen.KernelIdeal.Launch
import proofs.«103369_j4544075399227_2_alg».proof.Proof.Gen.KernelIdeal.Skeleton
import proofs.«103369_j4544075399227_2_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The core's buffers when the region is entered: the launch contents after the host's transpose. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is the transpose, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The transpose writes its own result only: the region finds the input array as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, Finset.mem_singleton]
    exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (the query window
    is fetched only when the query tile changes; its index does not move in between). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's two conditions, over the grid -/

/-- "This is the first key tile": the reset of the scratch buffers. -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- "This is the last key tile": the result block is stored. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from the last key tile the result window is idle and is not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- At the last key tile it is live. -/
theorem liveAt0_3 : ∀ t : Fin cfg0.N, cond0_1 (grid0.coords t) → cfg0.idle 3 (grid0.coords t) = false := by decide +kernel

/-! ## The memrefs the body is called with -/

abbrev ms0_0 (t : Fin cfg0.N) : Memref sig .tc .vmem S1x128x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x128x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128x512 .f32 := win0_3.stage (cfg0.slots t 3)
abbrev hs0_3 (t : Fin cfg0.N) : (ms0_3 t).IsWhole := hstage0_3 ((cfg0.slots t 3).cast nbuf0_3)
/-- The running maximum, the running denominator and the running numerator. -/
abbrev scM0_0 : Memref sig .tc .vmem S128x1 .f32 := Memref.whole cc0_scratch0
abbrev scM0_1 : Memref sig .tc .vmem S128x1 .f32 := Memref.whole cc0_scratch1
abbrev scM0_2 : Memref sig .tc .vmem S128x256 .f32 := Memref.whole cc0_scratch2
abbrev VS0_0 : View sig .tc .vmem S128x1 .f32 := scM0_0.view
abbrev VS0_1 : View sig .tc .vmem S128x1 .f32 := scM0_1.view
abbrev VS0_2 : View sig .tc .vmem S128x256 .f32 := scM0_2.view
/-- One staging buffer of the result window, through which its contents are stated. -/
abbrev VO0_3 : View sig .tc .vmem S1x128x512 .f32 := (Memref.whole cc0_stg3_0 : Memref sig .tc .vmem S1x128x512 .f32).view

/-- The scoped buffers that are no staging buffer are the three scratch buffers, each owned at some contents. -/
theorem scoped0_eq (c : Dev nD) :
    (Pipeline.scopedRest (Ix := Unit) (Name := ℕ) (U := UR sig nD τ) (Lvl := ℕ) (Val := Elt F) spec0 c : sProp 𝕄)
      = iprop((∃ d, owns (c : Thread nD τ) scM0_0 fullShare d) ∗ (∃ d, owns (c : Thread nD τ) scM0_1 fullShare d) ∗ (∃ d, owns (c : Thread nD τ) scM0_2 fullShare d)) := by
  rw [scopedRest0_eq]; simp only [scM0_0, scM0_1, scM0_2, owns_whole]; try rfl

end Cert.KernelIdeal.Fr

end
-- ==== Proof.KI.RunA.lean ====
/-
  The attention body at the FIRST key tile of a query tile: the three scratch buffers are reset (maximum to -inf,
  denominator and numerator to zero) and then updated from the tile; nothing is stored into the result block.
  The stores each scratch buffer ends with are found by running the body.
-/
import proofs.«103369_j4544075399227_2_alg».proof.Proof.KI.Setup

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's run at a first key tile, on whole memrefs: the inputs at their contents, the result buffer handed back as
    it was, the scratch buffers at anything before and at the run's stores after. -/
noncomputable def kernelRun0_A (c : Dev nD) (i : grid0.Coords) (arg3 : Memref sig .tc .vmem S1x128x256 .f32) (harg3 : arg3.IsWhole) (arg4 : Memref sig .tc .vmem S1x128x256 .f32) (harg4 : arg4.IsWhole) (arg5 : Memref sig .tc .vmem S1x256x128 .f32) (harg5 : arg5.IsWhole) (arg6 : Memref sig .tc .vmem S1x128x512 .f32) (harg6 : arg6.IsWhole) (arg7 : Memref sig .tc .vmem S128x1 .f32) (harg7 : arg7.IsWhole) (arg8 : Memref sig .tc .vmem S128x1 .f32) (harg8 : arg8.IsWhole) (arg9 : Memref sig .tc .vmem S128x256 .f32) (harg9 : arg9.IsWhole) (hc0 : cond0_0 i) (hc1 : ¬cond0_1 i)
    (x0 : Vec F S1x128x256 .f32) (x1 : Vec F S1x128x256 .f32) (x2 : Vec F S1x256x128 .f32) :
    Σ' (LS0 : List (View.Piece (Elt F) S128x1 .f32)) (LS1 : List (View.Piece (Elt F) S128x1 .f32)), { LS2 : List (View.Piece (Elt F) S128x256 .f32) //
      ∀ (xi3 : Vec F S1x128x512 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0__attn_kernel i arg3 harg3 arg4 harg4 arg5 harg5 arg6 harg6 arg7 harg7 arg8 harg8 arg9 harg9) K } := by
  refine ⟨?_, ?_, ?_, fun xi3 E K => ?run⟩
  case run =>
    simp only [cc0__attn_kernel_eq_skeleton]; unfold cc0__attn_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.KernelIdeal.Fr

end
-- ==== Proof.KI.RunB.lean ====
/-
  The attention body at a MIDDLE key tile (neither the first nor the last of a query tile): the three scratch buffers,
  found at what the previous key tile left, are updated from the tile; nothing is stored into the result block.
-/
import proofs.«103369_j4544075399227_2_alg».proof.Proof.KI.RunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's run at a middle key tile, on whole memrefs: the inputs at their contents, the result buffer handed back as
    it was, the scratch buffers at the contents found and then at the run's stores. -/
noncomputable def kernelRun0_B (c : Dev nD) (i : grid0.Coords) (arg3 : Memref sig .tc .vmem S1x128x256 .f32) (harg3 : arg3.IsWhole) (arg4 : Memref sig .tc .vmem S1x128x256 .f32) (harg4 : arg4.IsWhole) (arg5 : Memref sig .tc .vmem S1x256x128 .f32) (harg5 : arg5.IsWhole) (arg6 : Memref sig .tc .vmem S1x128x512 .f32) (harg6 : arg6.IsWhole) (arg7 : Memref sig .tc .vmem S128x1 .f32) (harg7 : arg7.IsWhole) (arg8 : Memref sig .tc .vmem S128x1 .f32) (harg8 : arg8.IsWhole) (arg9 : Memref sig .tc .vmem S128x256 .f32) (harg9 : arg9.IsWhole) (hc0 : ¬cond0_0 i) (hc1 : ¬cond0_1 i)
    (x0 : Vec F S1x128x256 .f32) (x1 : Vec F S1x128x256 .f32) (x2 : Vec F S1x256x128 .f32) (xs0 : Vec F S128x1 .f32) (xs1 : Vec F S128x1 .f32) (xs2 : Vec F S128x256 .f32) :
    Σ' (LS0 : List (View.Piece (Elt F) S128x1 .f32)) (LS1 : List (View.Piece (Elt F) S128x1 .f32)), { LS2 : List (View.Piece (Elt F) S128x256 .f32) //
      ∀ (xi3 : Vec F S1x128x512 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare xi3
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0__attn_kernel i arg3 harg3 arg4 harg4 arg5 harg5 arg6 harg6 arg7 harg7 arg8 harg8 arg9 harg9) K } := by
  refine ⟨?_, ?_, ?_, fun xi3 E K => ?run⟩
  case run =>
    simp only [cc0__attn_kernel_eq_skeleton]; unfold cc0__attn_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.KernelIdeal.Fr

end
-- ==== Proof.KI.RunC.lean ====
/-
  The attention body at the LAST key tile of a query tile: the scratch buffers are updated from the tile, and the
  result block is stored in two halves — the query rows, then the numerator divided by the denominator.
-/
import proofs.«103369_j4544075399227_2_alg».proof.Proof.KI.RunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body's run at a last key tile, on whole memrefs: the inputs at their contents, the result buffer at anything
    before and at the run's two stores after, the scratch buffers at the contents found and then at the run's stores. -/
noncomputable def kernelRun0_C (c : Dev nD) (i : grid0.Coords) (arg3 : Memref sig .tc .vmem S1x128x256 .f32) (harg3 : arg3.IsWhole) (arg4 : Memref sig .tc .vmem S1x128x256 .f32) (harg4 : arg4.IsWhole) (arg5 : Memref sig .tc .vmem S1x256x128 .f32) (harg5 : arg5.IsWhole) (arg6 : Memref sig .tc .vmem S1x128x512 .f32) (harg6 : arg6.IsWhole) (arg7 : Memref sig .tc .vmem S128x1 .f32) (harg7 : arg7.IsWhole) (arg8 : Memref sig .tc .vmem S128x1 .f32) (harg8 : arg8.IsWhole) (arg9 : Memref sig .tc .vmem S128x256 .f32) (harg9 : arg9.IsWhole) (hc0 : ¬cond0_0 i) (hc1 : cond0_1 i)
    (x0 : Vec F S1x128x256 .f32) (x1 : Vec F S1x128x256 .f32) (x2 : Vec F S1x256x128 .f32) (xs0 : Vec F S128x1 .f32) (xs1 : Vec F S128x1 .f32) (xs2 : Vec F S128x256 .f32) :
    Σ' (L3 : List (View.Piece (Elt F) S1x128x512 .f32)) (LS0 : List (View.Piece (Elt F) S128x1 .f32)) (LS1 : List (View.Piece (Elt F) S128x1 .f32)), { LS2 : List (View.Piece (Elt F) S128x256 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0__attn_kernel i arg3 harg3 arg4 harg4 arg5 harg5 arg6 harg6 arg7 harg7 arg8 harg8 arg9 harg9) K } := by
  refine ⟨?_, ?_, ?_, ?_, fun E K => ?run⟩
  case run =>
    simp only [cc0__attn_kernel_eq_skeleton]; unfold cc0__attn_kernel_skel
    simp only [k0_part1_eq_skeleton, k0_part2_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    iexists _; iexact HS2

end Cert.KernelIdeal.Fr

end
-- ==== Proof.KI.Held.lean ====
/-
  What the attention kernel's buffers hold point by point, and the body at every point.

  After the body at grid point `t` the three scratch buffers hold what the point's case leaves in them — at a first
  key tile a function of the point's blocks alone, elsewhere also of what the previous point left —, and at a last
  key tile the result window's staging buffer holds the two halves the body stores.  This is a recursion on the
  point (`heldAfter`); the region's invariant between two points is the three scratch buffers at its scratch
  components; the body's run in each case discharges the per-point obligation.
-/
import proofs.«103369_j4544075399227_2_alg».proof.Proof.KI.RunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the result window's buffer and the three scratch buffers hold after a point. -/
abbrev Held (F : FTy → Type) : Type := Vec F S1x128x512 .f32 × Vec F S128x1 .f32 × Vec F S128x1 .f32 × Vec F S128x256 .f32

/-- After a first key tile: the scratch buffers at the run's stores; the result buffer is not stored into (a
    placeholder nothing consults: the window is idle there and is not written back). -/
def afterFirst (c : Dev nD) (t : Fin cfg0.N) (h0 : t.val % 4 = 0) (h1 : ¬t.val % 4 = 3) : Held F :=
  (VO0_3.read (Elt F) VO0_3.junk,
   VS0_0.read (Elt F) (VS0_0.writes (Elt F) VS0_0.junk (kernelRun0_A c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t)).1),
   VS0_1.read (Elt F) (VS0_1.writes (Elt F) VS0_1.junk (kernelRun0_A c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t)).2.1),
   VS0_2.read (Elt F) (VS0_2.writes (Elt F) VS0_2.junk (kernelRun0_A c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t)).2.2.1))

/-- After a middle key tile, over what the previous point left in the scratch buffers. -/
def afterMiddle (c : Dev nD) (t : Fin cfg0.N) (h0 : ¬t.val % 4 = 0) (h1 : ¬t.val % 4 = 3) (p : Held F) : Held F :=
  (VO0_3.read (Elt F) VO0_3.junk,
   VS0_0.read (Elt F) (VS0_0.writes (Elt F) VS0_0.junk (kernelRun0_B c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) p.2.1 p.2.2.1 p.2.2.2).1),
   VS0_1.read (Elt F) (VS0_1.writes (Elt F) VS0_1.junk (kernelRun0_B c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) p.2.1 p.2.2.1 p.2.2.2).2.1),
   VS0_2.read (Elt F) (VS0_2.writes (Elt F) VS0_2.junk (kernelRun0_B c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) p.2.1 p.2.2.1 p.2.2.2).2.2.1))

/-- After a last key tile, over what the previous point left in the scratch buffers: the result buffer at the run's
    two stores. -/
def afterLast (c : Dev nD) (t : Fin cfg0.N) (h0 : ¬t.val % 4 = 0) (h1 : t.val % 4 = 3) (p : Held F) : Held F :=
  (VO0_3.read (Elt F) (VO0_3.writes (Elt F) VO0_3.junk (kernelRun0_C c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) p.2.1 p.2.2.1 p.2.2.2).1),
   VS0_0.read (Elt F) (VS0_0.writes (Elt F) VS0_0.junk (kernelRun0_C c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) p.2.1 p.2.2.1 p.2.2.2).2.1),
   VS0_1.read (Elt F) (VS0_1.writes (Elt F) VS0_1.junk (kernelRun0_C c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) p.2.1 p.2.2.1 p.2.2.2).2.2.1),
   VS0_2.read (Elt F) (VS0_2.writes (Elt F) VS0_2.junk (kernelRun0_C c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) p.2.1 p.2.2.1 p.2.2.2).2.2.2.1))

/-- The stores of each case cover the buffer they go into. -/
theorem coverFirst0 (c : Dev nD) (t : Fin cfg0.N) (h0 : t.val % 4 = 0) (h1 : ¬t.val % 4 = 3) (y : S128x1.Idx) :
    ∃ pc ∈ (kernelRun0_A c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t)).1, y ∈ pc.1.set := View.cover_of_tiledL _ S128x1.size (by sl_kernel_rfl) y
theorem coverFirst1 (c : Dev nD) (t : Fin cfg0.N) (h0 : t.val % 4 = 0) (h1 : ¬t.val % 4 = 3) (y : S128x1.Idx) :
    ∃ pc ∈ (kernelRun0_A c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t)).2.1, y ∈ pc.1.set := View.cover_of_tiledL _ S128x1.size (by sl_kernel_rfl) y
theorem coverFirst2 (c : Dev nD) (t : Fin cfg0.N) (h0 : t.val % 4 = 0) (h1 : ¬t.val % 4 = 3) (y : S128x256.Idx) :
    ∃ pc ∈ (kernelRun0_A c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t)).2.2.1, y ∈ pc.1.set := View.cover_of_tiledL _ S128x256.size (by sl_kernel_rfl) y
theorem coverMiddle0 (c : Dev nD) (t : Fin cfg0.N) (h0 : ¬t.val % 4 = 0) (h1 : ¬t.val % 4 = 3) (p : Held F) (y : S128x1.Idx) :
    ∃ pc ∈ (kernelRun0_B c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) p.2.1 p.2.2.1 p.2.2.2).1, y ∈ pc.1.set := View.cover_of_tiledL _ S128x1.size (by sl_kernel_rfl) y
theorem coverMiddle1 (c : Dev nD) (t : Fin cfg0.N) (h0 : ¬t.val % 4 = 0) (h1 : ¬t.val % 4 = 3) (p : Held F) (y : S128x1.Idx) :
    ∃ pc ∈ (kernelRun0_B c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) p.2.1 p.2.2.1 p.2.2.2).2.1, y ∈ pc.1.set := View.cover_of_tiledL _ S128x1.size (by sl_kernel_rfl) y
theorem coverMiddle2 (c : Dev nD) (t : Fin cfg0.N) (h0 : ¬t.val % 4 = 0) (h1 : ¬t.val % 4 = 3) (p : Held F) (y : S128x256.Idx) :
    ∃ pc ∈ (kernelRun0_B c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) p.2.1 p.2.2.1 p.2.2.2).2.2.1, y ∈ pc.1.set := View.cover_of_tiledL _ S128x256.size (by sl_kernel_rfl) y
theorem coverLastOut (c : Dev nD) (t : Fin cfg0.N) (h0 : ¬t.val % 4 = 0) (h1 : t.val % 4 = 3) (p : Held F) (y : S1x128x512.Idx) :
    ∃ pc ∈ (kernelRun0_C c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) p.2.1 p.2.2.1 p.2.2.2).1, y ∈ pc.1.set := View.cover_of_tiledL (s := S1x128x512) _ ![1, 128, 256] (by sl_kernel_rfl) y
theorem coverLast0 (c : Dev nD) (t : Fin cfg0.N) (h0 : ¬t.val % 4 = 0) (h1 : t.val % 4 = 3) (p : Held F) (y : S128x1.Idx) :
    ∃ pc ∈ (kernelRun0_C c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) p.2.1 p.2.2.1 p.2.2.2).2.1, y ∈ pc.1.set := View.cover_of_tiledL _ S128x1.size (by sl_kernel_rfl) y
theorem coverLast1 (c : Dev nD) (t : Fin cfg0.N) (h0 : ¬t.val % 4 = 0) (h1 : t.val % 4 = 3) (p : Held F) (y : S128x1.Idx) :
    ∃ pc ∈ (kernelRun0_C c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) p.2.1 p.2.2.1 p.2.2.2).2.2.1, y ∈ pc.1.set := View.cover_of_tiledL _ S128x1.size (by sl_kernel_rfl) y
theorem coverLast2 (c : Dev nD) (t : Fin cfg0.N) (h0 : ¬t.val % 4 = 0) (h1 : t.val % 4 = 3) (p : Held F) (y : S128x256.Idx) :
    ∃ pc ∈ (kernelRun0_C c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) p.2.1 p.2.2.1 p.2.2.2).2.2.2.1, y ∈ pc.1.set := View.cover_of_tiledL _ S128x256.size (by sl_kernel_rfl) y

/-! ## Point by point -/

/-- What the buffers hold after the body at position `n`: the case the key tile `n % 4` selects, a middle or last
    key tile over what position `n - 1` left. -/
def heldAfter (c : Dev nD) : (n : ℕ) → n < cfg0.N → Held F
  | 0, hn => afterFirst m c ⟨0, hn⟩ (Nat.zero_mod _) (by show ¬(0 % 4 = 3); decide)
  | n + 1, hn =>
    if h0 : (n + 1) % 4 = 0 then
      if h1 : (n + 1) % 4 = 3 then False.elim (by omega)
      else afterFirst m c ⟨n + 1, hn⟩ h0 h1
    else
      if h1 : (n + 1) % 4 = 3 then afterLast m c ⟨n + 1, hn⟩ h0 h1 (heldAfter c n (Nat.lt_of_succ_lt hn))
      else afterMiddle m c ⟨n + 1, hn⟩ h0 h1 (heldAfter c n (Nat.lt_of_succ_lt hn))

theorem heldAfter_first (c : Dev nD) (t : Fin cfg0.N) (h0 : t.val % 4 = 0) (h1 : ¬t.val % 4 = 3) :
    heldAfter m c t.val t.isLt = afterFirst m c t h0 h1 := by
  obtain ⟨n, hn⟩ := t
  cases n with
  | zero => exact rfl
  | succ n => exact (dif_pos h0).trans ((dif_neg h1).trans rfl)

theorem heldAfter_middle (c : Dev nD) (t : Fin cfg0.N) (h0 : ¬t.val % 4 = 0) (h1 : ¬t.val % 4 = 3) :
    heldAfter m c t.val t.isLt = afterMiddle m c t h0 h1 (heldAfter m c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

theorem heldAfter_last (c : Dev nD) (t : Fin cfg0.N) (h0 : ¬t.val % 4 = 0) (h1 : t.val % 4 = 3) :
    heldAfter m c t.val t.isLt = afterLast m c t h0 h1 (heldAfter m c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

/-- The region's invariant before position `n`: before the first point the scratch buffers at anything; afterwards
    at what the point before left in them. -/
def carried (c : Dev nD) : (n : ℕ) → n ≤ cfg0.N → sProp 𝕄
  | 0, _ => Pipeline.scopedRest spec0 c
  | n + 1, hn => iprop(owns (c : Thread nD τ) scM0_0 fullShare (heldAfter m c n hn).2.1
      ∗ owns (c : Thread nD τ) scM0_1 fullShare (heldAfter m c n hn).2.2.1
      ∗ owns (c : Thread nD τ) scM0_2 fullShare (heldAfter m c n hn).2.2.2)

theorem carried_zero (c : Dev nD) (n : ℕ) (h : n ≤ cfg0.N) (hz : n = 0) : carried m c n h = Pipeline.scopedRest spec0 c := by
  subst hz; rfl

theorem carried_succ (c : Dev nD) (n : ℕ) (hn : n < cfg0.N) :
    carried m c (n + 1) hn = iprop(owns (c : Thread nD τ) scM0_0 fullShare (heldAfter m c n hn).2.1
      ∗ owns (c : Thread nD τ) scM0_1 fullShare (heldAfter m c n hn).2.2.1
      ∗ owns (c : Thread nD τ) scM0_2 fullShare (heldAfter m c n hn).2.2.2) := rfl

theorem carried_pos (c : Dev nD) (n : ℕ) (h : n ≤ cfg0.N) (hz : n ≠ 0) :
    carried m c n h = iprop(owns (c : Thread nD τ) scM0_0 fullShare (heldAfter m c (n - 1) (by omega)).2.1
      ∗ owns (c : Thread nD τ) scM0_1 fullShare (heldAfter m c (n - 1) (by omega)).2.2.1
      ∗ owns (c : Thread nD τ) scM0_2 fullShare (heldAfter m c (n - 1) (by omega)).2.2.2) := by
  cases n with
  | zero => exact absurd rfl hz
  | succ n => rfl

/-! ## The proof data -/

/-- The arrays as the region finds them; after the body each input's buffer at its block and the result's at
    `heldAfter`; the invariant `carried`; nothing owed.  The query window and the key/value window read ONE array:
    each holds half of it; the transposed keys and the result are held outright. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (heldAfter m c t.val t.isLt).1
  Φ t := carried m c t.val (Nat.le_of_lt_succ t.isLt)
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dats m 0 c).A w = V m c (Pipeline.arrRef spec0 w) := by
  dsimp only [dats]

theorem carried_castSucc (c : Dev nD) (t : Fin cfg0.N) :
    (dats m 0 c).Φ t.castSucc = carried m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (heldAfter m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

end Cert.KernelIdeal.Fr

end
-- ==== Proof.KI.Body.lean ====
/-
  The attention body at every grid point: from the scratch buffers at what the previous point left (at anything before
  the first point, and at anything at a first key tile, which resets them) and each window's buffer at what the
  pipeline put there, the body runs to the scratch buffers at this point's contents, the inputs as they were, and the
  result buffer untouched away from the last key tile and at the two halves stored at it.
-/
import proofs.«103369_j4544075399227_2_alg».proof.Proof.KI.Held

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 8000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = carried m c (t.val + 1) t.isLt from rfl, carried_succ]
  have hN : t.val < 32 := lt_of_lt_of_eq t.isLt (show cfg0.N = 32 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  by_cases h0 : t.val % 4 = 0
  · have h1 : ¬t.val % 4 = 3 := by omega
    rw [Dat.leavesExact_idle (dats m 0 c) 3 t (idleAt0_3 t (fun h => h1 ((hcond0_1 t).mp h))) (noFlush0_3 t (fun h => h1 ((hcond0_1 t).mp h)))]
    rw [heldAfter_first m c t h0 h1]
    unfold afterFirst; dsimp only
    by_cases hz : t.val = 0
    · rw [carried_castSucc m c t, carried_zero m c _ _ hz, scoped0_eq]
      iintro ⟨⟨HS0, HS1, HS2⟩, Ho, ⟨%d0, H0⟩, ⟨%d1, H1⟩, ⟨%d2, H2⟩, ⟨%d3, H3⟩⟩
      iapply ((kernelRun0_A c (grid0.coords t) _ _ _ _ _ _ _ _ _ _ _ _ _ _ ((hcond0_0 t).mpr h0) (fun h => h1 ((hcond0_1 t).mp h)) (iblk m c 0 t) (iblk m c 1 t) (iblk m c 2 t)).2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [HS0 HS1 HS2]
      · isplitl [HS0]
        · unfold owns; iexists _; isplitr
          swap; · iexact HS0
          ipureintro; exact View.read_writes_of_cover _ _ _ _ _ (coverFirst0 m c t h0 h1)
        isplitl [HS1]
        · unfold owns; iexists _; isplitr
          swap; · iexact HS1
          ipureintro; exact View.read_writes_of_cover _ _ _ _ _ (coverFirst1 m c t h0 h1)
        unfold owns; iexists _; isplitr
        swap; · iexact HS2
        ipureintro; exact View.read_writes_of_cover _ _ _ _ _ (coverFirst2 m c t h0 h1)
      isplitl [Ho]; · iexact Ho
      isplitl [H0]; · iexact H0
      isplitl [H1]; · iexact H1
      isplitl [H2]; · iexact H2
      iexists _; iexact H3
    · rw [carried_castSucc m c t, carried_pos m c _ _ hz]
      iintro ⟨⟨HS0, HS1, HS2⟩, Ho, ⟨%d0, H0⟩, ⟨%d1, H1⟩, ⟨%d2, H2⟩, ⟨%d3, H3⟩⟩
      iapply ((kernelRun0_A c (grid0.coords t) _ _ _ _ _ _ _ _ _ _ _ _ _ _ ((hcond0_0 t).mpr h0) (fun h => h1 ((hcond0_1 t).mp h)) (iblk m c 0 t) (iblk m c 1 t) (iblk m c 2 t)).2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, ⟨%es0, HS0⟩, ⟨%es1, HS1⟩, ⟨%es2, HS2⟩⟩
      isplitl [HS0 HS1 HS2]
      · isplitl [HS0]
        · unfold owns; iexists _; isplitr
          swap; · iexact HS0
          ipureintro; exact View.read_writes_of_cover _ _ _ _ _ (coverFirst0 m c t h0 h1)
        isplitl [HS1]
        · unfold owns; iexists _; isplitr
          swap; · iexact HS1
          ipureintro; exact View.read_writes_of_cover _ _ _ _ _ (coverFirst1 m c t h0 h1)
        unfold owns; iexists _; isplitr
        swap; · iexact HS2
        ipureintro; exact View.read_writes_of_cover _ _ _ _ _ (coverFirst2 m c t h0 h1)
      isplitl [Ho]; · iexact Ho
      isplitl [H0]; · iexact H0
      isplitl [H1]; · iexact H1
      isplitl [H2]; · iexact H2
      iexists _; iexact H3
  · have hz : t.val ≠ 0 := fun h => h0 (by rw [h])
    by_cases h1 : t.val % 4 = 3
    · rw [show (dats m 0 c).leavesExact 3 t = owns (c : Thread nD τ) (ms0_3 t) fullShare ((dats m 0 c).after 3 t) from by
        unfold Dat.leavesExact; rw [liveAt0_3 t ((hcond0_1 t).mpr h1)], after0_3]
      rw [heldAfter_last m c t h0 h1]
      unfold afterLast; dsimp only
      rw [carried_castSucc m c t, carried_pos m c _ _ hz]
      iintro ⟨⟨HS0, HS1, HS2⟩, Ho, ⟨%d0, H0⟩, ⟨%d1, H1⟩, ⟨%d2, H2⟩, ⟨%d3, H3⟩⟩
      iapply ((kernelRun0_C c (grid0.coords t) _ _ _ _ _ _ _ _ _ _ _ _ _ _ (fun h => h0 ((hcond0_0 t).mp h)) ((hcond0_1 t).mpr h1) (iblk m c 0 t) (iblk m c 1 t) (iblk m c 2 t) _ _ _).2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e3, H3⟩, ⟨%es0, HS0⟩, ⟨%es1, HS1⟩, ⟨%es2, HS2⟩⟩
      isplitl [HS0 HS1 HS2]
      · isplitl [HS0]
        · unfold owns; iexists _; isplitr
          swap; · iexact HS0
          ipureintro; exact View.read_writes_of_cover _ _ _ _ _ (coverLast0 m c t h0 h1 _)
        isplitl [HS1]
        · unfold owns; iexists _; isplitr
          swap; · iexact HS1
          ipureintro; exact View.read_writes_of_cover _ _ _ _ _ (coverLast1 m c t h0 h1 _)
        unfold owns; iexists _; isplitr
        swap; · iexact HS2
        ipureintro; exact View.read_writes_of_cover _ _ _ _ _ (coverLast2 m c t h0 h1 _)
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverLastOut m c t h0 h1 _)
    · rw [Dat.leavesExact_idle (dats m 0 c) 3 t (idleAt0_3 t (fun h => h1 ((hcond0_1 t).mp h))) (noFlush0_3 t (fun h => h1 ((hcond0_1 t).mp h)))]
      rw [heldAfter_middle m c t h0 h1]
      unfold afterMiddle; dsimp only
      rw [carried_castSucc m c t, carried_pos m c _ _ hz]
      iintro ⟨⟨HS0, HS1, HS2⟩, Ho, ⟨%d0, H0⟩, ⟨%d1, H1⟩, ⟨%d2, H2⟩, ⟨%d3, H3⟩⟩
      iapply ((kernelRun0_B c (grid0.coords t) _ _ _ _ _ _ _ _ _ _ _ _ _ _ (fun h => h0 ((hcond0_0 t).mp h)) (fun h => h1 ((hcond0_1 t).mp h)) (iblk m c 0 t) (iblk m c 1 t) (iblk m c 2 t) _ _ _).2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [HS0 HS1 HS2]
      · isplitl [HS0]
        · unfold owns; iexists _; isplitr
          swap; · iexact HS0
          ipureintro; exact View.read_writes_of_cover _ _ _ _ _ (coverMiddle0 m c t h0 h1 _)
        isplitl [HS1]
        · unfold owns; iexists _; isplitr
          swap; · iexact HS1
          ipureintro; exact View.read_writes_of_cover _ _ _ _ _ (coverMiddle1 m c t h0 h1 _)
        unfold owns; iexists _; isplitr
        swap; · iexact HS2
        ipureintro; exact View.read_writes_of_cover _ _ _ _ _ (coverMiddle2 m c t h0 h1 _)
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Fr

end
-- ==== Proof.KI.Launch.lean ====
/-
  The attention program's run: the host's transpose, then the region, launched from any memory.

  The query window and the key/value window read the SAME array, so the launch hands the region that array once and
  the proof data split it in two halves, one per window; the transposed keys and the result are whole.  No unscoped
  buffer bypasses the region (every array of @main is a window's), and the region's invariant is the three scratch
  buffers alone.  The conclusion reads every window's array after the last write-back; the input array, which no
  write-back touches, is as launched: the frame.
-/
import proofs.«103369_j4544075399227_2_alg».proof.Proof.KI.Body

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers behind the windows' arrays: the input, its transpose, the result. -/
theorem arrBufs0_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_v0) ↦{fullShare} W main_v0)
          ∗ (((c : Thread nD τ).loc main_v1) ↦{fullShare} W main_v1)) := by
  unfold Pipeline.arrBufs
  exact bigSep_eq_bigSepL_of_eq [main_arg0, main_v0, main_v1] (by decide) (by decide) _

/-- The input array, whole, is the query window's half and the key/value window's half. -/
theorem hsplit (c : Dev nD) :
    (Pipeline.arrBufs spec0 c (V m c) : sProp 𝕄) ⊢ (dats m 0 c).arrays ((dats m 0 c).arrAt · 0) := by
  have e : (dats m 0 c).arrays ((dats m 0 c).arrAt · 0)
      = bigSep Finset.univ fun w : Fin 4 => ((((c : Thread nD τ).loc (Pipeline.arrRef spec0 w)) ↦{(dats m 0 c).share w} (dats m 0 c).arrAt w 0 : sProp 𝕄)) := by
    unfold Dat.arrays
    exact bigSep_congr fun w _ => by rw [(arr_whole0 w).set_eq_univ]
  rw [arrBufs0_eq, e, bigSep_W0]
  iintro ⟨H0, H1, H2⟩
  ihave Hs := (pointsTo_share (PosShare.mem_left_op_right fullShare)).1 $$ H0
  icases Hs with ⟨HL, HR⟩
  isplitl [HL]; · iexact HL
  isplitl [HR]; · iexact HR
  isplitl [H1]; · iexact H1
  iexact H2

/-- Every array of @main is a window's: nothing bypasses the region. -/
theorem hrest (c : Dev nD) :
    (Pipeline.unscopedRest (Ix := Unit) (Name := ℕ) (U := UR sig nD τ) (Lvl := ℕ) spec0 c (V m c) : sProp 𝕄) ⊢ iprop((BI.emp : sProp 𝕄) ∗ (BI.emp : sProp 𝕄)) := by
  rw [unscopedRest0_eq]
  iintro H
  isplitl [H]
  · iexact H
  · iempintro

theorem hin (c : Dev nD) : iprop((BI.emp : sProp 𝕄) ∗ Pipeline.scopedRest spec0 c) ⊢ (dats m 0 c).Φ 0 := by
  rw [show (dats m 0 c).Φ 0 = Pipeline.scopedRest spec0 c from rfl]
  iintro ⟨-, H⟩; iexact H

theorem hout (c : Dev nD) : (dats m 0 c).Φ (Fin.last cfg0.N) ⊢ iprop((BI.emp : sProp 𝕄) ∗ Pipeline.scopedRest spec0 c) := by
  rw [show (dats m 0 c).Φ (Fin.last cfg0.N) = carried m c (Fin.last cfg0.N).val (Nat.le_of_lt_succ (Fin.last cfg0.N).isLt) from rfl,
    carried_pos m c _ _ (by rw [Fin.val_last]; have : cfg0.N = 32 := N_0; omega), scoped0_eq]
  iintro ⟨H0, H1, H2⟩
  isplitr; · iempintro
  isplitl [H0]; · iexists _; iexact H0
  isplitl [H1]; · iexists _; iexact H1
  iexists _; iexact H2

set_option backward.isDefEq.respectTransparency.types false in
/-- From any memory with zero counters every weakly fair execution of @main terminates, and every final state has
    each window's array at what the write-backs leave of the proof data. -/
theorem run_main : θ_run defs (onTc (τ := τ) (main (F := F))) ⟨m, fun _ => 0, ρ⟩
    (fun r => ∀ c : Dev nD, ∀ w, r.2.mem ((spec0 w).arr.view.loc (c : Thread nD τ)) = (dats m 0 c).arrAt w cfg0.N) :=
  Pipeline.θ_run_region_noSem_shared cfgs (dats m) () cellOf_inj (0 : Fin 1) winFacts₀0 emb₁ defs₀ Variants.none m ρ main
    (fun c => (body_obligation m c).loose) block_pos0 arr_whole0 stage_whole0 (fun _ _ => rfl)
    (Rounds.initOf (Pipeline.cells cfgs cellOf_inj) (Pipeline.launchToks cfgs cellOf_inj)) .rfl
    (V m) (hmain m Variants.none) (hsplit m)
    (fun _ => iprop(emp)) (fun _ => iprop(emp)) (fun _ => iprop(emp))
    (hrest m)
    (hin m) (hout m)
    (fun _ _ => True)
    (fun c s' => by iintro ⟨-, -, HSI⟩; imodintro; isplitr; · ipureintro; trivial
                    iexact HSI)
    (fun s h c => (h c).1)

/-- THE FRAME: the input array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c) 0).trans (((dats m 0 c).arrAt_in 0 rfl _).trans ((A_eq m c 0).trans (V_main_arg0 m c)))) (run_main m ρ)

end Cert.KernelIdeal.Fr

end
-- ==== Proof.KI.Pieces.lean ====
/-
  What each case's stores leave, as the body's named arithmetic of the values it found.

  Every scratch store covers its whole buffer, so a scratch buffer ends at the payload of its LAST store: the new
  maximum, the new denominator and the new numerator as functions of the three input blocks and of the scratch
  contents found (the reset values at a first key tile).  The result buffer at a last key tile ends at its two
  half-width stores: the query block, and the new numerator divided by the new denominator.
-/
import proofs.«103369_j4544075399227_2_alg».proof.Proof.KI.Held
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → ℕ) = fun _ => 0 := by funext a; fin_cases a <;> rfl
theorem hz3 : (![0, 0, 0] : Fin 3 → ℕ) = fun _ => 0 := by funext a; fin_cases a <;> rfl

/-! ## A first key tile: the reset values stand for what was found -/

theorem runA_max (c : Dev nD) (i : grid0.Coords) (arg3 : Memref sig .tc .vmem S1x128x256 .f32) (harg3 : arg3.IsWhole) (arg4 : Memref sig .tc .vmem S1x128x256 .f32) (harg4 : arg4.IsWhole) (arg5 : Memref sig .tc .vmem S1x256x128 .f32) (harg5 : arg5.IsWhole) (arg6 : Memref sig .tc .vmem S1x128x512 .f32) (harg6 : arg6.IsWhole) (arg7 : Memref sig .tc .vmem S128x1 .f32) (harg7 : arg7.IsWhole) (arg8 : Memref sig .tc .vmem S128x1 .f32) (harg8 : arg8.IsWhole) (arg9 : Memref sig .tc .vmem S128x256 .f32) (harg9 : arg9.IsWhole) (hc0 : cond0_0 i) (hc1 : ¬cond0_1 i) (x0 : Vec F S1x128x256 .f32) (x1 : Vec F S1x128x256 .f32) (x2 : Vec F S1x256x128 .f32) :
    View.canon (kernelRun0_A (F := F) c i arg3 harg3 arg4 harg4 arg5 harg5 arg6 harg6 arg7 harg7 arg8 harg8 arg9 harg9 hc0 hc1 x0 x1 x2).1 = k0_pay17 (k0_pay8 x2) (k0_pay9 x0 x2) (k0_pay10 x0) (k0_pay3 (F := F)) := by
  unfold kernelRun0_A; dsimp only
  sl_unfold_words
  rw [View.canon_cons_unit_zero hz2]
  simp only [View.readAt_eq_ld, Memref.IsWhole.read_unread, View.ld_unit_zero (S := S128x1) hz2, View.ld_unit_zero (S := S1x128x256) hz3, View.ld_unit_zero (S := S1x256x128) hz3, View.ld_unit_zero (S := S128x256) hz2, View.readCov_unit_zero (S := S128x1) (Val := Elt F) _ hz2, View.readCov_unit_zero (S := S128x256) (Val := Elt F) _ hz2]

theorem runA_den (c : Dev nD) (i : grid0.Coords) (arg3 : Memref sig .tc .vmem S1x128x256 .f32) (harg3 : arg3.IsWhole) (arg4 : Memref sig .tc .vmem S1x128x256 .f32) (harg4 : arg4.IsWhole) (arg5 : Memref sig .tc .vmem S1x256x128 .f32) (harg5 : arg5.IsWhole) (arg6 : Memref sig .tc .vmem S1x128x512 .f32) (harg6 : arg6.IsWhole) (arg7 : Memref sig .tc .vmem S128x1 .f32) (harg7 : arg7.IsWhole) (arg8 : Memref sig .tc .vmem S128x1 .f32) (harg8 : arg8.IsWhole) (arg9 : Memref sig .tc .vmem S128x256 .f32) (harg9 : arg9.IsWhole) (hc0 : cond0_0 i) (hc1 : ¬cond0_1 i) (x0 : Vec F S1x128x256 .f32) (x1 : Vec F S1x128x256 .f32) (x2 : Vec F S1x256x128 .f32) :
    View.canon (kernelRun0_A (F := F) c i arg3 harg3 arg4 harg4 arg5 harg5 arg6 harg6 arg7 harg7 arg8 harg8 arg9 harg9 hc0 hc1 x0 x1 x2).2.1 = k0_pay15 (k0_pay8 x2) (k0_pay9 x0 x2) (k0_pay10 x0) (k0_pay3 (F := F)) (k0_pay4 (F := F)) := by
  unfold kernelRun0_A; dsimp only
  sl_unfold_words
  rw [View.canon_cons_unit_zero hz2]
  simp only [View.readAt_eq_ld, Memref.IsWhole.read_unread, View.ld_unit_zero (S := S128x1) hz2, View.ld_unit_zero (S := S1x128x256) hz3, View.ld_unit_zero (S := S1x256x128) hz3, View.ld_unit_zero (S := S128x256) hz2, View.readCov_unit_zero (S := S128x1) (Val := Elt F) _ hz2, View.readCov_unit_zero (S := S128x256) (Val := Elt F) _ hz2]

theorem runA_num (c : Dev nD) (i : grid0.Coords) (arg3 : Memref sig .tc .vmem S1x128x256 .f32) (harg3 : arg3.IsWhole) (arg4 : Memref sig .tc .vmem S1x128x256 .f32) (harg4 : arg4.IsWhole) (arg5 : Memref sig .tc .vmem S1x256x128 .f32) (harg5 : arg5.IsWhole) (arg6 : Memref sig .tc .vmem S1x128x512 .f32) (harg6 : arg6.IsWhole) (arg7 : Memref sig .tc .vmem S128x1 .f32) (harg7 : arg7.IsWhole) (arg8 : Memref sig .tc .vmem S128x1 .f32) (harg8 : arg8.IsWhole) (arg9 : Memref sig .tc .vmem S128x256 .f32) (harg9 : arg9.IsWhole) (hc0 : cond0_0 i) (hc1 : ¬cond0_1 i) (x0 : Vec F S1x128x256 .f32) (x1 : Vec F S1x128x256 .f32) (x2 : Vec F S1x256x128 .f32) :
    View.canon (kernelRun0_A (F := F) c i arg3 harg3 arg4 harg4 arg5 harg5 arg6 harg6 arg7 harg7 arg8 harg8 arg9 harg9 hc0 hc1 x0 x1 x2).2.2.1 = k0_pay16 (k0_pay7 x1) (k0_pay8 x2) (k0_pay9 x0 x2) (k0_pay10 x0) (k0_pay3 (F := F)) (k0_pay5 (F := F)) := by
  unfold kernelRun0_A; dsimp only
  sl_unfold_words
  rw [View.canon_cons_unit_zero hz2]
  simp only [View.readAt_eq_ld, Memref.IsWhole.read_unread, View.ld_unit_zero (S := S128x1) hz2, View.ld_unit_zero (S := S1x128x256) hz3, View.ld_unit_zero (S := S1x256x128) hz3, View.ld_unit_zero (S := S128x256) hz2, View.readCov_unit_zero (S := S128x1) (Val := Elt F) _ hz2, View.readCov_unit_zero (S := S128x256) (Val := Elt F) _ hz2]

/-! ## A middle key tile -/

theorem runB_max (c : Dev nD) (i : grid0.Coords) (arg3 : Memref sig .tc .vmem S1x128x256 .f32) (harg3 : arg3.IsWhole) (arg4 : Memref sig .tc .vmem S1x128x256 .f32) (harg4 : arg4.IsWhole) (arg5 : Memref sig .tc .vmem S1x256x128 .f32) (harg5 : arg5.IsWhole) (arg6 : Memref sig .tc .vmem S1x128x512 .f32) (harg6 : arg6.IsWhole) (arg7 : Memref sig .tc .vmem S128x1 .f32) (harg7 : arg7.IsWhole) (arg8 : Memref sig .tc .vmem S128x1 .f32) (harg8 : arg8.IsWhole) (arg9 : Memref sig .tc .vmem S128x256 .f32) (harg9 : arg9.IsWhole) (hc0 : ¬cond0_0 i) (hc1 : ¬cond0_1 i) (x0 : Vec F S1x128x256 .f32) (x1 : Vec F S1x128x256 .f32) (x2 : Vec F S1x256x128 .f32) (xs0 : Vec F S128x1 .f32) (xs1 : Vec F S128x1 .f32) (xs2 : Vec F S128x256 .f32) :
    View.canon (kernelRun0_B (F := F) c i arg3 harg3 arg4 harg4 arg5 harg5 arg6 harg6 arg7 harg7 arg8 harg8 arg9 harg9 hc0 hc1 x0 x1 x2 xs0 xs1 xs2).1 = k0_pay17 (k0_pay8 x2) (k0_pay9 x0 x2) (k0_pay10 x0) xs0 := by
  unfold kernelRun0_B; dsimp only
  sl_unfold_words
  rw [View.canon_cons_unit_zero hz2]
  simp only [View.readAt_eq_ld, Memref.IsWhole.read_unread, View.ld_unit_zero (S := S128x1) hz2, View.ld_unit_zero (S := S1x128x256) hz3, View.ld_unit_zero (S := S1x256x128) hz3, View.ld_unit_zero (S := S128x256) hz2]

theorem runB_den (c : Dev nD) (i : grid0.Coords) (arg3 : Memref sig .tc .vmem S1x128x256 .f32) (harg3 : arg3.IsWhole) (arg4 : Memref sig .tc .vmem S1x128x256 .f32) (harg4 : arg4.IsWhole) (arg5 : Memref sig .tc .vmem S1x256x128 .f32) (harg5 : arg5.IsWhole) (arg6 : Memref sig .tc .vmem S1x128x512 .f32) (harg6 : arg6.IsWhole) (arg7 : Memref sig .tc .vmem S128x1 .f32) (harg7 : arg7.IsWhole) (arg8 : Memref sig .tc .vmem S128x1 .f32) (harg8 : arg8.IsWhole) (arg9 : Memref sig .tc .vmem S128x256 .f32) (harg9 : arg9.IsWhole) (hc0 : ¬cond0_0 i) (hc1 : ¬cond0_1 i) (x0 : Vec F S1x128x256 .f32) (x1 : Vec F S1x128x256 .f32) (x2 : Vec F S1x256x128 .f32) (xs0 : Vec F S128x1 .f32) (xs1 : Vec F S128x1 .f32) (xs2 : Vec F S128x256 .f32) :
    View.canon (kernelRun0_B (F := F) c i arg3 harg3 arg4 harg4 arg5 harg5 arg6 harg6 arg7 harg7 arg8 harg8 arg9 harg9 hc0 hc1 x0 x1 x2 xs0 xs1 xs2).2.1 = k0_pay15 (k0_pay8 x2) (k0_pay9 x0 x2) (k0_pay10 x0) xs0 xs1 := by
  unfold kernelRun0_B; dsimp only
  sl_unfold_words
  rw [View.canon_cons_unit_zero hz2]
  simp only [View.readAt_eq_ld, Memref.IsWhole.read_unread, View.ld_unit_zero (S := S128x1) hz2, View.ld_unit_zero (S := S1x128x256) hz3, View.ld_unit_zero (S := S1x256x128) hz3, View.ld_unit_zero (S := S128x256) hz2]

theorem runB_num (c : Dev nD) (i : grid0.Coords) (arg3 : Memref sig .tc .vmem S1x128x256 .f32) (harg3 : arg3.IsWhole) (arg4 : Memref sig .tc .vmem S1x128x256 .f32) (harg4 : arg4.IsWhole) (arg5 : Memref sig .tc .vmem S1x256x128 .f32) (harg5 : arg5.IsWhole) (arg6 : Memref sig .tc .vmem S1x128x512 .f32) (harg6 : arg6.IsWhole) (arg7 : Memref sig .tc .vmem S128x1 .f32) (harg7 : arg7.IsWhole) (arg8 : Memref sig .tc .vmem S128x1 .f32) (harg8 : arg8.IsWhole) (arg9 : Memref sig .tc .vmem S128x256 .f32) (harg9 : arg9.IsWhole) (hc0 : ¬cond0_0 i) (hc1 : ¬cond0_1 i) (x0 : Vec F S1x128x256 .f32) (x1 : Vec F S1x128x256 .f32) (x2 : Vec F S1x256x128 .f32) (xs0 : Vec F S128x1 .f32) (xs1 : Vec F S128x1 .f32) (xs2 : Vec F S128x256 .f32) :
    View.canon (kernelRun0_B (F := F) c i arg3 harg3 arg4 harg4 arg5 harg5 arg6 harg6 arg7 harg7 arg8 harg8 arg9 harg9 hc0 hc1 x0 x1 x2 xs0 xs1 xs2).2.2.1 = k0_pay16 (k0_pay7 x1) (k0_pay8 x2) (k0_pay9 x0 x2) (k0_pay10 x0) xs0 xs2 := by
  unfold kernelRun0_B; dsimp only
  sl_unfold_words
  rw [View.canon_cons_unit_zero hz2]
  simp only [View.readAt_eq_ld, Memref.IsWhole.read_unread, View.ld_unit_zero (S := S128x1) hz2, View.ld_unit_zero (S := S1x128x256) hz3, View.ld_unit_zero (S := S1x256x128) hz3, View.ld_unit_zero (S := S128x256) hz2]

/-! ## A last key tile -/

theorem runC_max (c : Dev nD) (i : grid0.Coords) (arg3 : Memref sig .tc .vmem S1x128x256 .f32) (harg3 : arg3.IsWhole) (arg4 : Memref sig .tc .vmem S1x128x256 .f32) (harg4 : arg4.IsWhole) (arg5 : Memref sig .tc .vmem S1x256x128 .f32) (harg5 : arg5.IsWhole) (arg6 : Memref sig .tc .vmem S1x128x512 .f32) (harg6 : arg6.IsWhole) (arg7 : Memref sig .tc .vmem S128x1 .f32) (harg7 : arg7.IsWhole) (arg8 : Memref sig .tc .vmem S128x1 .f32) (harg8 : arg8.IsWhole) (arg9 : Memref sig .tc .vmem S128x256 .f32) (harg9 : arg9.IsWhole) (hc0 : ¬cond0_0 i) (hc1 : cond0_1 i) (x0 : Vec F S1x128x256 .f32) (x1 : Vec F S1x128x256 .f32) (x2 : Vec F S1x256x128 .f32) (xs0 : Vec F S128x1 .f32) (xs1 : Vec F S128x1 .f32) (xs2 : Vec F S128x256 .f32) :
    View.canon (kernelRun0_C (F := F) c i arg3 harg3 arg4 harg4 arg5 harg5 arg6 harg6 arg7 harg7 arg8 harg8 arg9 harg9 hc0 hc1 x0 x1 x2 xs0 xs1 xs2).2.1 = k0_pay17 (k0_pay8 x2) (k0_pay9 x0 x2) (k0_pay10 x0) xs0 := by
  unfold kernelRun0_C; dsimp only
  sl_unfold_words
  rw [View.canon_cons_unit_zero hz2]
  simp only [View.readAt_eq_ld, Memref.IsWhole.read_unread, View.ld_unit_zero (S := S128x1) hz2, View.ld_unit_zero (S := S1x128x256) hz3, View.ld_unit_zero (S := S1x256x128) hz3, View.ld_unit_zero (S := S128x256) hz2]

theorem runC_den (c : Dev nD) (i : grid0.Coords) (arg3 : Memref sig .tc .vmem S1x128x256 .f32) (harg3 : arg3.IsWhole) (arg4 : Memref sig .tc .vmem S1x128x256 .f32) (harg4 : arg4.IsWhole) (arg5 : Memref sig .tc .vmem S1x256x128 .f32) (harg5 : arg5.IsWhole) (arg6 : Memref sig .tc .vmem S1x128x512 .f32) (harg6 : arg6.IsWhole) (arg7 : Memref sig .tc .vmem S128x1 .f32) (harg7 : arg7.IsWhole) (arg8 : Memref sig .tc .vmem S128x1 .f32) (harg8 : arg8.IsWhole) (arg9 : Memref sig .tc .vmem S128x256 .f32) (harg9 : arg9.IsWhole) (hc0 : ¬cond0_0 i) (hc1 : cond0_1 i) (x0 : Vec F S1x128x256 .f32) (x1 : Vec F S1x128x256 .f32) (x2 : Vec F S1x256x128 .f32) (xs0 : Vec F S128x1 .f32) (xs1 : Vec F S128x1 .f32) (xs2 : Vec F S128x256 .f32) :
    View.canon (kernelRun0_C (F := F) c i arg3 harg3 arg4 harg4 arg5 harg5 arg6 harg6 arg7 harg7 arg8 harg8 arg9 harg9 hc0 hc1 x0 x1 x2 xs0 xs1 xs2).2.2.1 = k0_pay15 (k0_pay8 x2) (k0_pay9 x0 x2) (k0_pay10 x0) xs0 xs1 := by
  unfold kernelRun0_C; dsimp only
  sl_unfold_words
  rw [View.canon_cons_unit_zero hz2]
  simp only [View.readAt_eq_ld, Memref.IsWhole.read_unread, View.ld_unit_zero (S := S128x1) hz2, View.ld_unit_zero (S := S1x128x256) hz3, View.ld_unit_zero (S := S1x256x128) hz3, View.ld_unit_zero (S := S128x256) hz2]

theorem runC_num (c : Dev nD) (i : grid0.Coords) (arg3 : Memref sig .tc .vmem S1x128x256 .f32) (harg3 : arg3.IsWhole) (arg4 : Memref sig .tc .vmem S1x128x256 .f32) (harg4 : arg4.IsWhole) (arg5 : Memref sig .tc .vmem S1x256x128 .f32) (harg5 : arg5.IsWhole) (arg6 : Memref sig .tc .vmem S1x128x512 .f32) (harg6 : arg6.IsWhole) (arg7 : Memref sig .tc .vmem S128x1 .f32) (harg7 : arg7.IsWhole) (arg8 : Memref sig .tc .vmem S128x1 .f32) (harg8 : arg8.IsWhole) (arg9 : Memref sig .tc .vmem S128x256 .f32) (harg9 : arg9.IsWhole) (hc0 : ¬cond0_0 i) (hc1 : cond0_1 i) (x0 : Vec F S1x128x256 .f32) (x1 : Vec F S1x128x256 .f32) (x2 : Vec F S1x256x128 .f32) (xs0 : Vec F S128x1 .f32) (xs1 : Vec F S128x1 .f32) (xs2 : Vec F S128x256 .f32) :
    View.canon (kernelRun0_C (F := F) c i arg3 harg3 arg4 harg4 arg5 harg5 arg6 harg6 arg7 harg7 arg8 harg8 arg9 harg9 hc0 hc1 x0 x1 x2 xs0 xs1 xs2).2.2.2.1 = k0_pay16 (k0_pay7 x1) (k0_pay8 x2) (k0_pay9 x0 x2) (k0_pay10 x0) xs0 xs2 := by
  unfold kernelRun0_C; dsimp only
  sl_unfold_words
  rw [View.canon_cons_unit_zero hz2]
  simp only [View.readAt_eq_ld, Memref.IsWhole.read_unread, View.ld_unit_zero (S := S128x1) hz2, View.ld_unit_zero (S := S1x128x256) hz3, View.ld_unit_zero (S := S1x256x128) hz3, View.ld_unit_zero (S := S128x256) hz2]

/-- The result buffer's two stores: the right half the new numerator over the new denominator, the left half the
    query block. -/
theorem runC_out (c : Dev nD) (i : grid0.Coords) (arg3 : Memref sig .tc .vmem S1x128x256 .f32) (harg3 : arg3.IsWhole) (arg4 : Memref sig .tc .vmem S1x128x256 .f32) (harg4 : arg4.IsWhole) (arg5 : Memref sig .tc .vmem S1x256x128 .f32) (harg5 : arg5.IsWhole) (arg6 : Memref sig .tc .vmem S1x128x512 .f32) (harg6 : arg6.IsWhole) (arg7 : Memref sig .tc .vmem S128x1 .f32) (harg7 : arg7.IsWhole) (arg8 : Memref sig .tc .vmem S128x1 .f32) (harg8 : arg8.IsWhole) (arg9 : Memref sig .tc .vmem S128x256 .f32) (harg9 : arg9.IsWhole) (hc0 : ¬cond0_0 i) (hc1 : cond0_1 i) (x0 : Vec F S1x128x256 .f32) (x1 : Vec F S1x128x256 .f32) (x2 : Vec F S1x256x128 .f32) (xs0 : Vec F S128x1 .f32) (xs1 : Vec F S128x1 .f32) (xs2 : Vec F S128x256 .f32) :
    (kernelRun0_C (F := F) c i arg3 harg3 arg4 harg4 arg5 harg5 arg6 harg6 arg7 harg7 arg8 harg8 arg9 harg9 hc0 hc1 x0 x1 x2 xs0 xs1 xs2).1
      = [⟨Rect.unit (s := S1x128x512) ![0, 0, 256] S1x128x256.size inb_S1x128x512_S1x128x256_0_0_256,
            k0_pay2 (k0_pay16 (k0_pay7 x1) (k0_pay8 x2) (k0_pay9 x0 x2) (k0_pay10 x0) xs0 xs2) (k0_pay15 (k0_pay8 x2) (k0_pay9 x0 x2) (k0_pay10 x0) xs0 xs1)⟩,
         ⟨Rect.unit (s := S1x128x512) ![0, 0, 0] S1x128x256.size inb_S1x128x512_S1x128x256_0_0_0, k0_pay1 x0⟩] := by
  unfold kernelRun0_C; dsimp only
  sl_unfold_words
  simp only [View.readAt_eq_ld, Memref.IsWhole.read_unread, View.ld_unit_zero (S := S128x1) hz2, View.ld_unit_zero (S := S1x128x256) hz3, View.ld_unit_zero (S := S1x256x128) hz3, View.ld_unit_zero (S := S128x256) hz2, View.readCov_unit_zero (S := S128x1) (Val := Elt F) _ hz2, View.readCov_unit_zero (S := S128x256) (Val := Elt F) _ hz2]

end Cert.KernelIdeal.Fr

end
-- ==== Proof.KI.Blocks.lean ====
/-
  The attention kernel's index arithmetic: which part of which array each window's block is.

  Point `t` of the grid 2 × 4 × 4 is at batch `t / 16`, query tile `t / 4 % 4` and key tile `t % 4`.  The query window's block
  there is rows `128 · (t / 4 % 4) …` of batch `t / 16` of the input; the key/value window's block is rows `128 · (t % 4) …` of
  the same batch of the same array; the transposed-key window's block is columns `128 · (t % 4) …` of that batch of the input's
  transpose, that is the same rows of the input read with the last two coordinates exchanged.  The result window's block is rows
  `128 · (t / 4 % 4) …` of batch `t / 16` of the result, all 512 columns; it is written back at the last key tile only, and
  those write-backs cover the result array.
-/
import proofs.«103369_j4544075399227_2_alg».proof.Proof.KI.Setup
import Idealize.ShloMosaic.Lib.Pipeline.Value
import Idealize.ShloMosaic.Lib.ValueIdx
import Idealize.ShloMosaic.Lib.StableHlo.Run

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

variable (m : (ℓ : Loc nD τ sig) → Buf (Elt F) ℓ)

/-! ## The printed index maps, decided over the grid -/

/-- The query window is at block (batch, query tile, 0). -/
theorem idx0 : ∀ t : Fin cfg0.N, win0_0.index t (0 : Fin 3) = t.val / 16 ∧ win0_0.index t (1 : Fin 3) = t.val / 4 % 4 ∧ win0_0.index t (2 : Fin 3) = 0 :=
  (by decide +kernel : ∀ t : Fin grid0.N, _)
/-- The key/value window is at block (batch, key tile, 0). -/
theorem idx1 : ∀ t : Fin cfg0.N, win0_1.index t (0 : Fin 3) = t.val / 16 ∧ win0_1.index t (1 : Fin 3) = t.val % 4 ∧ win0_1.index t (2 : Fin 3) = 0 :=
  (by decide +kernel : ∀ t : Fin grid0.N, _)
/-- The transposed-key window is at block (batch, 0, key tile). -/
theorem idx2 : ∀ t : Fin cfg0.N, win0_2.index t (0 : Fin 3) = t.val / 16 ∧ win0_2.index t (1 : Fin 3) = 0 ∧ win0_2.index t (2 : Fin 3) = t.val % 4 :=
  (by decide +kernel : ∀ t : Fin grid0.N, _)
/-- The result window is at block (batch, query tile, 0). -/
theorem idx3 : ∀ t : Fin cfg0.N, win0_3.index t (0 : Fin 3) = t.val / 16 ∧ win0_3.index t (1 : Fin 3) = t.val / 4 % 4 ∧ win0_3.index t (2 : Fin 3) = 0 :=
  (by decide +kernel : ∀ t : Fin grid0.N, _)

/-! ## A point's batch and the rows of its tiles -/

/-- The batch of point `t`. -/
abbrev bat (t : Fin cfg0.N) : Fin 2 := ⟨t.val / 16, by have hN : t.val < 32 := lt_of_lt_of_eq t.isLt N_0; omega⟩
/-- Row `r` of point `t`'s query tile, as a row of the array. -/
abbrev qrow (t : Fin cfg0.N) (r : Fin 128) : Fin 512 := ⟨128 * (t.val / 4 % 4) + r.val, by omega⟩
/-- Row `j` of point `t`'s key tile, as a row of the array. -/
abbrev krow (t : Fin cfg0.N) (j : Fin 128) : Fin 512 := ⟨128 * (t.val % 4) + j.val, by omega⟩

/-! ## The input windows' blocks, read at an index -/

/-- The query block at `y` is the input at batch `t / 16`, row `128 · (t / 4 % 4) + y 1`, column `y 2`. -/
theorem qblock_of (c : Dev nD) (t : Fin cfg0.N) (y : S1x128x256.Idx) (k : S2x512x256.Idx)
    (h0 : (k 0).val = t.val / 16) (h1 : (k 1).val = 128 * (t.val / 4 % 4) + (y 1).val) (h2 : (k 2).val = (y 2).val) :
    (iblk m c 0 t : S1x128x256.Idx → Elt F .f32) y = (m ((c : Thread nD τ).loc main_arg0) : S2x512x256.Idx → Elt F .f32) k := by
  obtain ⟨e0, e1, e2⟩ := idx0 t
  have hy0 : (y 0).val < 1 := (y 0).isLt
  unfold iblk
  rw [View.read_apply]
  show V m c main_arg0 _ = m (c.tc.loc main_arg0) _
  rw [V_main_arg0]
  congr 1
  funext a
  apply Fin.ext
  match a with
  | ⟨0, _⟩ => show win0_0.index t (0 : Fin 3) * 1 + 1 * (y 0).val = (k 0).val; omega
  | ⟨1, _⟩ => show win0_0.index t (1 : Fin 3) * 128 + 1 * (y 1).val = (k 1).val; omega
  | ⟨2, _⟩ => show win0_0.index t (2 : Fin 3) * 256 + 1 * (y 2).val = (k 2).val; omega

theorem qblock_at (c : Dev nD) (t : Fin cfg0.N) (r : Fin 128) (d : Fin 256) :
    (iblk m c 0 t : S1x128x256.Idx → Elt F .f32) (ix3 0 r d)
      = (m ((c : Thread nD τ).loc main_arg0) : S2x512x256.Idx → Elt F .f32) (ix3 (bat t) (qrow t r) d) :=
  qblock_of m c t _ _ rfl rfl rfl

/-- The key/value block at `y` is the input at batch `t / 16`, row `128 · (t % 4) + y 1`, column `y 2`. -/
theorem kblock_of (c : Dev nD) (t : Fin cfg0.N) (y : S1x128x256.Idx) (k : S2x512x256.Idx)
    (h0 : (k 0).val = t.val / 16) (h1 : (k 1).val = 128 * (t.val % 4) + (y 1).val) (h2 : (k 2).val = (y 2).val) :
    (iblk m c 1 t : S1x128x256.Idx → Elt F .f32) y = (m ((c : Thread nD τ).loc main_arg0) : S2x512x256.Idx → Elt F .f32) k := by
  obtain ⟨e0, e1, e2⟩ := idx1 t
  have hy0 : (y 0).val < 1 := (y 0).isLt
  unfold iblk
  rw [View.read_apply]
  show V m c main_arg0 _ = m (c.tc.loc main_arg0) _
  rw [V_main_arg0]
  congr 1
  funext a
  apply Fin.ext
  match a with
  | ⟨0, _⟩ => show win0_1.index t (0 : Fin 3) * 1 + 1 * (y 0).val = (k 0).val; omega
  | ⟨1, _⟩ => show win0_1.index t (1 : Fin 3) * 128 + 1 * (y 1).val = (k 1).val; omega
  | ⟨2, _⟩ => show win0_1.index t (2 : Fin 3) * 256 + 1 * (y 2).val = (k 2).val; omega

theorem kblock_at (c : Dev nD) (t : Fin cfg0.N) (j : Fin 128) (d : Fin 256) :
    (iblk m c 1 t : S1x128x256.Idx → Elt F .f32) (ix3 0 j d)
      = (m ((c : Thread nD τ).loc main_arg0) : S2x512x256.Idx → Elt F .f32) (ix3 (bat t) (krow t j) d) :=
  kblock_of m c t _ _ rfl rfl rfl

/-- The array the transposed-key window reads is the input with its last two axes exchanged. -/
theorem V_main_v0 (c : Dev nD) : (V m c main_v0 : S2x256x512.Idx → Elt F .f32)
    = transpose S2x256x512 [0, 2, 1] (m ((c : Thread nD τ).loc main_arg0)) transposes_S2x512x256_S2x256x512_0_2_1 := by
  dsimp only [V, hostOps0]; after_results

/-- At (b, d, n) it holds the input at (b, n, d). -/
theorem V_main_v0_apply (c : Dev nD) (j : S2x256x512.Idx) (k : S2x512x256.Idx)
    (h0 : (k 0).val = (j 0).val) (h1 : (k 1).val = (j 2).val) (h2 : (k 2).val = (j 1).val) :
    (V m c main_v0 : S2x256x512.Idx → Elt F .f32) j = (m ((c : Thread nD τ).loc main_arg0) : S2x512x256.Idx → Elt F .f32) k := by
  rw [V_main_v0]
  refine transpose_apply _ _ _ j k fun b => ?_
  match b with
  | ⟨0, _⟩ => exact h0
  | ⟨1, _⟩ => exact h2
  | ⟨2, _⟩ => exact h1

/-- The transposed-key block at `y` is the input at batch `t / 16`, row `128 · (t % 4) + y 2`, column `y 1`. -/
theorem ktblock_of (c : Dev nD) (t : Fin cfg0.N) (y : S1x256x128.Idx) (k : S2x512x256.Idx)
    (h0 : (k 0).val = t.val / 16) (h1 : (k 1).val = 128 * (t.val % 4) + (y 2).val) (h2 : (k 2).val = (y 1).val) :
    (iblk m c 2 t : S1x256x128.Idx → Elt F .f32) y = (m ((c : Thread nD τ).loc main_arg0) : S2x512x256.Idx → Elt F .f32) k := by
  obtain ⟨e0, e1, e2⟩ := idx2 t
  have hy0 : (y 0).val < 1 := (y 0).isLt
  unfold iblk
  rw [View.read_apply]
  show V m c main_v0 (((cfg0.win 2).blk t).view.emb y) = m (c.tc.loc main_arg0) k
  refine V_main_v0_apply m c _ k ?_ ?_ ?_
  · show (k 0).val = win0_2.index t (0 : Fin 3) * 1 + 1 * (y 0).val; omega
  · show (k 1).val = win0_2.index t (2 : Fin 3) * 128 + 1 * (y 2).val; omega
  · show (k 2).val = win0_2.index t (1 : Fin 3) * 256 + 1 * (y 1).val; omega

theorem ktblock_at (c : Dev nD) (t : Fin cfg0.N) (d : Fin 256) (j : Fin 128) :
    (iblk m c 2 t : S1x256x128.Idx → Elt F .f32) (ix3 0 d j)
      = (m ((c : Thread nD τ).loc main_arg0) : S2x512x256.Idx → Elt F .f32) (ix3 (bat t) (krow t j) d) :=
  ktblock_of m c t _ _ rfl rfl rfl

/-- So the transposed-key block is the key/value block with its last two coordinates exchanged. -/
theorem ktblock_eq_kblock (c : Dev nD) (t : Fin cfg0.N) (d : Fin 256) (j : Fin 128) :
    (iblk m c 2 t : S1x256x128.Idx → Elt F .f32) (ix3 0 d j) = (iblk m c 1 t : S1x128x256.Idx → Elt F .f32) (ix3 0 j d) :=
  (ktblock_at m c t d j).trans (kblock_at m c t j d).symm

/-! ## The result window: its block at a point, and the cover -/

/-- An index of the result is in point `t`'s block iff it is in `t`'s batch and its row is in `t`'s query tile. -/
theorem mem_blk3 (t : Fin cfg0.N) (o : S2x512x512.Idx) :
    o ∈ ((cfg0.win 3).blk t).view.set ↔ (o 0).val = t.val / 16 ∧ (o 1).val / 128 = t.val / 4 % 4 := by
  have hN : t.val < 32 := lt_of_lt_of_eq t.isLt N_0
  obtain ⟨e0, e1, e2⟩ := idx3 t
  have o1 : (o 1).val < 512 := (o 1).isLt
  have o2 : (o 2).val < 512 := (o 2).isLt
  show o ∈ ((View.whole main_v1).slice (win0_3.rect t)).set ↔ _
  rw [View.set_slice_whole, Rect.mem_set_unit]
  constructor
  · intro h
    have b0 : win0_3.index t (0 : Fin 3) * 1 ≤ (o 0).val ∧ (o 0).val < win0_3.index t (0 : Fin 3) * 1 + 1 := h 0
    have b1 : win0_3.index t (1 : Fin 3) * 128 ≤ (o 1).val ∧ (o 1).val < win0_3.index t (1 : Fin 3) * 128 + 128 := h 1
    omega
  · rintro ⟨h0, h1⟩ a
    match a with
    | ⟨0, _⟩ => show win0_3.index t (0 : Fin 3) * 1 ≤ (o 0).val ∧ (o 0).val < win0_3.index t (0 : Fin 3) * 1 + 1; omega
    | ⟨1, _⟩ => show win0_3.index t (1 : Fin 3) * 128 ≤ (o 1).val ∧ (o 1).val < win0_3.index t (1 : Fin 3) * 128 + 128; omega
    | ⟨2, _⟩ => show win0_3.index t (2 : Fin 3) * 512 ≤ (o 2).val ∧ (o 2).val < win0_3.index t (2 : Fin 3) * 512 + 512; omega

/-- The point that writes back the block holding `o`: `o`'s batch, its row's query tile, the last key tile. -/
abbrev ptOf (o : S2x512x512.Idx) : Fin cfg0.N :=
  ⟨16 * (o 0).val + 4 * ((o 1).val / 128) + 3, by
    have o0 : (o 0).val < 2 := (o 0).isLt
    have o1 : (o 1).val < 512 := (o 1).isLt
    rw [show cfg0.N = 32 from N_0]; omega⟩

theorem flush_ptOf (o : S2x512x512.Idx) : (cfg0.win 3).flush (ptOf o) = true := by
  refine (flush0_3 _).mpr ?_
  show (16 * (o 0).val + 4 * ((o 1).val / 128) + 3) % 4 = 3
  omega

theorem mem_ptOf (o : S2x512x512.Idx) : o ∈ ((cfg0.win 3).blk (ptOf o)).view.set := by
  have o0 : (o 0).val < 2 := (o 0).isLt
  have o1 : (o 1).val < 512 := (o 1).isLt
  rw [mem_blk3]
  show (o 0).val = (16 * (o 0).val + 4 * ((o 1).val / 128) + 3) / 16 ∧ (o 1).val / 128 = (16 * (o 0).val + 4 * ((o 1).val / 128) + 3) / 4 % 4
  omega

/-- Every index of the result is in the block some point writes back. -/
theorem cover3 (o : S2x512x512.Idx) : ∃ t : Fin cfg0.N, (cfg0.win 3).flush t = true ∧ o ∈ ((cfg0.win 3).blk t).view.set :=
  ⟨ptOf o, flush_ptOf o, mem_ptOf o⟩

/-- The element `y` of point `t`'s result block is the result's element at batch `t / 16`, row `128 · (t / 4 % 4) + y 1`,
    column `y 2`. -/
theorem blk3_emb_of (t : Fin cfg0.N) (y : S1x128x512.Idx) (k : S2x512x512.Idx)
    (h0 : (k 0).val = t.val / 16) (h1 : (k 1).val = 128 * (t.val / 4 % 4) + (y 1).val) (h2 : (k 2).val = (y 2).val) :
    (((cfg0.win 3).blk t).view.emb y : S2x512x512.Idx) = k := by
  obtain ⟨e0, e1, e2⟩ := idx3 t
  have hy0 : (y 0).val < 1 := (y 0).isLt
  funext a
  apply Fin.ext
  match a with
  | ⟨0, _⟩ => show win0_3.index t (0 : Fin 3) * 1 + 1 * (y 0).val = (k 0).val; omega
  | ⟨1, _⟩ => show win0_3.index t (1 : Fin 3) * 128 + 1 * (y 1).val = (k 1).val; omega
  | ⟨2, _⟩ => show win0_3.index t (2 : Fin 3) * 512 + 1 * (y 2).val = (k 2).val; omega

theorem blk3_emb (t : Fin cfg0.N) (r : Fin 128) (cc : Fin 512) :
    (((cfg0.win 3).blk t).view.emb (ix3 0 r cc : S1x128x512.Idx) : S2x512x512.Idx) = ix3 (bat t) (qrow t r) cc :=
  blk3_emb_of t _ _ rfl rfl rfl

/-- A whole-array function read through point `t`'s result block. -/
theorem read_blk3 (G : S2x512x512.Idx → Elt F .f32) (t : Fin cfg0.N) (r : Fin 128) (cc : Fin 512) :
    (((cfg0.win 3).blk t).view.read (Elt F) G : S1x128x512.Idx → Elt F .f32) (ix3 0 r cc) = G (ix3 (bat t) (qrow t r) cc) := by
  rw [View.read_apply, blk3_emb]; rfl

end Cert.KernelIdeal.Fr

end
-- ==== Proof.Payloads.lean ====
/-
  The arithmetic of the L1-distance attention kernel's body, read index by index over the extended reals.

  Each stored or carried value of the body is a pure term over the values the body loads.  Here every such
  term is read at an index written by its coordinates: the score tile is minus the L1 distance of a query row
  and a key row; the new running maximum is the larger of the old one and the tile's largest score; the
  rescaling factor and the unnormalised weights are exponentials relative to the new maximum; the running
  denominator and numerator are the rescaled old sums plus the tile's sums; the final block is the input rows
  followed by the quotient of numerator and denominator.
-/
import proofs.«103369_j4544075399227_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.L1Attn.Pay

open Cert.KernelIdeal Cert.KernelIdeal.Gen Idealize.ShloMosaic Idealize.ShloMosaic.ValueIdx
open scoped BigOperators

/-! ## Layout operations on a column, read at coordinates -/

section Layout
variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## Reductions along the key axis of a tile, read at a row -/

section Reduce

/-- A fold of `max` from `b` is the larger of `b` and the supremum. -/
theorem fold_max_eq_sup {ι : Type} (s : Finset ι) (f : ι → EReal) (b : EReal) :
    s.fold max b f = max b (s.sup f) := by
  classical
  induction s using Finset.induction_on with
  | empty => simp
  | insert i s hi ih =>
    rw [Finset.fold_insert hi, ih, Finset.sup_insert, max_left_comm]

/-- The bit pattern of `-∞` denotes `⊥`. -/
theorem ofBits_neg_inf_f32 : Ideal.ofBits .f32 0xFF800000#32 = ⊥ := by simp [Ideal.ofBits, Ideal.ieee]

variable [Cert.KernelIdeal.Facts]

/-- Over a row of a `[128, 128]` tile the inserted index is `(r, k)`. -/
theorem lift_row (h : S128x128.Reduces [1] S128) (r : Fin 128) (k : Fin 128) :
    h.lift (ix1 r) k = ix2 r k := by
  funext c
  refine Fin.ext ?_
  match c with
  | ⟨0, _⟩ => rfl
  | ⟨1, _⟩ => rfl

/-- The maximum over the keys of a `[128, 128]` tile, at row `r`: the supremum of the row. -/
theorem rowMax_apply (src : FVec Ideal S128x128 .f32) (h : S128x128.Reduces [1] S128)
    (hφ : FKind.Formats .f32) (hacc : (0xFF800000#32 : BitVec 32) = 0xFF800000#32) (r : Fin 128) :
    multiReduction .maximumf [1] S128 src 0xFF800000#32 h hφ hacc (ix1 r)
      = Finset.univ.sup fun j : Fin 128 => src (ix2 r j) := by
  refine (Ideal.multiReduction_maximumf_single src 0xFF800000#32 h hφ hacc (ix1 r)).trans ?_
  refine (fold_max_eq_sup _ _ _).trans ?_
  rw [Ideal.ofBits_def, ofBits_neg_inf_f32, max_bot_left]
  exact Finset.sup_congr rfl fun k _ => congrArg src (lift_row h r k)

/-- The sum over the keys of a `[128, 128]` tile, at row `r`. -/
theorem rowSum_apply (src : FVec Ideal S128x128 .f32) (h : S128x128.Reduces [1] S128)
    (hφ : FKind.Formats .f32) (hacc : (0x00000000#32 : BitVec 32) = 0x00000000#32) (r : Fin 128) :
    multiReduction .add [1] S128 src 0x00000000#32 h hφ hacc (ix1 r) = ∑ j : Fin 128, src (ix2 r j) := by
  refine (Ideal.multiReduction_add_single src 0x00000000#32 h hφ hacc (ix1 r)).trans ?_
  exact Finset.sum_congr rfl fun k _ => congrArg src (lift_row h r k)

end Reduce

/-! ## The body's values at an index -/

section Payloads
variable [Cert.KernelIdeal.Facts]

/-- The new running maximum of row `r`: the larger of the old one and the tile's largest score. -/
theorem newmax_at (v8 : FVec Ideal S256x128 .f32) (v39 : FVec Ideal S128x128 .f32) (v40 : FVec Ideal S128x64 .f32)
    (mprev : Vec Ideal S128x1 .f32) (r : Fin 128) :
    k0_pay12 (F := Ideal) v8 v39 v40 mprev (ix2 r (0 : Fin 1))
      = max (mprev (ix2 r (0 : Fin 1)))
          (Finset.univ.sup fun j : Fin 128 => k0_pay11 (F := Ideal) v8 v39 v40 (ix2 r j)) := by
  unfold k0_pay12
  generalize k0_pay11 (F := Ideal) v8 v39 v40 = S
  show max (mprev (ix2 r (0 : Fin 1)))
    (shapeCast S128x1 (multiReduction .maximumf [1] S128 S 0xFF800000#32 reduces_S128x128_S128 (.inl rfl) rfl)
      shapeCasts_S128_S128x1 (ix2 r (0 : Fin 1))) = _
  rw [shapeCast_a_a1_apply, rowMax_apply]

/-- The rescaling factor of row `r`: the exponential of the old maximum relative to the new one. -/
theorem rescale_at (v8 : FVec Ideal S256x128 .f32) (v39 : FVec Ideal S128x128 .f32) (v40 : FVec Ideal S128x64 .f32)
    (mprev : Vec Ideal S128x1 .f32) (r : Fin 128) :
    k0_pay13 (F := Ideal) v8 v39 v40 mprev (ix2 r (0 : Fin 1))
      = Ideal.exp (mprev (ix2 r (0 : Fin 1)) - k0_pay12 (F := Ideal) v8 v39 v40 mprev (ix2 r (0 : Fin 1))) := rfl

/-- The unnormalised weight of key `j` for row `r`: the exponential of the score relative to the new maximum. -/
theorem prob_at (v8 : FVec Ideal S256x128 .f32) (v39 : FVec Ideal S128x128 .f32) (v40 : FVec Ideal S128x64 .f32)
    (mprev : Vec Ideal S128x1 .f32) (r j : Fin 128) :
    k0_pay14 (F := Ideal) v8 v39 v40 mprev (ix2 r j)
      = Ideal.exp (k0_pay11 (F := Ideal) v8 v39 v40 (ix2 r j)
          - k0_pay12 (F := Ideal) v8 v39 v40 mprev (ix2 r (0 : Fin 1))) := by
  unfold k0_pay14
  generalize k0_pay11 (F := Ideal) v8 v39 v40 = S
  generalize k0_pay12 (F := Ideal) v8 v39 v40 mprev = M
  show Ideal.exp (S (ix2 r j) - broadcastTo S128x128 M broadcasts_S128x1_S128x128 (ix2 r j)) = _
  rw [broadcastTo_a1_ab_apply]

/-- The running denominator of row `r` after the tile: the rescaled old one plus the tile's weights. -/
theorem den_at (v8 : FVec Ideal S256x128 .f32) (v39 : FVec Ideal S128x128 .f32) (v40 : FVec Ideal S128x64 .f32)
    (mprev lprev : Vec Ideal S128x1 .f32) (r : Fin 128) :
    k0_pay15 (F := Ideal) v8 v39 v40 mprev lprev (ix2 r (0 : Fin 1))
      = k0_pay13 (F := Ideal) v8 v39 v40 mprev (ix2 r (0 : Fin 1)) * lprev (ix2 r (0 : Fin 1))
        + ∑ j : Fin 128, k0_pay14 (F := Ideal) v8 v39 v40 mprev (ix2 r j) := by
  unfold k0_pay15
  generalize k0_pay13 (F := Ideal) v8 v39 v40 mprev = A
  generalize k0_pay14 (F := Ideal) v8 v39 v40 mprev = W
  refine (congrFun (shapeCast_self _ _) _).trans ?_
  show A (ix2 r (0 : Fin 1)) * lprev (ix2 r (0 : Fin 1))
    + shapeCast S128x1 (multiReduction .add [1] S128 W 0x00000000#32 reduces_S128x128_S128 (.inl rfl) rfl)
        shapeCasts_S128_S128x1 (ix2 r (0 : Fin 1)) = _
  rw [shapeCast_a_a1_apply, rowSum_apply]

/-- The weights' index in the product keeps the result's row … -/
theorem weighted_lhs_row (i : S128x256.Idx) (q : dot_S128x128_S128x256_S128x256_1_0_0_1_n_n.contr.Idx) :
    (dot_S128x128_S128x256_S128x256_1_0_0_1_n_n.lhsIdx i q 0).val = (i 0).val := by
  unfold DotDims.lhsIdx
  rw [dif_neg (show ¬(0 : Fin S128x128.rank) ∈ dot_S128x128_S128x256_S128x256_1_0_0_1_n_n.lhsBatch by decide),
    dif_pos (show (0 : Fin S128x128.rank) ∈ dot_S128x128_S128x256_S128x256_1_0_0_1_n_n.lhsNonContracting by decide)]
  rfl
/-- … and reads the contracted key on its columns; -/
theorem weighted_lhs_col (i : S128x256.Idx) (q : dot_S128x128_S128x256_S128x256_1_0_0_1_n_n.contr.Idx) :
    (dot_S128x128_S128x256_S128x256_1_0_0_1_n_n.lhsIdx i q 1).val = (q ⟨0, by decide⟩).val :=
  dot_S128x128_S128x256_S128x256_1_0_0_1_n_n.lhsIdx_val_of_single rfl i q
/-- the value rows' index reads the contracted key on its rows … -/
theorem weighted_rhs_row (i : S128x256.Idx) (q : dot_S128x128_S128x256_S128x256_1_0_0_1_n_n.contr.Idx) :
    (dot_S128x128_S128x256_S128x256_1_0_0_1_n_n.rhsIdx i q 0).val = (q ⟨0, by decide⟩).val :=
  dot_S128x128_S128x256_S128x256_1_0_0_1_n_n.rhsIdx_val_of_single rfl i q
/-- … and keeps the result's feature. -/
theorem weighted_rhs_col (i : S128x256.Idx) (q : dot_S128x128_S128x256_S128x256_1_0_0_1_n_n.contr.Idx) :
    (dot_S128x128_S128x256_S128x256_1_0_0_1_n_n.rhsIdx i q 1).val = (i 1).val := by
  unfold DotDims.rhsIdx
  rw [dif_neg (show ¬(1 : Fin S128x256.rank) ∈ dot_S128x128_S128x256_S128x256_1_0_0_1_n_n.rhsBatch by decide),
    dif_pos (show (1 : Fin S128x256.rank) ∈ dot_S128x128_S128x256_S128x256_1_0_0_1_n_n.rhsNonContracting by decide)]
  rfl

/-- The product of the weights `[128, 128]` and the value rows `[128, 256]`, into zero, at `(r, d)`. -/
theorem weighted_apply (W : FVec Ideal S128x128 .bf16) (V : FVec Ideal S128x256 .bf16) (r : Fin 128) (d : Fin 256) :
    matmul dot_S128x128_S128x256_S128x256_1_0_0_1_n_n none W V (constant S128x256 .f32 0x00000000#32) (ix2 r d)
      = ∑ j : Fin 128, W (ix2 r j) * V (ix2 j d) := by
  show FloatOps.matmul dot_S128x128_S128x256_S128x256_1_0_0_1_n_n none W V (constant S128x256 .f32 0x00000000#32) (ix2 r d) = _
  rw [Ideal.matmul_constant_zero_apply,
    ← Equiv.sum_comp (contrEquiv1 dot_S128x128_S128x256_S128x256_1_0_0_1_n_n 128 rfl rfl).symm]
  refine Finset.sum_congr rfl fun k _ => ?_
  have hk := contrEquiv1_symm_val dot_S128x128_S128x256_S128x256_1_0_0_1_n_n 128 rfl rfl k
  have el : dot_S128x128_S128x256_S128x256_1_0_0_1_n_n.lhsIdx (ix2 r d)
      ((contrEquiv1 dot_S128x128_S128x256_S128x256_1_0_0_1_n_n 128 rfl rfl).symm k) = ix2 r k :=
    funext fun a => Fin.ext (by
      match a with
      | ⟨0, _⟩ => exact weighted_lhs_row _ _
      | ⟨1, _⟩ => exact (weighted_lhs_col _ _).trans hk)
  have er : dot_S128x128_S128x256_S128x256_1_0_0_1_n_n.rhsIdx (ix2 r d)
      ((contrEquiv1 dot_S128x128_S128x256_S128x256_1_0_0_1_n_n 128 rfl rfl).symm k) = ix2 k d :=
    funext fun a => Fin.ext (by
      match a with
      | ⟨0, _⟩ => exact (weighted_rhs_row _ _).trans hk
      | ⟨1, _⟩ => exact weighted_rhs_col _ _)
  rw [el, er]

/-- The running numerator of row `r`, feature `d`, after the tile: the rescaled old one plus the tile's weighted value rows. -/
theorem num_at (kk : Vec Ideal S1x128x256 .f32) (v8 : FVec Ideal S256x128 .f32) (v39 : FVec Ideal S128x128 .f32)
    (v40 : FVec Ideal S128x64 .f32) (mprev : Vec Ideal S128x1 .f32) (accprev : Vec Ideal S128x256 .f32)
    (r : Fin 128) (d : Fin 256) :
    k0_pay16 (F := Ideal) (k0_pay7 kk) v8 v39 v40 mprev accprev (ix2 r d)
      = k0_pay13 (F := Ideal) v8 v39 v40 mprev (ix2 r (0 : Fin 1)) * accprev (ix2 r d)
        + ∑ j : Fin 128, k0_pay14 (F := Ideal) v8 v39 v40 mprev (ix2 r j) * kk (ix3 (0 : Fin 1) j d) := by
  unfold k0_pay16 k0_pay7
  generalize k0_pay13 (F := Ideal) v8 v39 v40 mprev = A
  generalize k0_pay14 (F := Ideal) v8 v39 v40 mprev = W
  refine (congrFun (shapeCast_self _ _) _).trans ?_
  show broadcastTo S128x256 A broadcasts_S128x1_S128x256 (ix2 r d) * accprev (ix2 r d)
    + matmul dot_S128x128_S128x256_S128x256_1_0_0_1_n_n none (truncf .bf16 W bitsLt_bf16_f32)
        (truncf .bf16 (shapeCast S128x256 kk shapeCasts_S1x128x256_S128x256) bitsLt_bf16_f32)
        (constant S128x256 .f32 0x00000000#32) (ix2 r d) = _
  rw [broadcastTo_a1_ab_apply, weighted_apply]
  refine congrArg (A (ix2 r (0 : Fin 1)) * accprev (ix2 r d) + ·) (Finset.sum_congr rfl fun j _ => ?_)
  show W (ix2 r j) * shapeCast S128x256 kk shapeCasts_S1x128x256_S128x256 (ix2 j d) = _
  rw [shapeCast_1ab_ab_apply]

/-- The maximum carried to the next tile is the new running maximum. -/
theorem max_out_at (v8 : FVec Ideal S256x128 .f32) (v39 : FVec Ideal S128x128 .f32) (v40 : FVec Ideal S128x64 .f32)
    (mprev : Vec Ideal S128x1 .f32) (r : Fin 128) :
    k0_pay17 (F := Ideal) v8 v39 v40 mprev (ix2 r (0 : Fin 1))
      = k0_pay12 (F := Ideal) v8 v39 v40 mprev (ix2 r (0 : Fin 1)) := by
  unfold k0_pay17
  exact congrFun (shapeCast_self _ _) _

/-- Before the first tile the running maximum is `-∞`. -/
theorem init_max_at (r : Fin 128) : k0_pay3 (F := Ideal) (ix2 r (0 : Fin 1)) = ⊥ := by
  unfold k0_pay3
  refine (congrFun (shapeCast_self _ _) _).trans ?_
  exact ofBits_neg_inf_f32

/-- Before the first tile the running denominator is zero. -/
theorem init_den_at (r : Fin 128) : k0_pay4 (F := Ideal) (ix2 r (0 : Fin 1)) = 0 := by
  unfold k0_pay4
  refine (congrFun (shapeCast_self _ _) _).trans ?_
  exact Ideal.ofBits_zero_f32

/-- Before the first tile the running numerator is zero. -/
theorem init_num_at (r : Fin 128) (d : Fin 256) : k0_pay5 (F := Ideal) (ix2 r d) = 0 := by
  unfold k0_pay5
  refine (congrFun (shapeCast_self _ _) _).trans ?_
  exact Ideal.ofBits_zero_f32

/-- The first half of the result block is the query block itself. -/
theorem copy_at (v85 : Vec Ideal S1x128x256 .f32) (r : Fin 128) (d : Fin 256) :
    k0_pay1 (F := Ideal) v85 (ix3 (0 : Fin 1) r d) = v85 (ix3 (0 : Fin 1) r d) := by
  unfold k0_pay1
  exact congrFun (shapeCast_shapeCast _ _ _) _

/-- The second half of the result block is the numerator over the denominator. -/
theorem quot_at (acc : Vec Ideal S128x256 .f32) (l : Vec Ideal S128x1 .f32) (r : Fin 128) (d : Fin 256) :
    k0_pay2 (F := Ideal) acc l (ix3 (0 : Fin 1) r d)
      = Ideal.div (acc (ix2 r d)) (l (ix2 r (0 : Fin 1))) := by
  unfold k0_pay2
  refine (shapeCast_ab_1ab_apply _ _ _ _ _).trans ?_
  show Ideal.div (acc (ix2 r d)) (broadcastTo S128x256 l broadcasts_S128x1_S128x256 (ix2 r d)) = _
  rw [broadcastTo_a1_ab_apply]

end Payloads

end Cert.L1Attn.Pay

end
-- ==== Proof.PayScore.lean ====
/-
  The score tile of the L1-distance attention kernel's body, read index by index over the extended reals.

  The body forms the L1 distance of a query row and a key row in four chunks of 64 features: each chunk is a
  slice of the query block's columns and of the transposed key block's rows, spread over a `[128, 64, 128]`
  cube, subtracted, taken in absolute value and summed along the feature axis.  The score is zero minus the
  sum of the four chunks; read at `(r, j)` it is minus the sum over all 256 features of `|q[r, d] - k[d, j]|`.
-/
import proofs.«103369_j4544075399227_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.L1Attn.Pay

open Cert.KernelIdeal Cert.KernelIdeal.Gen Idealize.ShloMosaic Idealize.ShloMosaic.ValueIdx
open scoped BigOperators

/-! ## Layout operations of the cube, read at coordinates -/

section Layout
variable {α : Type}

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(p, q, e)`, the operand at `(p, q, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (e : Fin c) :
    broadcastTo ⟨3, ![a, b, c]⟩ v h (ix3 p q e) = v (ix3 p q (0 : Fin 1)) := by
  refine broadcastTo_apply v h (ix3 p q e) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- A `[1, b, c]` array broadcast to `[a, b, c]` reads, at `(p, q, e)`, the operand at `(0, q, e)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (e : Fin c) :
    broadcastTo ⟨3, ![a, b, c]⟩ v h (ix3 p q e) = v (ix3 (0 : Fin 1) q e) := by
  refine broadcastTo_apply v h (ix3 p q e) (ix3 (0 : Fin 1) q e) fun ax => ?_
  match ax with
  | ⟨0, _⟩ => rfl
  | ⟨1, _⟩ =>
    show q.val = if b = 1 then 0 else q.val
    split
    · have := q.isLt; omega
    · rfl
  | ⟨2, _⟩ =>
    show e.val = if c = 1 then 0 else e.val
    split
    · have := e.isLt; omega
    · rfl

end Layout

/-! ## A sum over 256 features in four chunks of 64 -/

/-- A sum over `256` naturals splits into four runs of `64`. -/
theorem sum_four_chunks (g : ℕ → EReal) :
    ∑ d : Fin 256, g d.val
      = ∑ e : Fin 64, g (0 + e.val) + ∑ e : Fin 64, g (64 + e.val) + ∑ e : Fin 64, g (128 + e.val)
        + ∑ e : Fin 64, g (192 + e.val) := by
  rw [← Finset.sum_range (fun n => g n), ← Finset.sum_range (fun n => g (0 + n)),
    ← Finset.sum_range (fun n => g (64 + n)), ← Finset.sum_range (fun n => g (128 + n)),
    ← Finset.sum_range (fun n => g (192 + n))]
  rw [show (256 : ℕ) = 64 + 64 + 64 + 64 from rfl, Finset.sum_range_add, Finset.sum_range_add, Finset.sum_range_add]
  simp only [Nat.zero_add, Nat.add_assoc]
  rfl

/-! ## One chunk of the distance, read at a query row and a key -/

section Score
variable [Cert.KernelIdeal.Facts]

/-- Over the feature axis of the `[128, 64, 128]` cube the inserted index is `(r, e, j)`. -/
theorem lift_cube (h : S128x64x128.Reduces [1] S128x128) (r j : Fin 128) (e : Fin 64) :
    h.lift (ix2 r j) e = ix3 r e j := by
  funext c
  refine Fin.ext ?_
  match c with
  | ⟨0, _⟩ => rfl
  | ⟨1, _⟩ => rfl
  | ⟨2, _⟩ => rfl

/-- One chunk of 64 features: a query slice `[128, 64]` and a key slice `[64, 128]` spread over the cube, subtracted,
    taken in absolute value and summed along the features, is at `(r, j)` the sum of `|Qs[r, e] - Ks[e, j]|`. -/
theorem chunk_apply (Qs : FVec Ideal S128x64 .f32) (Ks : FVec Ideal S64x128 .f32) (h : S128x64x128.Reduces [1] S128x128)
    (hφ : FKind.Formats .f32) (hacc : (0x00000000#32 : BitVec 32) = 0x00000000#32) (r j : Fin 128) :
    multiReduction .add [1] S128x128
        (absf (subf
          (broadcastTo S128x64x128 (shapeCast S128x64x1 Qs shapeCasts_S128x64_S128x64x1) broadcasts_S128x64x1_S128x64x128)
          (broadcastTo S128x64x128 (shapeCast S1x64x128 Ks shapeCasts_S64x128_S1x64x128) broadcasts_S1x64x128_S128x64x128)))
        0x00000000#32 h hφ hacc (ix2 r j)
      = ∑ e : Fin 64, max (Qs (ix2 r e) - Ks (ix2 e j)) (-(Qs (ix2 r e) - Ks (ix2 e j))) := by
  refine (Ideal.multiReduction_add_single _ 0x00000000#32 h hφ hacc (ix2 r j)).trans ?_
  refine Finset.sum_congr rfl fun (e : Fin 64) _ => ?_
  rw [lift_cube h r j e]
  show max
      (broadcastTo S128x64x128 (shapeCast S128x64x1 Qs shapeCasts_S128x64_S128x64x1) broadcasts_S128x64x1_S128x64x128 (ix3 r e j)
        - broadcastTo S128x64x128 (shapeCast S1x64x128 Ks shapeCasts_S64x128_S1x64x128) broadcasts_S1x64x128_S128x64x128 (ix3 r e j))
      (-(broadcastTo S128x64x128 (shapeCast S128x64x1 Qs shapeCasts_S128x64_S128x64x1) broadcasts_S128x64x1_S128x64x128 (ix3 r e j)
        - broadcastTo S128x64x128 (shapeCast S1x64x128 Ks shapeCasts_S64x128_S1x64x128) broadcasts_S1x64x128_S128x64x128 (ix3 r e j))) = _
  rw [broadcastTo_ab1_abc_apply, broadcastTo_1bc_abc_apply, shapeCast_ab_ab1_apply, shapeCast_ab_1ab_apply]

/-- The query block viewed `[128, 256]` reads the block at `(0, r, d)`. -/
theorem query2_at (q : Vec Ideal S1x128x256 .f32) (r : Fin 128) (d : Fin 256) :
    k0_pay6 (F := Ideal) q (ix2 r d) = q (ix3 (0 : Fin 1) r d) := by
  unfold k0_pay6
  exact shapeCast_1ab_ab_apply _ _ _ _

/-- The transposed key block viewed `[256, 128]` reads the block at `(0, d, j)`. -/
theorem keyT2_at (kt : Vec Ideal S1x256x128 .f32) (d : Fin 256) (j : Fin 128) :
    k0_pay8 (F := Ideal) kt (ix2 d j) = kt (ix3 (0 : Fin 1) d j) := by
  unfold k0_pay8
  exact shapeCast_1ab_ab_apply _ _ _ _

/-- The distance's term of feature `n` (zero past the last feature). -/
def feat (q : Vec Ideal S1x128x256 .f32) (kt : Vec Ideal S1x256x128 .f32) (r j : Fin 128) (n : ℕ) : EReal :=
  if h : n < 256 then
    max (q (ix3 (0 : Fin 1) r ⟨n, h⟩) - kt (ix3 (0 : Fin 1) ⟨n, h⟩ j))
      (-(q (ix3 (0 : Fin 1) r ⟨n, h⟩) - kt (ix3 (0 : Fin 1) ⟨n, h⟩ j)))
  else 0

/-- The chunk that starts at feature `o`, cut from the two blocks: the sum of the terms of features `o … o + 63`. -/
theorem chunk_at (o : ℕ) (q : Vec Ideal S1x128x256 .f32) (kt : Vec Ideal S1x256x128 .f32)
    (hq : S128x256.Slices ![0, o] S128x64) (hk : S256x128.Slices ![o, 0] S64x128)
    (h : S128x64x128.Reduces [1] S128x128) (hφ : FKind.Formats .f32)
    (hacc : (0x00000000#32 : BitVec 32) = 0x00000000#32) (r j : Fin 128) :
    multiReduction .add [1] S128x128
        (absf (subf
          (broadcastTo S128x64x128
            (shapeCast S128x64x1 (extractStridedSlice S128x64 ![0, o] (k0_pay6 (F := Ideal) q) hq) shapeCasts_S128x64_S128x64x1)
            broadcasts_S128x64x1_S128x64x128)
          (broadcastTo S128x64x128
            (shapeCast S1x64x128 (extractStridedSlice S64x128 ![o, 0] (k0_pay8 (F := Ideal) kt) hk) shapeCasts_S64x128_S1x64x128)
            broadcasts_S1x64x128_S128x64x128)))
        0x00000000#32 h hφ hacc (ix2 r j)
      = ∑ e : Fin 64, feat q kt r j (o + e.val) := by
  refine (chunk_apply _ _ h hφ hacc r j).trans (Finset.sum_congr rfl fun (e : Fin 64) _ => ?_)
  have hlt : o + e.val < 256 := Nat.lt_of_lt_of_le (Nat.add_lt_add_left e.isLt o) (hq.2 1)
  rw [slice2_axis1_eq, slice2_axis0_eq, query2_at, keyT2_at]
  unfold feat
  rw [dif_pos hlt]

/-- The first three chunks accumulated from zero: zero plus the sums of the terms of features `0 … 63`,
    `64 … 127` and `128 … 191`. -/
theorem partial_at (q : Vec Ideal S1x128x256 .f32) (kt : Vec Ideal S1x256x128 .f32) (r j : Fin 128) :
    k0_pay9 (F := Ideal) q kt (ix2 r j)
      = 0 + ∑ e : Fin 64, feat q kt r j (0 + e.val) + ∑ e : Fin 64, feat q kt r j (64 + e.val)
        + ∑ e : Fin 64, feat q kt r j (128 + e.val) := by
  simp only [k0_pay9, addf_apply, broadcast_apply]
  rw [chunk_at 0, chunk_at 64, chunk_at 128]
  show Ideal.ofBits .f32 0x00000000#32 + _ + _ + _ = _
  rw [Ideal.ofBits_zero_f32]

/-- THE SCORE of key `j` for query row `r`: minus the L1 distance of the two rows. -/
theorem score_at (q : Vec Ideal S1x128x256 .f32) (kt : Vec Ideal S1x256x128 .f32) (r j : Fin 128) :
    k0_pay11 (F := Ideal) (k0_pay8 kt) (k0_pay9 q kt) (k0_pay10 q) (ix2 r j)
      = -(∑ d : Fin 256, max (q (ix3 (0 : Fin 1) r d) - kt (ix3 (0 : Fin 1) d j))
            (-(q (ix3 (0 : Fin 1) r d) - kt (ix3 (0 : Fin 1) d j)))) := by
  simp only [k0_pay11, k0_pay10, subf_apply, addf_apply, broadcast_apply]
  rw [chunk_at 192, partial_at]
  show Ideal.ofBits .f32 0x00000000#32 - _ = _
  rw [Ideal.ofBits_zero_f32, zero_sub, zero_add, ← sum_four_chunks (feat q kt r j)]
  refine congrArg Neg.neg (Finset.sum_congr rfl fun d _ => ?_)
  unfold feat
  rw [dif_pos d.isLt]

end Score

end Cert.L1Attn.Pay

end
-- ==== Proof.Spec.lean ====
/-
  L1-distance attention as ONE function of the input array, index by index over the extended reals, and the
  same softmax accumulated tile by tile.

  For a batch `b` and a query row `i` the score of key `j` is minus the L1 distance of rows `i` and `j`;
  the weights are the softmax of the scores over all 512 keys, written as `exp (s - max) / Σ exp (s - max)`;
  the context row is the weighted sum of the rows; the result row is the input row followed by the context row.

  The running form visits the keys in four tiles of 128: it keeps the maximum seen so far, and the sum of the
  exponentials and the weighted sum of the rows, both taken relative to that maximum and rescaled by
  `exp (old max - new max)` whenever a tile raises it.  After the fourth tile the quotient of the two sums is
  the context row (`Online.lean` proves it for finite inputs).
-/
import Idealize.ShloMosaic.PureOps.Ideal
import Idealize.ShloMosaic.Lib.ValueIdx

noncomputable section

namespace Cert.L1Attn

open Idealize.ShloMosaic Idealize.ShloMosaic.ValueIdx
open scoped BigOperators

/-- The input array: 2 batches of 512 rows of 256 features. -/
abbrev SIn : Shape := ⟨3, ![2, 512, 256]⟩
/-- The result array: each row followed by its context row. -/
abbrev SOut : Shape := ⟨3, ![2, 512, 512]⟩

variable (x : SIn.Idx → EReal)

/-- The L1 distance of rows `i` and `j` of batch `b`: `Σ_d |x[b,i,d] - x[b,j,d]|`, the absolute value written
    as `max y (-y)`. -/
def dist (b : Fin 2) (i j : Fin 512) : EReal :=
  ∑ d : Fin 256, max (x (ix3 b i d) - x (ix3 b j d)) (-(x (ix3 b i d) - x (ix3 b j d)))

/-- The score of key `j` for query `i`: minus the distance. -/
def score (b : Fin 2) (i j : Fin 512) : EReal := -dist x b i j

/-- The largest score of a query row. -/
def rowMax (b : Fin 2) (i : Fin 512) : EReal := Finset.univ.sup fun j : Fin 512 => score x b i j

/-- The unnormalised softmax weight of key `j`. -/
def weight (b : Fin 2) (i j : Fin 512) : EReal := Ideal.exp (score x b i j - rowMax x b i)

/-- The softmax denominator of a query row. -/
def denom (b : Fin 2) (i : Fin 512) : EReal := ∑ j : Fin 512, weight x b i j

/-- The context row: the rows of the batch weighted by the softmax of the scores. -/
def context (b : Fin 2) (i : Fin 512) (d : Fin 256) : EReal :=
  ∑ j : Fin 512, Ideal.div (weight x b i j) (denom x b i) * x (ix3 b j d)

/-- The result at coordinates: columns below 256 are the input row, the others the context row. -/
def attnAt (b : Fin 2) (i : Fin 512) (c : Fin 512) : EReal :=
  if h : c.val < 256 then x (ix3 b i ⟨c.val, h⟩) else context x b i ⟨c.val - 256, by have := c.isLt; omega⟩

/-- The result array. -/
def attn : SOut.Idx → EReal := fun o => attnAt x (o 0) (o 1) (o 2)

/-! ## The same, tile by tile -/

/-- Key `jj` of tile `k` (tiles of 128 keys; `k < 4` is the range used). -/
def keyAt (k : ℕ) (jj : Fin 128) : Fin 512 := ⟨(128 * k + jj.val) % 512, Nat.mod_lt _ (by decide)⟩

/-- The largest score within tile `k`. -/
def tileMax (b : Fin 2) (i : Fin 512) (k : ℕ) : EReal :=
  Finset.univ.sup fun jj : Fin 128 => score x b i (keyAt k jj)

/-- The running maximum after `k` tiles. -/
def runMax (b : Fin 2) (i : Fin 512) : ℕ → EReal
  | 0 => ⊥
  | k + 1 => max (runMax b i k) (tileMax x b i k)

/-- The running denominator after `k` tiles, relative to `runMax … k`. -/
def runDen (b : Fin 2) (i : Fin 512) : ℕ → EReal
  | 0 => 0
  | k + 1 => Ideal.exp (runMax x b i k - runMax x b i (k + 1)) * runDen b i k
      + ∑ jj : Fin 128, Ideal.exp (score x b i (keyAt k jj) - runMax x b i (k + 1))

/-- The running weighted sum of feature `d` after `k` tiles, relative to `runMax … k`. -/
def runNum (b : Fin 2) (i : Fin 512) (d : Fin 256) : ℕ → EReal
  | 0 => 0
  | k + 1 => Ideal.exp (runMax x b i k - runMax x b i (k + 1)) * runNum b i d k
      + ∑ jj : Fin 128, Ideal.exp (score x b i (keyAt k jj) - runMax x b i (k + 1)) * x (ix3 b (keyAt k jj) d)

/-- The result at coordinates as the running form leaves it after the fourth tile. -/
def onlineAt (b : Fin 2) (i : Fin 512) (c : Fin 512) : EReal :=
  if h : c.val < 256 then x (ix3 b i ⟨c.val, h⟩)
  else Ideal.div (runNum x b i ⟨c.val - 256, by have := c.isLt; omega⟩ 4) (runDen x b i 4)

/-- Every entry of the input is a real number. -/
def Finite : Prop := ∀ idx : SIn.Idx, x idx ≠ ⊥ ∧ x idx ≠ ⊤

end Cert.L1Attn

end
-- ==== Proof.TileStep.lean ====
/-
  One key tile of the running softmax, read off the kernel body's arithmetic.

  If the query block holds the rows of query tile `qi` of batch `b`, the key/value block and the transposed key block
  hold the rows of key tile `ki`, and the scratch values found are the running maximum, denominator and numerator
  after `ki` tiles, then the values the body stores are those after `ki + 1` tiles: the score tile is minus the L1
  distances, the new maximum is the old one joined with the tile's largest score, and both sums are rescaled by
  `exp (old max - new max)` before the tile's terms are added.
-/
import proofs.«103369_j4544075399227_2_alg».proof.Proof.Payloads
import proofs.«103369_j4544075399227_2_alg».proof.Proof.PayScore
import proofs.«103369_j4544075399227_2_alg».proof.Proof.Spec

noncomputable section

namespace Cert.L1Attn.Tile

open Cert.KernelIdeal Cert.KernelIdeal.Gen Idealize.ShloMosaic Idealize.ShloMosaic.ValueIdx Cert.L1Attn Cert.L1Attn.Pay
open scoped BigOperators

variable [Cert.KernelIdeal.Facts]

variable (x : SIn.Idx → EReal) (b : Fin 2) (qi ki : ℕ)
  (q kk : Vec Ideal S1x128x256 .f32) (kt : Vec Ideal S1x256x128 .f32)
  (hq : ∀ (r : Fin 128) (d : Fin 256), q (ix3 (0 : Fin 1) r d) = x (ix3 b (keyAt qi r) d))
  (hkk : ∀ (j : Fin 128) (d : Fin 256), kk (ix3 (0 : Fin 1) j d) = x (ix3 b (keyAt ki j) d))
  (hkt : ∀ (d : Fin 256) (j : Fin 128), kt (ix3 (0 : Fin 1) d j) = x (ix3 b (keyAt ki j) d))
  (mp lp : Vec Ideal S128x1 .f32) (ap : Vec Ideal S128x256 .f32)

include hq hkt in
/-- The score tile: entry `(r, j)` is the score of key `j` of the key tile for query `r` of the query tile. -/
theorem score_eq (r j : Fin 128) :
    k0_pay11 (F := Ideal) (k0_pay8 kt) (k0_pay9 q kt) (k0_pay10 q) (ix2 r j) = score x b (keyAt qi r) (keyAt ki j) := by
  rw [score_at]
  simp only [hq, hkt]
  rfl

include hq hkt in
/-- The new running maximum. -/
theorem newmax_eq (hm : ∀ r : Fin 128, mp (ix2 r (0 : Fin 1)) = runMax x b (keyAt qi r) ki) (r : Fin 128) :
    k0_pay12 (F := Ideal) (k0_pay8 kt) (k0_pay9 q kt) (k0_pay10 q) mp (ix2 r (0 : Fin 1)) = runMax x b (keyAt qi r) (ki + 1) := by
  rw [newmax_at, hm]
  simp only [score_eq x b qi ki q kt hq hkt]
  rfl

include hq hkt in
theorem max_eq (hm : ∀ r : Fin 128, mp (ix2 r (0 : Fin 1)) = runMax x b (keyAt qi r) ki) (r : Fin 128) :
    k0_pay17 (F := Ideal) (k0_pay8 kt) (k0_pay9 q kt) (k0_pay10 q) mp (ix2 r (0 : Fin 1)) = runMax x b (keyAt qi r) (ki + 1) := by
  rw [max_out_at]; exact newmax_eq x b qi ki q kt hq hkt mp hm r

include hq hkt in
/-- The new running denominator. -/
theorem den_eq (hm : ∀ r : Fin 128, mp (ix2 r (0 : Fin 1)) = runMax x b (keyAt qi r) ki)
    (hl : ∀ r : Fin 128, lp (ix2 r (0 : Fin 1)) = runDen x b (keyAt qi r) ki) (r : Fin 128) :
    k0_pay15 (F := Ideal) (k0_pay8 kt) (k0_pay9 q kt) (k0_pay10 q) mp lp (ix2 r (0 : Fin 1)) = runDen x b (keyAt qi r) (ki + 1) := by
  rw [den_at, rescale_at]
  simp only [prob_at, newmax_eq x b qi ki q kt hq hkt mp hm, score_eq x b qi ki q kt hq hkt, hm, hl]
  rfl

include hq hkk hkt in
/-- The new running numerator. -/
theorem num_eq (hm : ∀ r : Fin 128, mp (ix2 r (0 : Fin 1)) = runMax x b (keyAt qi r) ki)
    (ha : ∀ (r : Fin 128) (d : Fin 256), ap (ix2 r d) = runNum x b (keyAt qi r) d ki) (r : Fin 128) (d : Fin 256) :
    k0_pay16 (F := Ideal) (k0_pay7 kk) (k0_pay8 kt) (k0_pay9 q kt) (k0_pay10 q) mp ap (ix2 r d) = runNum x b (keyAt qi r) d (ki + 1) := by
  rw [num_at, rescale_at]
  simp only [prob_at, newmax_eq x b qi ki q kt hq hkt mp hm, score_eq x b qi ki q kt hq hkt, hm, ha, hkk]
  rfl

end Cert.L1Attn.Tile

end
-- ==== Proof.OutBlock.lean ====
/-
  The result block of a last key tile, read index by index.

  The block `[1, 128, 512]` is stored in two half-width pieces: columns `0 … 255` hold the query block, columns
  `256 … 511` hold the running numerator divided by the running denominator.  Read at `(0, r, c)`, the block is
  the input row of key `keyAt qi r` at `c` when `c < 256`, and the quotient of the running sums after four tiles
  at feature `c - 256` otherwise: the running form's result `onlineAt`.
-/
import proofs.«103369_j4544075399227_2_alg».proof.Proof.Payloads
import proofs.«103369_j4544075399227_2_alg».proof.Proof.Spec
import Idealize.ShloMosaic.Lib.Pipeline.FrameBody
import Idealize.ShloMosaic.Lib.Pipeline.Value

noncomputable section

namespace Cert.L1Attn.Out

open Cert.KernelIdeal Cert.KernelIdeal.Gen Idealize.ShloMosaic Idealize.ShloMosaic.ValueIdx Cert.L1Attn Cert.L1Attn.Pay

variable [Cert.KernelIdeal.Facts]

/-! ## The two half-width rectangles -/

/-- The local index `(0, r, d)` of the right half sits at column `256 + d` of the block. -/
theorem emb_right (r : Fin 128) (d : Fin 256) (h : 256 + d.val < 512) :
    (Rect.unit (s := S1x128x512) ![0, 0, 256] S1x128x256.size inb_S1x128x512_S1x128x256_0_0_256).emb
        (ix3 (0 : Fin 1) r d) = ix3 (0 : Fin 1) r (⟨256 + d.val, h⟩ : Fin 512) := by
  funext a
  refine Fin.ext ?_
  rw [Rect.emb_apply]
  match a with
  | ⟨0, _⟩ => rfl
  | ⟨1, _⟩ => show 0 + 1 * r.val = r.val; omega
  | ⟨2, _⟩ => show 256 + 1 * d.val = 256 + d.val; omega

/-- The local index `(0, r, d)` of the left half sits at column `d` of the block. -/
theorem emb_left (r : Fin 128) (d : Fin 256) (h : d.val < 512) :
    (Rect.unit (s := S1x128x512) ![0, 0, 0] S1x128x256.size inb_S1x128x512_S1x128x256_0_0_0).emb
        (ix3 (0 : Fin 1) r d) = ix3 (0 : Fin 1) r (⟨d.val, h⟩ : Fin 512) := by
  funext a
  refine Fin.ext ?_
  rw [Rect.emb_apply]
  match a with
  | ⟨0, _⟩ => rfl
  | ⟨1, _⟩ => show 0 + 1 * r.val = r.val; omega
  | ⟨2, _⟩ => show 0 + 1 * d.val = d.val; omega

/-- A column below 256 is outside the right half. -/
theorem not_mem_right (r : Fin 128) (c : Fin 512) (h : c.val < 256) :
    ix3 (0 : Fin 1) r c
      ∉ (Rect.unit (s := S1x128x512) ![0, 0, 256] S1x128x256.size inb_S1x128x512_S1x128x256_0_0_256).set := by
  intro hm
  have h2 := (Rect.mem_set_unit.mp hm) ⟨2, by decide⟩
  have h3 : 256 ≤ c.val := h2.1
  omega

/-! ## The block at an index -/

/-- On the columns from 256 on, the block is the right half's payload at the column less 256. -/
theorem canon_right (w2 w1 : S1x128x256.Idx → Elt Ideal .f32) (r : Fin 128) (c : Fin 512) (h : ¬ c.val < 256)
    (h' : c.val - 256 < 256) :
    View.canon (Val := Elt Ideal) (e := .f32)
      [⟨Rect.unit (s := S1x128x512) ![0, 0, 256] S1x128x256.size inb_S1x128x512_S1x128x256_0_0_256, w2⟩,
       ⟨Rect.unit (s := S1x128x512) ![0, 0, 0] S1x128x256.size inb_S1x128x512_S1x128x256_0_0_0, w1⟩]
      (ix3 (0 : Fin 1) r c) = w2 (ix3 (0 : Fin 1) r (⟨c.val - 256, h'⟩ : Fin 256)) := by
  have hlt : 256 + (c.val - 256) < 512 := by have := c.isLt; omega
  have hc : (⟨256 + (c.val - 256), hlt⟩ : Fin 512) = c := Fin.ext (by show 256 + (c.val - 256) = c.val; omega)
  have he := emb_right r (⟨c.val - 256, h'⟩ : Fin 256) hlt
  rw [hc] at he
  refine (congrArg _ he.symm).trans ?_
  exact View.canon_cons_emb
    (Rect.unit (s := S1x128x512) ![0, 0, 256] S1x128x256.size inb_S1x128x512_S1x128x256_0_0_256) w2 _
    (ix3 (0 : Fin 1) r (⟨c.val - 256, h'⟩ : Fin 256))

/-- On the columns below 256, the block is the left half's payload at the column. -/
theorem canon_left (w2 w1 : S1x128x256.Idx → Elt Ideal .f32) (r : Fin 128) (c : Fin 512) (h : c.val < 256) :
    View.canon (Val := Elt Ideal) (e := .f32)
      [⟨Rect.unit (s := S1x128x512) ![0, 0, 256] S1x128x256.size inb_S1x128x512_S1x128x256_0_0_256, w2⟩,
       ⟨Rect.unit (s := S1x128x512) ![0, 0, 0] S1x128x256.size inb_S1x128x512_S1x128x256_0_0_0, w1⟩]
      (ix3 (0 : Fin 1) r c) = w1 (ix3 (0 : Fin 1) r (⟨c.val, h⟩ : Fin 256)) := by
  refine (View.canon_cons_of_not_mem
    (⟨Rect.unit (s := S1x128x512) ![0, 0, 256] S1x128x256.size inb_S1x128x512_S1x128x256_0_0_256, w2⟩ :
      View.Piece (Elt Ideal) S1x128x512 .f32)
    [⟨Rect.unit (s := S1x128x512) ![0, 0, 0] S1x128x256.size inb_S1x128x512_S1x128x256_0_0_0, w1⟩]
    (not_mem_right r c h)).trans ?_
  have he : (Rect.unit (s := S1x128x512) ![0, 0, 0] S1x128x256.size inb_S1x128x512_S1x128x256_0_0_0).emb
      (ix3 (0 : Fin 1) r (⟨c.val, h⟩ : Fin 256)) = ix3 (0 : Fin 1) r c :=
    emb_left r (⟨c.val, h⟩ : Fin 256) c.isLt
  refine (congrArg _ he.symm).trans ?_
  exact View.canon_cons_emb
    (Rect.unit (s := S1x128x512) ![0, 0, 0] S1x128x256.size inb_S1x128x512_S1x128x256_0_0_0) w1 _
    (ix3 (0 : Fin 1) r (⟨c.val, h⟩ : Fin 256))

/-- The result block of a last key tile at `(0, r, c)`: the running form's result for key `keyAt qi r`. -/
theorem out_block_at (x : SIn.Idx → EReal) (b : Fin 2) (qi : ℕ)
    (q : Vec Ideal S1x128x256 .f32) (num : Vec Ideal S128x256 .f32) (den : Vec Ideal S128x1 .f32)
    (hq : ∀ (r : Fin 128) (d : Fin 256), q (ix3 (0 : Fin 1) r d) = x (ix3 b (keyAt qi r) d))
    (hnum : ∀ (r : Fin 128) (d : Fin 256), num (ix2 r d) = runNum x b (keyAt qi r) d 4)
    (hden : ∀ r : Fin 128, den (ix2 r (0 : Fin 1)) = runDen x b (keyAt qi r) 4)
    (r : Fin 128) (cc : Fin 512) :
    View.canon (Val := Elt Ideal) (e := .f32)
      [⟨Rect.unit (s := S1x128x512) ![0, 0, 256] S1x128x256.size inb_S1x128x512_S1x128x256_0_0_256, k0_pay2 (F := Ideal) num den⟩,
       ⟨Rect.unit (s := S1x128x512) ![0, 0, 0] S1x128x256.size inb_S1x128x512_S1x128x256_0_0_0, k0_pay1 (F := Ideal) q⟩]
      (ix3 (0 : Fin 1) r cc) = onlineAt x b (keyAt qi r) cc := by
  by_cases h : cc.val < 256
  · rw [canon_left _ _ r cc h, copy_at, hq]
    unfold onlineAt
    rw [dif_pos h]
  · have h' : cc.val - 256 < 256 := by have := cc.isLt; omega
    rw [canon_right _ _ r cc h h', quot_at, hnum, hden]
    unfold onlineAt
    rw [dif_neg h]

end Cert.L1Attn.Out

end
-- ==== Proof.KI.Value.lean ====
/-
  The attention kernel's value at the exact-real instance: the result array is the running form of the specification.

  By induction on the grid point: after the body at point `t` — batch `t / 16`, query tile `t / 4 % 4`, key tile
  `t % 4` — the three scratch buffers hold, row by row of the query tile, the running maximum, denominator and
  numerator after `t % 4 + 1` key tiles.  A first key tile starts from the reset values, which are the running values
  after no tile; a later one from what the point before left, which is the same batch and query tile one key tile
  earlier.  At a last key tile the block written back is therefore the input row followed by numerator over
  denominator after all four tiles, and these blocks cover the result array.
-/
import proofs.«103369_j4544075399227_2_alg».proof.Proof.KI.Launch
import proofs.«103369_j4544075399227_2_alg».proof.Proof.KI.Pieces
import proofs.«103369_j4544075399227_2_alg».proof.Proof.KI.Blocks
import proofs.«103369_j4544075399227_2_alg».proof.Proof.TileStep
import proofs.«103369_j4544075399227_2_alg».proof.Proof.OutBlock
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.L1Attn Cert.L1Attn.Pay

variable (m : (ℓ : Loc nD τ sig) → Buf (Elt Ideal) ℓ) (c : Dev nD)

-- the three runs are cited through the lemmas that read their stores, never opened again
attribute [local irreducible] kernelRun0_A kernelRun0_B kernelRun0_C

/-- The input array as launched. -/
abbrev inp : SIn.Idx → EReal := m ((c : Thread nD τ).loc main_arg0)

theorem keyAt_q (t : Fin cfg0.N) (r : Fin 128) : keyAt (t.val / 4 % 4) r = qrow t r :=
  Fin.ext (by show (128 * (t.val / 4 % 4) + r.val) % 512 = 128 * (t.val / 4 % 4) + r.val; have := r.isLt; omega)
theorem keyAt_k (t : Fin cfg0.N) (j : Fin 128) : keyAt (t.val % 4) j = krow t j :=
  Fin.ext (by show (128 * (t.val % 4) + j.val) % 512 = 128 * (t.val % 4) + j.val; have := j.isLt; omega)

/-- The three blocks at a point hold rows of the input: the query tile's, and the key tile's twice. -/
theorem hq (t : Fin cfg0.N) (r : Fin 128) (d : Fin 256) :
    (iblk m c 0 t : S1x128x256.Idx → Elt Ideal .f32) (ix3 (0 : Fin 1) r d) = inp m c (ix3 (bat t) (keyAt (t.val / 4 % 4) r) d) := by
  rw [keyAt_q]; exact qblock_at m c t r d
theorem hkk (t : Fin cfg0.N) (j : Fin 128) (d : Fin 256) :
    (iblk m c 1 t : S1x128x256.Idx → Elt Ideal .f32) (ix3 (0 : Fin 1) j d) = inp m c (ix3 (bat t) (keyAt (t.val % 4) j) d) := by
  rw [keyAt_k]; exact kblock_at m c t j d
theorem hkt (t : Fin cfg0.N) (d : Fin 256) (j : Fin 128) :
    (iblk m c 2 t : S1x256x128.Idx → Elt Ideal .f32) (ix3 (0 : Fin 1) d j) = inp m c (ix3 (bat t) (keyAt (t.val % 4) j) d) := by
  rw [keyAt_k]; exact ktblock_at m c t d j

/-- What the scratch buffers hold after a point, said of the running values. -/
def Inv (t : Fin cfg0.N) (H : Held Ideal) : Prop :=
  (∀ r : Fin 128, H.2.1 (ix2 r (0 : Fin 1)) = runMax (inp m c) (bat t) (keyAt (t.val / 4 % 4) r) (t.val % 4 + 1))
  ∧ (∀ r : Fin 128, H.2.2.1 (ix2 r (0 : Fin 1)) = runDen (inp m c) (bat t) (keyAt (t.val / 4 % 4) r) (t.val % 4 + 1))
  ∧ (∀ (r : Fin 128) (d : Fin 256), H.2.2.2 (ix2 r d) = runNum (inp m c) (bat t) (keyAt (t.val / 4 % 4) r) d (t.val % 4 + 1))

/-- One point: from scratch values that are the running values after `t % 4` tiles, the body's stored values are
    those after `t % 4 + 1`. -/
theorem point_step (t : Fin cfg0.N) (mp lp : Vec Ideal S128x1 .f32) (ap : Vec Ideal S128x256 .f32)
    (hm : ∀ r : Fin 128, mp (ix2 r (0 : Fin 1)) = runMax (inp m c) (bat t) (keyAt (t.val / 4 % 4) r) (t.val % 4))
    (hl : ∀ r : Fin 128, lp (ix2 r (0 : Fin 1)) = runDen (inp m c) (bat t) (keyAt (t.val / 4 % 4) r) (t.val % 4))
    (ha : ∀ (r : Fin 128) (d : Fin 256), ap (ix2 r d) = runNum (inp m c) (bat t) (keyAt (t.val / 4 % 4) r) d (t.val % 4)) :
    (∀ r : Fin 128, k0_pay17 (F := Ideal) (k0_pay8 (iblk m c 2 t)) (k0_pay9 (iblk m c 0 t) (iblk m c 2 t)) (k0_pay10 (iblk m c 0 t)) mp (ix2 r (0 : Fin 1))
        = runMax (inp m c) (bat t) (keyAt (t.val / 4 % 4) r) (t.val % 4 + 1))
    ∧ (∀ r : Fin 128, k0_pay15 (F := Ideal) (k0_pay8 (iblk m c 2 t)) (k0_pay9 (iblk m c 0 t) (iblk m c 2 t)) (k0_pay10 (iblk m c 0 t)) mp lp (ix2 r (0 : Fin 1))
        = runDen (inp m c) (bat t) (keyAt (t.val / 4 % 4) r) (t.val % 4 + 1))
    ∧ (∀ (r : Fin 128) (d : Fin 256), k0_pay16 (F := Ideal) (k0_pay7 (iblk m c 1 t)) (k0_pay8 (iblk m c 2 t)) (k0_pay9 (iblk m c 0 t) (iblk m c 2 t)) (k0_pay10 (iblk m c 0 t)) mp ap (ix2 r d)
        = runNum (inp m c) (bat t) (keyAt (t.val / 4 % 4) r) d (t.val % 4 + 1)) :=
  ⟨fun r => Tile.max_eq (inp m c) (bat t) (t.val / 4 % 4) (t.val % 4) (iblk m c 0 t) (iblk m c 2 t) (hq m c t) (hkt m c t) mp hm r,
   fun r => Tile.den_eq (inp m c) (bat t) (t.val / 4 % 4) (t.val % 4) (iblk m c 0 t) (iblk m c 2 t) (hq m c t) (hkt m c t) mp lp hm hl r,
   fun r d => Tile.num_eq (inp m c) (bat t) (t.val / 4 % 4) (t.val % 4) (iblk m c 0 t) (iblk m c 1 t) (iblk m c 2 t) (hq m c t) (hkk m c t) (hkt m c t) mp ap hm ha r d⟩

/-- A first key tile, from the reset values. -/
theorem inv_first (t : Fin cfg0.N) (h0 : t.val % 4 = 0) (h1 : ¬t.val % 4 = 3) : Inv m c t (afterFirst m c t h0 h1) := by
  unfold Inv afterFirst; dsimp only
  rw [View.read_writes_junk_eq_canon, View.read_writes_junk_eq_canon, View.read_writes_junk_eq_canon, runA_max, runA_den, runA_num]
  exact point_step m c t _ _ _ (fun r => by rw [h0]; exact init_max_at r) (fun r => by rw [h0]; exact init_den_at r)
    (fun r d => by rw [h0]; exact init_num_at r d)

/-- The point before a later key tile is the same batch and query tile, one key tile earlier. -/
theorem inv_prev (t : Fin cfg0.N) (h0 : ¬t.val % 4 = 0) (p : Held Ideal)
    (hp : Inv m c ⟨t.val - 1, Nat.lt_of_le_of_lt (Nat.sub_le _ _) t.isLt⟩ p) :
    (∀ r : Fin 128, p.2.1 (ix2 r (0 : Fin 1)) = runMax (inp m c) (bat t) (keyAt (t.val / 4 % 4) r) (t.val % 4))
    ∧ (∀ r : Fin 128, p.2.2.1 (ix2 r (0 : Fin 1)) = runDen (inp m c) (bat t) (keyAt (t.val / 4 % 4) r) (t.val % 4))
    ∧ (∀ (r : Fin 128) (d : Fin 256), p.2.2.2 (ix2 r d) = runNum (inp m c) (bat t) (keyAt (t.val / 4 % 4) r) d (t.val % 4)) := by
  have eb : bat ⟨t.val - 1, Nat.lt_of_le_of_lt (Nat.sub_le _ _) t.isLt⟩ = bat t := Fin.ext (by show (t.val - 1) / 16 = t.val / 16; omega)
  have eq : (t.val - 1) / 4 % 4 = t.val / 4 % 4 := by omega
  have ek : (t.val - 1) % 4 + 1 = t.val % 4 := by omega
  unfold Inv at hp
  simp only [eb, eq, ek] at hp
  exact hp

theorem inv_middle (t : Fin cfg0.N) (h0 : ¬t.val % 4 = 0) (h1 : ¬t.val % 4 = 3) (p : Held Ideal)
    (hp : Inv m c ⟨t.val - 1, Nat.lt_of_le_of_lt (Nat.sub_le _ _) t.isLt⟩ p) : Inv m c t (afterMiddle m c t h0 h1 p) := by
  obtain ⟨hm, hl, ha⟩ := inv_prev m c t h0 p hp
  unfold Inv afterMiddle; dsimp only
  rw [View.read_writes_junk_eq_canon, View.read_writes_junk_eq_canon, View.read_writes_junk_eq_canon, runB_max, runB_den, runB_num]
  exact point_step m c t _ _ _ hm hl ha

theorem inv_last (t : Fin cfg0.N) (h0 : ¬t.val % 4 = 0) (h1 : t.val % 4 = 3) (p : Held Ideal)
    (hp : Inv m c ⟨t.val - 1, Nat.lt_of_le_of_lt (Nat.sub_le _ _) t.isLt⟩ p) : Inv m c t (afterLast m c t h0 h1 p) := by
  obtain ⟨hm, hl, ha⟩ := inv_prev m c t h0 p hp
  obtain ⟨g1, g2, g3⟩ := point_step m c t _ _ _ hm hl ha
  unfold Inv afterLast; dsimp only
  refine ⟨fun r => ?_, fun r => ?_, fun r d => ?_⟩
  · rw [View.read_writes_junk_eq_canon]; exact (congrFun (runC_max ..) _).trans (g1 r)
  · rw [View.read_writes_junk_eq_canon]; exact (congrFun (runC_den ..) _).trans (g2 r)
  · rw [View.read_writes_junk_eq_canon]; exact (congrFun (runC_num ..) _).trans (g3 r d)

/-- The invariant at every point, by induction on the point. -/
theorem inv_all : ∀ (n : ℕ) (hn : n < cfg0.N), Inv m c ⟨n, hn⟩ (heldAfter m c n hn) := by
  intro n
  induction n with
  | zero => intro hn; rw [heldAfter_first m c ⟨0, hn⟩ (Nat.zero_mod _) (by show ¬(0 % 4 = 3); decide)]; exact inv_first m c _ _ _
  | succ k ih =>
    intro hn
    by_cases h0 : (k + 1) % 4 = 0
    · have h1 : ¬(k + 1) % 4 = 3 := by omega
      rw [heldAfter_first m c ⟨k + 1, hn⟩ h0 h1]; exact inv_first m c _ _ _
    · by_cases h1 : (k + 1) % 4 = 3
      · rw [heldAfter_last m c ⟨k + 1, hn⟩ h0 h1]
        exact inv_last m c ⟨k + 1, hn⟩ h0 h1 _ (ih (Nat.lt_of_succ_lt hn))
      · rw [heldAfter_middle m c ⟨k + 1, hn⟩ h0 h1]
        exact inv_middle m c ⟨k + 1, hn⟩ h0 h1 _ (ih (Nat.lt_of_succ_lt hn))

/-! ## The result array -/

/-- The result array the specification's running form names. -/
def onlineArr : SOut.Idx → EReal := fun o => onlineAt (inp m c) (o 0) (o 1) (o 2)

/-- The block written back at a last key tile is the running form's block. -/
theorem flushed_eq (t : Fin cfg0.N) (hf : (cfg0.win 3).flush t = true) :
    (dats m 0 c).flushed 3 t = ((cfg0.win 3).blk t).view.read (Elt Ideal) (onlineArr m c) := by
  have h1 : t.val % 4 = 3 := (flush0_3 t).mp hf
  have h0 : ¬t.val % 4 = 0 := by omega
  show (cfg0.win 3).cut (grid0.coords t) ((dats m 0 c).after 3 t) = _
  rw [after0_3, heldAfter_last m c t h0 h1]
  funext y
  obtain ⟨z, r, cc, rfl⟩ : ∃ (z : Fin 1) (r : Fin 128) (cc : Fin 512), y = ix3 z r cc := ⟨y 0, y 1, y 2, eq_ix3 y⟩
  obtain rfl : z = 0 := Subsingleton.elim _ _
  have hI := inv_last m c t h0 h1 _ (inv_all m c (t.val - 1) (Nat.lt_of_le_of_lt (Nat.sub_le _ _) t.isLt))
  refine Eq.trans ?_ (read_blk3 (F := Ideal) (onlineArr m c) t r cc).symm
  show (afterLast m c t h0 h1 _).1 (ix3 (0 : Fin 1) r cc) = onlineAt (inp m c) (bat t) (qrow t r) cc
  unfold afterLast; dsimp only
  rw [View.read_writes_junk_eq_canon, runC_out, ← keyAt_q]
  refine Out.out_block_at (inp m c) (bat t) (t.val / 4 % 4) (iblk m c 0 t) _ _ (hq m c t) ?_ ?_ r cc
  · intro r d
    have := hI.2.2 r d
    unfold afterLast at this; dsimp only at this
    rw [View.read_writes_junk_eq_canon, runC_num, h1] at this
    exact this
  · intro r
    have := hI.2.1 r
    unfold afterLast at this; dsimp only at this
    rw [View.read_writes_junk_eq_canon, runC_den, h1] at this
    exact this

/-- The result array ends at the running form. -/
theorem final_out : (dats m 0 c).arrAt 3 cfg0.N = onlineArr m c :=
  (dats m 0 c).arrAt_eq_of_cover 3 (onlineArr m c) (flushed_eq m c) cover3

end Cert.KernelIdeal.Fr

end
-- ==== Proof.Online.lean ====
/-
  The online-softmax identity for finite inputs: after the fourth tile the quotient of the running weighted sum
  and the running denominator is the context row.

  Every entry of the input is a real number, so every score is a real number.  After `n + 1` tiles the running
  maximum is the real number `M n`, the largest score among the first `128 (n + 1)` keys; the running
  denominator is `Σ exp (s_j - M n)` and the running weighted sum is `Σ exp (s_j - M n) · x_j`, both over
  those keys (induction on `n`: raising the maximum from `M n` to `M (n + 1)` multiplies every earlier term by
  `exp (M n - M (n + 1))`, and `exp a · exp b = exp (a + b)`).  The four tiles enumerate the 512 keys, so after
  the fourth tile the maximum is the row maximum and the sums are the softmax denominator and numerator; the
  denominator is a positive real, and `(Σ w_j x_j) / D = Σ (w_j / D) x_j`.
-/
import proofs.«103369_j4544075399227_2_alg».proof.Proof.Spec

noncomputable section

namespace Cert.L1Attn

open Idealize.ShloMosaic Idealize.ShloMosaic.ValueIdx
open scoped BigOperators

/-! ## Coercions of finite sums, maxima and suprema of reals -/

/-- The coercion of a finite sum of reals is the sum of the coercions. -/
theorem coe_finsum {ι : Type*} (s : Finset ι) (f : ι → ℝ) :
    ((∑ a ∈ s, f a : ℝ) : EReal) = ∑ a ∈ s, (f a : EReal) := by
  classical
  induction s using Finset.induction_on with
  | empty => simp
  | insert a s ha ih => rw [Finset.sum_insert ha, Finset.sum_insert ha, EReal.coe_add, ih]

/-- The coercion of the larger of two reals is the larger of the coercions. -/
theorem coe_max' (a c : ℝ) : ((max a c : ℝ) : EReal) = max (a : EReal) (c : EReal) :=
  EReal.coe_strictMono.monotone.map_max

/-- The supremum of finitely many coerced reals over a nonempty index set is the coercion of their largest. -/
theorem sup_coe {ι : Type*} (s : Finset ι) (h : s.Nonempty) (f : ι → ℝ) :
    s.sup (fun a => (f a : EReal)) = ((s.sup' h f : ℝ) : EReal) := by
  apply le_antisymm
  · exact Finset.sup_le fun a ha => EReal.coe_le_coe_iff.2 (Finset.le_sup' f ha)
  · obtain ⟨a, ha, hEq⟩ := Finset.exists_mem_eq_sup' h f
    rw [hEq]
    exact Finset.le_sup (f := fun a => (f a : EReal)) ha

/-! ## The real-valued scores and running maxima -/

section Real

variable (r : SIn.Idx → ℝ)

/-- The score of key `j` for query `i` as a real number. -/
def scoreR (b : Fin 2) (i j : Fin 512) : ℝ :=
  -∑ d : Fin 256, max (r (ix3 b i d) - r (ix3 b j d)) (-(r (ix3 b i d) - r (ix3 b j d)))

/-- The largest score within tile `k` as a real number. -/
def tileMaxR (b : Fin 2) (i : Fin 512) (k : ℕ) : ℝ :=
  Finset.univ.sup' Finset.univ_nonempty fun jj : Fin 128 => scoreR r b i (keyAt k jj)

/-- The running maximum after `n + 1` tiles as a real number. -/
def runMaxR (b : Fin 2) (i : Fin 512) : ℕ → ℝ
  | 0 => tileMaxR r b i 0
  | n + 1 => max (runMaxR b i n) (tileMaxR r b i (n + 1))

theorem score_coe (b : Fin 2) (i j : Fin 512) :
    score (fun idx => (r idx : EReal)) b i j = ((scoreR r b i j : ℝ) : EReal) := by
  simp only [score, dist, scoreR, EReal.coe_neg, coe_finsum, coe_max', EReal.coe_sub]

theorem tileMax_coe (b : Fin 2) (i : Fin 512) (k : ℕ) :
    tileMax (fun idx => (r idx : EReal)) b i k = ((tileMaxR r b i k : ℝ) : EReal) := by
  simp only [tileMax, tileMaxR, score_coe]
  exact sup_coe _ _ _

theorem runMax_coe (b : Fin 2) (i : Fin 512) (n : ℕ) :
    runMax (fun idx => (r idx : EReal)) b i (n + 1) = ((runMaxR r b i n : ℝ) : EReal) := by
  induction n with
  | zero => simp only [runMax, runMaxR, tileMax_coe]; exact max_eq_right bot_le
  | succ n ih => rw [runMax, ih, tileMax_coe, runMaxR, coe_max']

theorem runMax_zero (b : Fin 2) (i : Fin 512) : runMax (fun idx => (r idx : EReal)) b i 0 = ⊥ := rfl

/-! ## The running sums -/

/-- After `n + 1` tiles the running denominator is the sum of `exp (s_j - M n)` over the keys of those tiles. -/
theorem runDen_coe (b : Fin 2) (i : Fin 512) (n : ℕ) :
    runDen (fun idx => (r idx : EReal)) b i (n + 1)
      = ((∑ t ∈ Finset.range (n + 1), ∑ jj : Fin 128,
            Real.exp (scoreR r b i (keyAt t jj) - runMaxR r b i n) : ℝ) : EReal) := by
  induction n with
  | zero =>
    rw [runDen, runMax_coe, runMax_zero]
    simp only [runDen, mul_zero, zero_add, score_coe, ← EReal.coe_sub, Ideal.exp_coe, ← coe_finsum,
      Finset.sum_range_one]
  | succ n ih =>
    rw [runDen, ih, runMax_coe, runMax_coe]
    simp only [score_coe, ← EReal.coe_sub, Ideal.exp_coe, ← coe_finsum, ← EReal.coe_mul, ← EReal.coe_add]
    congr 1
    rw [Finset.sum_range_succ _ (n + 1), Finset.mul_sum]
    congr 1
    apply Finset.sum_congr rfl
    intro t _
    rw [Finset.mul_sum]
    apply Finset.sum_congr rfl
    intro jj _
    rw [← Real.exp_add]
    congr 1
    ring

/-- After `n + 1` tiles the running weighted sum is the sum of `exp (s_j - M n) · x_j` over the keys of those
    tiles. -/
theorem runNum_coe (b : Fin 2) (i : Fin 512) (d : Fin 256) (n : ℕ) :
    runNum (fun idx => (r idx : EReal)) b i d (n + 1)
      = ((∑ t ∈ Finset.range (n + 1), ∑ jj : Fin 128,
            Real.exp (scoreR r b i (keyAt t jj) - runMaxR r b i n) * r (ix3 b (keyAt t jj) d) : ℝ) : EReal) := by
  induction n with
  | zero =>
    rw [runNum, runMax_coe, runMax_zero]
    simp only [runNum, mul_zero, zero_add, score_coe, ← EReal.coe_sub, Ideal.exp_coe, ← EReal.coe_mul,
      ← coe_finsum, Finset.sum_range_one]
  | succ n ih =>
    rw [runNum, ih, runMax_coe, runMax_coe]
    simp only [score_coe, ← EReal.coe_sub, Ideal.exp_coe, ← coe_finsum, ← EReal.coe_mul, ← EReal.coe_add]
    congr 1
    rw [Finset.sum_range_succ _ (n + 1), Finset.mul_sum]
    congr 1
    apply Finset.sum_congr rfl
    intro t _
    rw [Finset.mul_sum]
    apply Finset.sum_congr rfl
    intro jj _
    rw [← mul_assoc, ← Real.exp_add]
    congr 2
    ring

/-! ## The four tiles enumerate the keys -/

/-- Tile `t` and position `jj` name key `128 t + jj`: a bijection of `Fin 4 × Fin 128` with `Fin 512`. -/
def keyEquiv : Fin 4 × Fin 128 ≃ Fin 512 where
  toFun p := keyAt p.1.val p.2
  invFun j := (⟨j.val / 128, by have := j.isLt; omega⟩, ⟨j.val % 128, Nat.mod_lt _ (by decide)⟩)
  left_inv := by
    rintro ⟨⟨t, ht⟩, ⟨jj, hjj⟩⟩
    refine Prod.ext (Fin.ext ?_) (Fin.ext ?_)
    · show (128 * t + jj) % 512 / 128 = t
      omega
    · show (128 * t + jj) % 512 % 128 = jj
      omega
  right_inv := by
    rintro ⟨j, hj⟩
    refine Fin.ext ?_
    show (128 * (j / 128) + j % 128) % 512 = j
    omega

/-- A sum over the four tiles is the sum over all keys. -/
theorem sum_tiles (f : Fin 512 → ℝ) :
    ∑ t ∈ Finset.range 4, ∑ jj : Fin 128, f (keyAt t jj) = ∑ j : Fin 512, f j := by
  rw [Finset.sum_range (fun t => ∑ jj : Fin 128, f (keyAt t jj))]
  exact (Fintype.sum_prod_type' (fun (t : Fin 4) (jj : Fin 128) => f (keyAt t.val jj))).symm.trans
    (keyEquiv.sum_comp f)

/-- Every key lies in one of the four tiles. -/
theorem exists_keyAt (j : Fin 512) : ∃ t, t ≤ 3 ∧ ∃ jj : Fin 128, keyAt t jj = j := by
  refine ⟨(keyEquiv.symm j).1.val, by have := (keyEquiv.symm j).1.isLt; omega, (keyEquiv.symm j).2, ?_⟩
  exact keyEquiv.apply_symm_apply j

/-! ## The running maximum after the fourth tile is the row maximum -/

theorem score_le_tileMaxR (b : Fin 2) (i : Fin 512) (k : ℕ) (jj : Fin 128) :
    scoreR r b i (keyAt k jj) ≤ tileMaxR r b i k :=
  Finset.le_sup' (fun jj => scoreR r b i (keyAt k jj)) (Finset.mem_univ jj)

theorem score_le_runMaxR (b : Fin 2) (i : Fin 512) (n t : ℕ) (ht : t ≤ n) (jj : Fin 128) :
    scoreR r b i (keyAt t jj) ≤ runMaxR r b i n := by
  induction n with
  | zero =>
    obtain rfl : t = 0 := by omega
    exact score_le_tileMaxR r b i 0 jj
  | succ n ih =>
    rw [runMaxR]
    rcases Nat.lt_or_ge t (n + 1) with h | h
    · exact le_trans (ih (by omega)) (le_max_left _ _)
    · obtain rfl : t = n + 1 := by omega
      exact le_trans (score_le_tileMaxR r b i (n + 1) jj) (le_max_right _ _)

theorem tileMaxR_le_sup (b : Fin 2) (i : Fin 512) (k : ℕ) :
    tileMaxR r b i k ≤ Finset.univ.sup' Finset.univ_nonempty (fun j : Fin 512 => scoreR r b i j) :=
  Finset.sup'_le _ _ fun jj _ =>
    Finset.le_sup' (fun j : Fin 512 => scoreR r b i j) (Finset.mem_univ (keyAt k jj))

theorem runMaxR_le_sup (b : Fin 2) (i : Fin 512) (n : ℕ) :
    runMaxR r b i n ≤ Finset.univ.sup' Finset.univ_nonempty (fun j : Fin 512 => scoreR r b i j) := by
  induction n with
  | zero => exact tileMaxR_le_sup r b i 0
  | succ n ih => rw [runMaxR]; exact max_le ih (tileMaxR_le_sup r b i (n + 1))

theorem rowMax_coe (b : Fin 2) (i : Fin 512) :
    rowMax (fun idx => (r idx : EReal)) b i = ((runMaxR r b i 3 : ℝ) : EReal) := by
  simp only [rowMax, score_coe]
  rw [sup_coe Finset.univ Finset.univ_nonempty (fun j : Fin 512 => scoreR r b i j)]
  congr 1
  apply le_antisymm
  · refine Finset.sup'_le _ _ fun j _ => ?_
    obtain ⟨t, ht, jj, rfl⟩ := exists_keyAt j
    exact score_le_runMaxR r b i 3 t ht jj
  · exact runMaxR_le_sup r b i 3

/-! ## The identity -/

theorem weight_coe (b : Fin 2) (i j : Fin 512) :
    weight (fun idx => (r idx : EReal)) b i j
      = ((Real.exp (scoreR r b i j - runMaxR r b i 3) : ℝ) : EReal) := by
  rw [weight, score_coe, rowMax_coe, ← EReal.coe_sub, Ideal.exp_coe]

theorem denom_coe (b : Fin 2) (i : Fin 512) :
    denom (fun idx => (r idx : EReal)) b i
      = ((∑ j : Fin 512, Real.exp (scoreR r b i j - runMaxR r b i 3) : ℝ) : EReal) := by
  simp only [denom, weight_coe, ← coe_finsum]

/-- The softmax denominator is a positive real: a sum of 512 positive terms. -/
theorem denomR_pos (b : Fin 2) (i : Fin 512) :
    0 < ∑ j : Fin 512, Real.exp (scoreR r b i j - runMaxR r b i 3) :=
  Finset.sum_pos (fun j _ => Real.exp_pos _) Finset.univ_nonempty

/-- The identity for an input given by real numbers. -/
theorem online_context_coe (b : Fin 2) (i : Fin 512) (d : Fin 256) :
    Ideal.div (runNum (fun idx => (r idx : EReal)) b i d 4) (runDen (fun idx => (r idx : EReal)) b i 4)
      = context (fun idx => (r idx : EReal)) b i d := by
  have hD := denomR_pos r b i
  show Ideal.div (runNum (fun idx => (r idx : EReal)) b i d (3 + 1))
      (runDen (fun idx => (r idx : EReal)) b i (3 + 1)) = _
  rw [context, denom_coe, runNum_coe, runDen_coe]
  rw [sum_tiles (fun j => Real.exp (scoreR r b i j - runMaxR r b i 3)),
    sum_tiles (fun j => Real.exp (scoreR r b i j - runMaxR r b i 3) * r (ix3 b j d))]
  simp only [Ideal.div_coe (ne_of_gt hD), weight_coe, ← EReal.coe_mul, ← coe_finsum]
  congr 1
  rw [Finset.sum_mul]
  exact Finset.sum_congr rfl fun j _ => by ring

end Real

/-- A finite input is the coercion of a real-valued one. -/
theorem exists_real (x : SIn.Idx → EReal) (hx : Finite x) :
    ∃ r : SIn.Idx → ℝ, x = fun idx => (r idx : EReal) :=
  ⟨fun idx => (x idx).toReal, funext fun idx => (EReal.coe_toReal (hx idx).2 (hx idx).1).symm⟩

/-- The online-softmax identity: after the fourth tile the quotient of the running sums is the context row. -/
theorem online_context (x : SIn.Idx → EReal) (hx : Finite x) (b : Fin 2) (i : Fin 512) (d : Fin 256) :
    Ideal.div (runNum x b i d 4) (runDen x b i 4) = context x b i d := by
  obtain ⟨r, rfl⟩ := exists_real x hx
  exact online_context_coe r b i d

/-- The running form and the direct form of the result agree at every coordinate. -/
theorem onlineAt_eq (x : SIn.Idx → EReal) (hx : Finite x) (b : Fin 2) (i : Fin 512) (c : Fin 512) :
    onlineAt x b i c = attnAt x b i c := by
  unfold onlineAt attnAt
  split
  · rfl
  · exact online_context x hx b i _

end Cert.L1Attn

end
-- ==== Proof.RefIsSpec.lean ====
/-
  The reference program's result, read index by index, is the specification.

  The reference broadcasts the input to all pairs of rows, subtracts, takes absolute values and sums over the features:
  the L1 distances.  It negates them, takes the row maximum (joined with -inf, which changes nothing), subtracts it,
  exponentiates, sums over the keys and divides: the softmax weights.  It contracts the weights with the rows over the
  keys, batch by batch, and joins the input and the contexts along the last axis: columns below 256 are the input row,
  the others the context row.
-/
import proofs.«103369_j4544075399227_2_alg».proof.Proof.Gen.ReferenceIdeal.Read
import proofs.«103369_j4544075399227_2_alg».proof.Proof.Spec

noncomputable section

namespace Cert.L1Attn.Ref

open Cert.ReferenceIdeal Cert.ReferenceIdeal.Gen Cert.ReferenceIdeal.Read Idealize.ShloMosaic Idealize.ShloMosaic.ValueIdx
open scoped BigOperators

variable (x0 : (⟨S2x512x256, .f32⟩ : BufTy).Contents (Elt Ideal))

/-! ## The distance -/

/-- Row `i`'s entry `k`, reached through the two broadcasts of the left operand. -/
theorem idx_left (b : Fin 2) (i j : Fin 512) (k : Fin 256) :
    idx_main_v0 (idx_main_v2 (idx_main_v6 (ix3 b i j) k)) = ix3 b i k :=
  funext fun a => Fin.ext (by match a with | ⟨0, _⟩ => rfl | ⟨1, _⟩ => rfl | ⟨2, _⟩ => rfl)

/-- Row `j`'s entry `k`, reached through the two broadcasts of the right operand. -/
theorem idx_right (b : Fin 2) (i j : Fin 512) (k : Fin 256) :
    idx_main_v1 (idx_main_v3 (idx_main_v6 (ix3 b i j) k)) = ix3 b j k :=
  funext fun a => Fin.ext (by match a with | ⟨0, _⟩ => rfl | ⟨1, _⟩ => rfl | ⟨2, _⟩ => rfl)

/-- The sum over the features of the absolute differences is the L1 distance. -/
theorem v6_at (b : Fin 2) (i j : Fin 512) :
    val_main_v6 (F := Ideal) x0 (ix3 b i j) = dist x0 b i j := by
  rw [val_main_v6_apply, val_main_cst_apply]
  simp only [val_main_v5_apply, val_main_v4_apply, val_main_v2_apply, val_main_v3_apply, val_main_v0_apply,
    val_main_v1_apply, idx_left, idx_right, Ideal.ofBits_def, Ideal.ofBits_zero_f32, zero_add, Ideal.hostAbsf_def,
    Ideal.absf_def, Ideal.subf_def]
  rfl

/-! ## The score and its row maximum -/

/-- Minus the distance is the score. -/
theorem v7_at (b : Fin 2) (i j : Fin 512) :
    val_main_v7 (F := Ideal) x0 (ix3 b i j) = score x0 b i j := by
  rw [val_main_v7_apply, v6_at, Ideal.hostNegf_def, Ideal.negf_def]
  rfl

/-- The word `0xFF800000` is minus infinity, the least extended real. -/
theorem ofBits_neg_inf : Ideal.ofBits .f32 0xFF800000#32 = (⊥ : EReal) := by
  simp [Ideal.ofBits, Ideal.ieee]

/-- Query `(b, i)` with key `k` put back on the reduced axis is `(b, i, k)`. -/
theorem lift_row (h : S2x512x512.Reduces [2] S2x512) (b : Fin 2) (i : Fin 512) (k : Fin (S2x512x512.size 2)) :
    h.lift (ix2 b i) k = ix3 b i (⟨k.val, k.isLt⟩ : Fin 512) := by
  funext c
  apply Fin.ext
  match c with
  | ⟨0, _⟩ => rfl
  | ⟨1, _⟩ => rfl
  | ⟨2, _⟩ => rfl

/-- The maximum-reduce over the keys, from minus infinity, is the supremum of the scores of the row. -/
theorem v8_at (b : Fin 2) (i : Fin 512) :
    val_main_v8 (F := Ideal) x0 (ix2 b i) = rowMax x0 b i := by
  have h : S2x512x512.Reduces [2] S2x512 := by decide
  unfold val_main_v8
  rw [Host.reduce_eq_fold_single (α := Ideal .f32) (s := S2x512x512) (t := S2x512) (u := S_) (a := 2) (FloatOps.maximumf (F := Ideal) (φ := .f32)) (val_main_v7 (F := Ideal) x0) (val_main_cst_0 (F := Ideal)) reducesTo_S2x512x512_S2x512_d2 h h_S_ (ix2 b i),
    val_main_cst_0_apply, Ideal.ofBits_def, ofBits_neg_inf]
  have hf : (val_main_v7 (F := Ideal) x0 ∘ h.lift (ix2 b i)) = fun k : Fin 512 => score x0 b i k :=
    funext fun k => by
      show val_main_v7 (F := Ideal) x0 (h.lift (ix2 b i) k) = _
      rw [lift_row, v7_at]
      rfl
  rw [hf]
  rfl

/-- The maximum with the broadcast minus infinity changes nothing. -/
theorem v10_at (b : Fin 2) (i : Fin 512) :
    val_main_v10 (F := Ideal) x0 (ix2 b i) = rowMax x0 b i := by
  rw [val_main_v10_apply, val_main_v9_apply, val_main_cst_1_apply, v8_at, Ideal.ofBits_def, ofBits_neg_inf,
    Ideal.maximumf_def]
  exact max_eq_right bot_le

/-! ## The weights and their sum -/

/-- The row maximum broadcast along the keys is read at the query. -/
theorem idx_row (b : Fin 2) (i j : Fin 512) :
    idx_main_v11 (idx_main_v12 (ix3 b i j)) = ix2 b i :=
  funext fun a => Fin.ext (by match a with | ⟨0, _⟩ => rfl | ⟨1, _⟩ => rfl)

/-- The exponential of the score relative to the row maximum is the weight. -/
theorem v14_at (b : Fin 2) (i j : Fin 512) :
    val_main_v14 (F := Ideal) x0 (ix3 b i j) = weight x0 b i j := by
  rw [val_main_v14_apply, val_main_v13_apply, val_main_v12_apply, val_main_v11_apply, idx_row, v10_at, v7_at,
    Ideal.hostUnary_exp_def, Ideal.subf_def]
  rfl

/-- Query `(b, i)` with key `k` on the summed axis is `(b, i, k)`. -/
theorem idx_key (b : Fin 2) (i : Fin 512) (k : Fin 512) :
    idx_main_v15 (ix2 b i) k = ix3 b i k :=
  funext fun a => Fin.ext (by match a with | ⟨0, _⟩ => rfl | ⟨1, _⟩ => rfl | ⟨2, _⟩ => rfl)

/-- The sum of the weights over the keys, from zero, is the denominator. -/
theorem v15_at (b : Fin 2) (i : Fin 512) :
    val_main_v15 (F := Ideal) x0 (ix2 b i) = denom x0 b i := by
  rw [val_main_v15_apply, val_main_cst_2_apply, Ideal.ofBits_def, Ideal.ofBits_zero_f32, zero_add]
  simp only [idx_key, v14_at]
  rfl

/-- The denominator broadcast along the keys is read at the query. -/
theorem idx_row' (b : Fin 2) (i j : Fin 512) :
    idx_main_v16 (idx_main_v17 (ix3 b i j)) = ix2 b i :=
  funext fun a => Fin.ext (by match a with | ⟨0, _⟩ => rfl | ⟨1, _⟩ => rfl)

/-- The quotient of the weight by the denominator. -/
theorem v18_at (b : Fin 2) (i j : Fin 512) :
    val_main_v18 (F := Ideal) x0 (ix3 b i j) = Ideal.div (weight x0 b i j) (denom x0 b i) := by
  rw [val_main_v18_apply, val_main_v17_apply, val_main_v16_apply, idx_row', v15_at, v14_at, Ideal.hostDivf_def]

/-! ## The context row and the result -/

/-- The left operand of the contraction at key `k`. -/
theorem idx_lhs (b : Fin 2) (i : Fin 512) (d : Fin 256) (k : Fin 512) :
    lidx_main_v19 (ix3 b i d) k = ix3 b i k :=
  funext fun a => Fin.ext (by match a with | ⟨0, _⟩ => rfl | ⟨1, _⟩ => rfl | ⟨2, _⟩ => rfl)

/-- The right operand of the contraction at key `k`. -/
theorem idx_rhs (b : Fin 2) (i : Fin 512) (d : Fin 256) (k : Fin 512) :
    ridx_main_v19 (ix3 b i d) k = ix3 b k d :=
  funext fun a => Fin.ext (by match a with | ⟨0, _⟩ => rfl | ⟨1, _⟩ => rfl | ⟨2, _⟩ => rfl)

/-- The contraction over the keys is the context row. -/
theorem v19_at (b : Fin 2) (i : Fin 512) (d : Fin 256) :
    val_main_v19 (F := Ideal) x0 (ix3 b i d) = context x0 b i d := by
  rw [val_main_v19_apply]
  simp only [idx_lhs, idx_rhs, v18_at]
  rfl

/-- The result at coordinates: the input row, then the context row. -/
theorem v20_at (b : Fin 2) (i c : Fin 512) :
    val_main_v20 (F := Ideal) x0 (ix3 b i c) = attnAt x0 b i c := by
  unfold val_main_v20 attnAt
  by_cases h : c.val < 256
  · rw [dif_pos h]
    exact concatenate_pair_apply_left (2 : Fin S2x512x512.rank) x0 (val_main_v19 (F := Ideal) x0)
      concatenates_S2x512x256_S2x512x256_S2x512x512_d2 (ix3 b i c) rfl (ix3 b i (⟨c.val, h⟩ : Fin 256))
      (fun a => by match a with | ⟨0, _⟩ => rfl | ⟨1, _⟩ => rfl | ⟨2, _⟩ => rfl)
  · rw [dif_neg h, ← v19_at]
    exact concatenate_pair_apply_right (2 : Fin S2x512x512.rank) x0 (val_main_v19 (F := Ideal) x0)
      concatenates_S2x512x256_S2x512x256_S2x512x512_d2 (ix3 b i c) rfl rfl
      (ix3 b i (⟨c.val - 256, by have := c.isLt; omega⟩ : Fin 256))
      (fun a ha => by
        match a, ha with
        | ⟨0, _⟩, _ => rfl
        | ⟨1, _⟩, _ => rfl
        | ⟨2, _⟩, ha => exact absurd rfl ha)
      (by show c.val - 256 + 256 = c.val; omega)

/-- the reference's result array is the specification -/
theorem ref_is_attn (x0 : (⟨Cert.ReferenceIdeal.S2x512x256, .f32⟩ : BufTy).Contents (Elt Ideal)) :
    Cert.ReferenceIdeal.Read.val_main_v20 (F := Ideal) x0 = Cert.L1Attn.attn x0 := by
  funext o
  obtain ⟨b, i, c, rfl⟩ : ∃ (b : Fin 2) (i c : Fin 512), o = ix3 b i c := ⟨o 0, o 1, o 2, eq_ix3 o⟩
  exact v20_at x0 b i c

end Cert.L1Attn.Ref

end
-- ==== Proof.FiniteOfPre.lean ====
/-
  The precondition says every entry of the input is a real number.

  The printed predicate compares the absolute value of every entry with +inf and conjoins the comparisons over the whole
  array; if the conjunction is one, every comparison is, and an extended real whose absolute value is below +inf is
  neither +inf nor -inf.
-/
import proofs.«103369_j4544075399227_2_alg».proof.Pre_finite_inputs
import proofs.«103369_j4544075399227_2_alg».proof.Proof.Spec
import Idealize.ShloMosaic.Lib.ReduceAll
import Idealize.ShloMosaic.PureOps.Ideal.Laws

noncomputable section

namespace Cert.L1Attn.Ref

open Idealize.ShloMosaic Idealize.ShloMosaic.ValueIdx

/-- The word `0x7F800000` is plus infinity, the greatest extended real. -/
theorem ofBits_pos_inf : Ideal.ofBits .f32 0x7F800000#32 = (⊤ : EReal) := by
  simp [Ideal.ofBits, Ideal.ieee]

/-- An extended real whose absolute value `max y (-y)` is below plus infinity is a real number. -/
theorem real_of_abs_lt_top (y : EReal) (h : max y (-y) < ⊤) : y ≠ ⊥ ∧ y ≠ ⊤ := by
  rw [max_lt_iff] at h
  refine ⟨fun hb => ?_, fun ht => ?_⟩
  · rw [hb] at h; simp at h
  · rw [ht] at h; simp at h

/-- the printed precondition, all ones, says every entry is a real number -/
theorem finite_of_pre [Cert.Pre_finite_inputs.Facts] (x0 : FVec Ideal Cert.Pre_finite_inputs.S2x512x256 .f32)
    (h : Cert.Pre_finite_inputs.fn (F := Ideal) x0 = fun _ => 1#1) : Cert.L1Attn.Finite x0 := by
  intro idx
  have h0 := congrFun h ix0
  dsimp only [Cert.Pre_finite_inputs.fn] at h0
  haveI : Subsingleton Cert.Pre_finite_inputs.S_.Idx := ⟨fun a b => funext fun d => d.elim0⟩
  have e := Host.reduce_andi_all _ _ _ _ _ h0 idx
  have e' : Ideal.cmp .olt (max (x0 idx) (-(x0 idx))) (Ideal.ofBits .f32 0x7F800000#32) = 1#1 := e
  rw [ofBits_pos_inf] at e'
  refine real_of_abs_lt_top _ ?_
  by_contra hn
  simp [Ideal.cmp, hn] at e'

end Cert.L1Attn.Ref

end
-- ==== Proof.lean ====
/-
  L1-distance attention: the Pallas kernel against its jnp reference, over the extended reals.

  The kernel visits, for each batch and tile of 128 query rows, the keys in four tiles of 128 with the key tile
  innermost, keeping a running maximum of the scores (minus the L1 distances), and a denominator and a numerator taken
  relative to that maximum and rescaled whenever a tile raises it; at the last key tile it writes each query row followed
  by numerator over denominator.  The reference computes all 512 scores of a row at once, takes their softmax as
  `exp (s - max) / Σ exp (s - max)`, and multiplies by the rows.  For finite inputs the two are one function
  (`Online.lean`): exp (a - b) · exp (b - c) = exp (a - c) moves a partial sum from one maximum to the next, and a
  quotient of sums is the sum of the quotients; both need every entry to be a real number, which is what the
  precondition says (`FiniteOfPre.lean`).

  The frames: each printed program runs to its end from any memory and leaves the input array as launched — the two
  kernel programs by the pipeline's launch with the body run at every grid point in its three cases (`K/`, `KI/`),
  the reference by its run operation by operation.  The idealization rewrote nothing, so `preserves` is `True`.
-/
import proofs.«103369_j4544075399227_2_alg».proof.Defs
import proofs.«103369_j4544075399227_2_alg».proof.Proof.Gen.Kernel
import proofs.«103369_j4544075399227_2_alg».proof.Proof.Gen.KernelIdeal
import proofs.«103369_j4544075399227_2_alg».proof.Proof.Gen.ReferenceIdeal
import proofs.«103369_j4544075399227_2_alg».proof.Proof.Gen.Pre_finite_inputs
import proofs.«103369_j4544075399227_2_alg».proof.Proof.Gen.ReferenceIdeal.Run
import proofs.«103369_j4544075399227_2_alg».proof.Proof.K.Launch
import proofs.«103369_j4544075399227_2_alg».proof.Proof.KI.Value
import proofs.«103369_j4544075399227_2_alg».proof.Proof.Online
import proofs.«103369_j4544075399227_2_alg».proof.Proof.RefIsSpec
import proofs.«103369_j4544075399227_2_alg».proof.Proof.FiniteOfPre

noncomputable section

namespace Cert.Proof

open Idealize.ShloMosaic Idealize.ShloMosaic.TcCoe Idealize.SL.Sem

theorem frame_k : Cert.frame_Kernel := fun m ρ _ => Cert.Kernel.Fr.frame m ρ

theorem frame_ki : Cert.frame_KernelIdeal := fun m ρ _ => Cert.KernelIdeal.Fr.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the specification's array of the common input: the kernel through its running form,
    which is the specification on finite inputs; the reference operation by operation. -/
theorem algebraic : Cert.algebraic_KernelIdeal_ReferenceIdeal := by
  intro m ρ m' ρ' hpre hagree
  refine ⟨fun c => Cert.L1Attn.attn (m ((c.tc : Thread Cert.KernelIdeal.nD Cert.KernelIdeal.τ).loc Cert.KernelIdeal.main_arg0)), ?_, ?_⟩
  · refine (θ_run Cert.KernelIdeal.defs _ _).mono (fun r h c => ⟨?_, ?_⟩) (Cert.KernelIdeal.Fr.run_main m ρ)
    · refine ((h c) 3).trans ((Cert.KernelIdeal.Fr.final_out m c).trans ?_)
      funext o
      exact Cert.L1Attn.onlineAt_eq _ (Cert.L1Attn.Ref.finite_of_pre _ (hpre c)) (o 0) (o 1) (o 2)
    · exact ((h c) 0).trans (((Cert.KernelIdeal.Fr.dats m 0 c).arrAt_in 0 rfl _).trans
        ((Cert.KernelIdeal.Fr.A_eq m c 0).trans (Cert.KernelIdeal.Fr.V_main_arg0 m c)))
  · refine (θ_run Cert.ReferenceIdeal.defs _ _).mono (fun r h c => ⟨?_, (h c).2⟩) (Cert.ReferenceIdeal.Value.run (F := Ideal) m' ρ')
    exact (h c).1.trans ((Cert.ReferenceIdeal.Read.val_main_v20_eq _).trans ((Cert.L1Attn.Ref.ref_is_attn _).trans
      (congrArg Cert.L1Attn.attn (hagree c))))

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
